-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S1 : S_.BroadcastsInDim S1 (![] : Fin 0 → Fin S1.rank)
  reducesTo_S1_S_d0 : S1.ReducesTo [0] S_
  bcast_S_S288x200 : S_.BroadcastsInDim S288x200 (![] : Fin 0 → Fin S288x200.rank)
  reducesTo_S288x200_S_d0_1 : S288x200.ReducesTo [0, 1] S_
  bcast_S_S288 : S_.BroadcastsInDim S288 (![] : Fin 0 → Fin S288.rank)
  reducesTo_S288_S_d0 : S288.ReducesTo [0] S_
  bcast_S_S32 : S_.BroadcastsInDim S32 (![] : Fin 0 → Fin S32.rank)
  reducesTo_S32_S_d0 : S32.ReducesTo [0] S_
  bcast_S_S400x12544 : S_.BroadcastsInDim S400x12544 (![] : Fin 0 → Fin S400x12544.rank)
  reducesTo_S400x12544_S_d0_1 : S400x12544.ReducesTo [0, 1] S_
  bcast_S_S400 : S_.BroadcastsInDim S400 (![] : Fin 0 → Fin S400.rank)
  reducesTo_S400_S_d0 : S400.ReducesTo [0] S_
  bcast_S_S1x400 : S_.BroadcastsInDim S1x400 (![] : Fin 0 → Fin S1x400.rank)
  reducesTo_S1x400_S_d0_1 : S1x400.ReducesTo [0, 1] S_

variable [Facts]

def fn_part6 {F : FTy → Type} [FloatOps F] (main_arg8 : FVec F S1 .f32) (main_arg14 : FVec F S32 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x3727C5AC#32
  let main_v104 : FVec F S1 .f32 := broadcastInDim S1 ![] bcast_S_S1 main_cst_40
  let main_v105 : FVec F S1 .f32 := addf main_arg8 main_v104
  let main_cst_41 : FVec F S_ .f32 := constant S_ .f32 0x00000000#32
  let main_v106 : FVec F S1 .f32 := broadcastInDim S1 ![] bcast_S_S1 main_cst_41
  let main_v107 : IVec S1 1 := cmpf .ogt main_v105 main_v106
  let main_c_42 : IVec S_ 1 := constantI S_ 1 1#1
  let main_v108 : IVec S_ 1 := (fun x v => Host.reduce IntOp.andi x v reducesTo_S1_S_d0 h_S_) main_v107 main_c_42
  let main_v109 : IVec S_ 1 := andi main_v103 main_v108
  let main_cst_43 : FVec F S_ .f32 := constant S_ .f32 0x3727C5AC#32
  let main_v110 : FVec F S32 .f32 := broadcastInDim S32 ![] bcast_S_S32 main_cst_43
  let main_v111 : FVec F S32 .f32 := addf main_arg14 main_v110
  let main_cst_44 : FVec F S_ .f32 := constant S_ .f32 0x00000000#32
  let main_v112 : FVec F S32 .f32 := broadcastInDim S32 ![] bcast_S_S32 main_cst_44
  let main_v113 : IVec S32 1 := cmpf .ogt main_v111 main_v112
  let main_c_45 : IVec S_ 1 := constantI S_ 1 1#1
  let main_v114 : IVec S_ 1 := (fun x v => Host.reduce IntOp.andi x v reducesTo_S32_S_d0 h_S_) main_v113 main_c_45
  let main_v115 : IVec S_ 1 := andi main_v109 main_v114
  main_v115

def fn_part5 {F : FTy → Type} [FloatOps F] (main_arg8 : FVec F S1 .f32) (main_arg14 : FVec F S32 .f32) (main_arg21 : FVec F S1x400 .f32) (main_arg22 : FVec F S1 .f32) (main_arg23 : FVec F S1 .f32) (main_v83 : IVec S_ 1) (main_v84 : FVec F S400 .f32) (main_cst_32 : FVec F S_ .f32) : IVec S_ 1 :=
  let main_v85 : FVec F S400 .f32 := broadcastInDim S400 ![] bcast_S_S400 main_cst_32
  let main_v86 : IVec S400 1 := cmpf .olt main_v84 main_v85
  let main_c_33 : IVec S_ 1 := constantI S_ 1 1#1
  let main_v87 : IVec S_ 1 := (fun x v => Host.reduce IntOp.andi x v reducesTo_S400_S_d0 h_S_) main_v86 main_c_33
  let main_v88 : IVec S_ 1 := andi main_v83 main_v87
  let main_v89 : FVec F S1x400 .f32 := Host.absf main_arg21
  let main_cst_34 : FVec F S_ .f32 := constant S_ .f32 0x7F800000#32
  let main_v90 : FVec F S1x400 .f32 := broadcastInDim S1x400 ![] bcast_S_S1x400 main_cst_34
  let main_v91 : IVec S1x400 1 := cmpf .olt main_v89 main_v90
  let main_c_35 : IVec S_ 1 := constantI S_ 1 1#1
  let main_v92 : IVec S_ 1 := (fun x v => Host.reduce IntOp.andi x v reducesTo_S1x400_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1 .f32 := Host.absf main_arg23
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg8 main_arg14 main_v98 main_v101 main_c_39

def fn_part4 {F : FTy → Type} [FloatOps F] (main_arg8 : FVec F S1 .f32) (main_arg14 : FVec F S32 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v63 : IVec S_ 1) (main_v67 : IVec S_ 1) : IVec S_ 1 :=
  let main_v68 : IVec S_ 1 := andi main_v63 main_v67
  let main_v69 : FVec F S400 .f32 := Host.absf main_arg17
  let main_cst_26 : FVec F S_ .f32 := constant S_ .f32 0x7F800000#32
  let main_v70 : FVec F S400 .f32 := broadcastInDim S400 ![] bcast_S_S400 main_cst_26
  let main_v71 : IVec S400 1 := cmpf .olt main_v69 main_v70
  let main_c_27 : IVec S_ 1 := constantI S_ 1 1#1
  let main_v72 : IVec S_ 1 := (fun x v => Host.reduce IntOp.andi x v reducesTo_S400_S_d0 h_S_) main_v71 main_c_27
  let main_v73 : IVec S_ 1 := andi main_v68 main_v72
  let main_v74 : FVec F S400 .f32 := Host.absf main_arg18
  let main_cst_28 : FVec F S_ .f32 := constant S_ .f32 0x7F800000#32
  let main_v75 : FVec F S400 .f32 := broadcastInDim S400 ![] bcast_S_S400 main_cst_28
  let main_v76 : IVec S400 1 := cmpf .olt main_v74 main_v75
  let main_c_29 : IVec S_ 1 := constantI S_ 1 1#1
  let main_v77 : IVec S_ 1 := (fun x v => Host.reduce IntOp.andi x v reducesTo_S400_S_d0 h_S_) main_v76 main_c_29
  let main_v78 : IVec S_ 1 := andi main_v73 main_v77
  let main_v79 : FVec F S400 .f32 := Host.absf main_arg19
  let main_cst_30 : FVec F S_ .f32 := constant S_ .f32 0x7F800000#32
  let main_v80 : FVec F S400 .f32 := broadcastInDim S400 ![] bcast_S_S400 main_cst_30
  let main_v81 : IVec S400 1 := cmpf .olt main_v79 main_v80
  let main_c_31 : IVec S_ 1 := constantI S_ 1 1#1
  let main_v82 : IVec S_ 1 := (fun x v => Host.reduce IntOp.andi x v reducesTo_S400_S_d0 h_S_) main_v81 main_c_31
  let main_v83 : IVec S_ 1 := andi main_v78 main_v82
  let main_v84 : FVec F S400 .f32 := Host.absf main_arg20
  let main_cst_32 : FVec F S_ .f32 := constant S_ .f32 0x7F800000#32
  fn_part5 (F := F) main_arg8 main_arg14 main_arg21 main_arg22 main_arg23 main_v83 main_v84 main_cst_32

def fn_part3 {F : FTy → Type} [FloatOps F] (main_arg8 : FVec F S1 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg14
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S400x12544 .f32 := Host.absf main_arg15
  let main_cst_22 : FVec F S_ .f32 := constant S_ .f32 0x7F800000#32
  let main_v60 : FVec F S400x12544 .f32 := broadcastInDim S400x12544 ![] bcast_S_S400x12544 main_cst_22
  let main_v61 : IVec S400x12544 1 := cmpf .olt main_v59 main_v60
  let main_c_23 : IVec S_ 1 := constantI S_ 1 1#1
  let main_v62 : IVec S_ 1 := (fun x v => Host.reduce IntOp.andi x v reducesTo_S400x12544_S_d0_1 h_S_) main_v61 main_c_23
  let main_v63 : IVec S_ 1 := andi main_v58 main_v62
  let main_v64 : FVec F S400 .f32 := Host.absf main_arg16
  let main_cst_24 : FVec F S_ .f32 := constant S_ .f32 0x7F800000#32
  let main_v65 : FVec F S400 .f32 := broadcastInDim S400 ![] bcast_S_S400 main_cst_24
  let main_v66 : IVec S400 1 := cmpf .olt main_v64 main_v65
  let main_c_25 : IVec S_ 1 := constantI S_ 1 1#1
  let main_v67 : IVec S_ 1 := (fun x v => Host.reduce IntOp.andi x v reducesTo_S400_S_d0 h_S_) main_v66 main_c_25
  fn_part4 (F := F) main_arg8 main_arg14 main_arg17 main_arg18 main_arg19 main_arg20 main_arg21 main_arg22 main_arg23 main_v63 main_v67

def fn_part2 {F : FTy → Type} [FloatOps F] (main_arg8 : FVec F S1 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v33 : IVec S_ 1) : IVec S_ 1 :=
  let main_v34 : FVec F S288 .f32 := Host.absf main_arg10
  let main_cst_12 : FVec F S_ .f32 := constant S_ .f32 0x7F800000#32
  let main_v35 : FVec F S288 .f32 := broadcastInDim S288 ![] bcast_S_S288 main_cst_12
  let main_v36 : IVec S288 1 := cmpf .olt main_v34 main_v35
  let main_c_13 : IVec S_ 1 := constantI S_ 1 1#1
  let main_v37 : IVec S_ 1 := (fun x v => Host.reduce IntOp.andi x v reducesTo_S288_S_d0 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg8 main_arg14 main_arg15 main_arg16 main_arg17 main_arg18 main_arg19 main_arg20 main_arg21 main_arg22 main_arg23 main_v48 main_v49 main_v50

def fn_part1 {F : FTy → Type} [FloatOps F] (main_arg7 : FVec F S1 .f32) (main_arg8 : FVec F S1 .f32) (main_arg9 : FVec F S288x200 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S288x200 .f32 := Host.absf main_arg9
  let main_cst_10 : FVec F S_ .f32 := constant S_ .f32 0x7F800000#32
  let main_v30 : FVec F S288x200 .f32 := broadcastInDim S288x200 ![] bcast_S_S288x200 main_cst_10
  let main_v31 : IVec S288x200 1 := cmpf .olt main_v29 main_v30
  let main_c_11 : IVec S_ 1 := constantI S_ 1 1#1
  let main_v32 : IVec S_ 1 := (fun x v => Host.reduce IntOp.andi x v reducesTo_S288x200_S_d0_1 h_S_) main_v31 main_c_11
  let main_v33 : IVec S_ 1 := andi main_v28 main_v32
  fn_part2 (F := F) main_arg8 main_arg10 main_arg11 main_arg12 main_arg13 main_arg14 main_arg15 main_arg16 main_arg17 main_arg18 main_arg19 main_arg20 main_arg21 main_arg22 main_arg23 main_v33

def fn {F : FTy → Type} [FloatOps F] (main_arg0 : IVec S4096 32) (main_arg1 : IVec S4096 32) (main_arg2 : IVec S4096 32) (main_arg3 : FVec F S100000x200 .f32) (main_arg4 : FVec F S500x200 .f32) (main_arg5 : FVec F S1 .f32) (main_arg6 : FVec F S1 .f32) (main_arg7 : FVec F S1 .f32) (main_arg8 : FVec F S1 .f32) (main_arg9 : FVec F S288x200 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) : IVec S_ 1 :=
  let main_v0 : FVec F S100000x200 .f32 := Host.absf main_arg3
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S500x200 .f32 := Host.absf main_arg4
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩
abbrev S4096x1 : Shape := ⟨2, ![4096, 1]⟩
abbrev S4096x200 : Shape := ⟨2, ![4096, 200]⟩
abbrev S4096x400 : Shape := ⟨2, ![4096, 400]⟩
abbrev S200x288 : Shape := ⟨2, ![200, 288]⟩
abbrev S500x288 : Shape := ⟨2, ![500, 288]⟩
abbrev S1x288 : Shape := ⟨2, ![1, 288]⟩
abbrev S500x32x9 : Shape := ⟨3, ![500, 32, 9]⟩
abbrev S500x9x32 : Shape := ⟨3, ![500, 9, 32]⟩
abbrev S4096x9x32 : Shape := ⟨3, ![4096, 9, 32]⟩
abbrev S12544x400 : Shape := ⟨2, ![12544, 400]⟩
abbrev S32x392x400 : Shape := ⟨3, ![32, 392, 400]⟩
abbrev S32x1x1 : Shape := ⟨3, ![32, 1, 1]⟩
abbrev S400x1 : Shape := ⟨2, ![400, 1]⟩
abbrev S128x400 : Shape := ⟨2, ![128, 400]⟩
abbrev S128x9x32 : Shape := ⟨3, ![128, 9, 32]⟩
abbrev S128x1 : Shape := ⟨2, ![128, 1]⟩
abbrev S1x1 : Shape := ⟨2, ![1, 1]⟩
abbrev S128x32x392 : Shape := ⟨3, ![128, 32, 392]⟩
abbrev S128x1x32 : Shape := ⟨3, ![128, 1, 32]⟩
abbrev S128x32 : Shape := ⟨2, ![128, 32]⟩
abbrev S128x392 : Shape := ⟨2, ![128, 392]⟩
abbrev S128x32x1 : Shape := ⟨3, ![128, 32, 1]⟩
abbrev S128x1x392 : Shape := ⟨3, ![128, 1, 392]⟩
abbrev S128x12544 : Shape := ⟨2, ![128, 12544]⟩

abbrev nBuf : Space → Nat
  | .hbm => 93
  | .vmem => 16
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S100000x200, .f32⟩
  | .hbm, ⟨4, _⟩ => ⟨S500x200, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S288x200, .f32⟩
  | .hbm, ⟨10, _⟩ => ⟨S288, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S400x12544, .f32⟩
  | .hbm, ⟨16, _⟩ => ⟨S400, .f32⟩
  | .hbm, ⟨17, _⟩ => ⟨S400, .f32⟩
  | .hbm, ⟨18, _⟩ => ⟨S400, .f32⟩
  | .hbm, ⟨19, _⟩ => ⟨S400, .f32⟩
  | .hbm, ⟨20, _⟩ => ⟨S400, .f32⟩
  | .hbm, ⟨21, _⟩ => ⟨S1x400, .f32⟩
  | .hbm, ⟨22, _⟩ => ⟨S1, .f32⟩
  | .hbm, ⟨23, _⟩ => ⟨S1, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x200, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x200, .f32⟩
  | .hbm, ⟨42, _⟩ => ⟨S4096x400, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S1, .f32⟩
  | .hbm, ⟨50, _⟩ => ⟨S200x288, .f32⟩
  | .hbm, ⟨51, _⟩ => ⟨S500x288, .f32⟩
  | .hbm, ⟨52, _⟩ => ⟨S1x288, .f32⟩
  | .hbm, ⟨53, _⟩ => ⟨S500x288, .f32⟩
  | .hbm, ⟨54, _⟩ => ⟨S500x288, .f32⟩
  | .hbm, ⟨55, _⟩ => ⟨S500x32x9, .f32⟩
  | .hbm, ⟨56, _⟩ => ⟨S500x9x32, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x9x32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S32, .f32⟩
  | .hbm, ⟨73, _⟩ => ⟨S12544x400, .f32⟩
  | .hbm, ⟨74, _⟩ => ⟨S32x392x400, .f32⟩
  | .hbm, ⟨75, _⟩ => ⟨S32x1x1, .f32⟩
  | .hbm, ⟨76, _⟩ => ⟨S32x392x400, .f32⟩
  | .hbm, ⟨77, _⟩ => ⟨S32x392x400, .f32⟩
  | .hbm, ⟨78, _⟩ => ⟨S12544x400, .f32⟩
  | .hbm, ⟨79, _⟩ => ⟨S32x1x1, .f32⟩
  | .hbm, ⟨80, _⟩ => ⟨S32x392x400, .f32⟩
  | .hbm, ⟨81, _⟩ => ⟨S32x392x400, .f32⟩
  | .hbm, ⟨82, _⟩ => ⟨S_, .f32⟩
  | .hbm, ⟨83, _⟩ => ⟨S400, .f32⟩
  | .hbm, ⟨84, _⟩ => ⟨S400, .f32⟩
  | .hbm, ⟨85, _⟩ => ⟨S12544x400, .bf16⟩
  | .hbm, ⟨86, _⟩ => ⟨S_, .f32⟩
  | .hbm, ⟨87, _⟩ => ⟨S400, .f32⟩
  | .hbm, ⟨88, _⟩ => ⟨S400, .f32⟩
  | .hbm, ⟨89, _⟩ => ⟨S400, .f32⟩
  | .hbm, ⟨90, _⟩ => ⟨S400, .f32⟩
  | .hbm, ⟨91, _⟩ => ⟨S400x1, .f32⟩
  | .hbm, ⟨92, _⟩ => ⟨S4096x1, .f32⟩
  | .local _ .vmem, ⟨0, _⟩ => ⟨S128x400, .f32⟩
  | .local _ .vmem, ⟨1, _⟩ => ⟨S128x400, .f32⟩
  | .local _ .vmem, ⟨2, _⟩ => ⟨S128x9x32, .f32⟩
  | .local _ .vmem, ⟨3, _⟩ => ⟨S128x9x32, .f32⟩
  | .local _ .vmem, ⟨4, _⟩ => ⟨S1, .f32⟩
  | .local _ .vmem, ⟨5, _⟩ => ⟨S1, .f32⟩
  | .local _ .vmem, ⟨6, _⟩ => ⟨S12544x400, .bf16⟩
  | .local _ .vmem, ⟨7, _⟩ => ⟨S400, .f32⟩
  | .local _ .vmem, ⟨8, _⟩ => ⟨S400, .f32⟩
  | .local _ .vmem, ⟨9, _⟩ => ⟨S400, .f32⟩
  | .local _ .vmem, ⟨10, _⟩ => ⟨S400, .f32⟩
  | .local _ .vmem, ⟨11, _⟩ => ⟨S400x1, .f32⟩
  | .local _ .vmem, ⟨12, _⟩ => ⟨S1, .f32⟩
  | .local _ .vmem, ⟨13, _⟩ => ⟨S1, .f32⟩
  | .local _ .vmem, ⟨14, _⟩ => ⟨S128x1, .f32⟩
  | .local _ .vmem, ⟨15, _⟩ => ⟨S128x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12544x400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x200_S4096x400_d1 : Shape.Concatenates [S4096x200, S4096x200] S4096x400 1
  bcast_S_S1 : S_.BroadcastsInDim S1 (![] : Fin 0 → Fin S1.rank)
  transposes_S288x200_S200x288_1_0 : S288x200.Transposes [1, 0] S200x288
  bcast_S288_S1x288_1 : S288.BroadcastsInDim S1x288 (![1] : Fin 1 → Fin S1x288.rank)
  bcast_S1x288_S500x288_0_1 : S1x288.BroadcastsInDim S500x288 (![0, 1] : Fin 2 → Fin S500x288.rank)
  shapeCasts_S500x288_S500x32x9 : S500x288.ShapeCasts S500x32x9
  transposes_S500x32x9_S500x9x32_0_2_1 : S500x32x9.Transposes [0, 2, 1] S500x9x32
  bcast_S_S32 : S_.BroadcastsInDim S32 (![] : Fin 0 → Fin S32.rank)
  transposes_S400x12544_S12544x400_1_0 : S400x12544.Transposes [1, 0] S12544x400
  shapeCasts_S12544x400_S32x392x400 : S12544x400.ShapeCasts S32x392x400
  bcast_S32_S32x1x1_0 : S32.BroadcastsInDim S32x1x1 (![0] : Fin 1 → Fin S32x1x1.rank)
  bcast_S32x1x1_S32x392x400_0_1_2 : S32x1x1.BroadcastsInDim S32x392x400 (![0, 1, 2] : Fin 3 → Fin S32x392x400.rank)
  shapeCasts_S32x392x400_S12544x400 : S32x392x400.ShapeCasts S12544x400
  reducesTo_S32x392x400_S400_d0_1 : S32x392x400.ReducesTo [0, 1] S400
  h_S_ : 0 < S_.numel
  bitsLt_bf16_f32 : FTy.bits .bf16 < FTy.bits .f32
  bcast_S_S400 : S_.BroadcastsInDim S400 (![] : Fin 0 → Fin S400.rank)
  transposes_S1x400_S400x1_1_0 : S1x400.Transposes [1, 0] S400x1
  inb_S128x400_S128x400_0_0 : ∀ a, (![0, 0] : Fin 2 → Nat) a + S128x400.size a ≤ S128x400.size a
  h_S128x400 : 0 < S128x400.numel
  shapeCasts_S128x400_S128x400 : S128x400.ShapeCasts S128x400
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S128x400 : S1x1.Broadcasts S128x400
  inb_S128x9x32_S128x9x32_0_0_0 : ∀ a, (![0, 0, 0] : Fin 3 → Nat) a + S128x9x32.size a ≤ S128x9x32.size a
  h_S128x9x32 : 0 < S128x9x32.numel
  shapeCasts_S128x9x32_S128x9x32 : S128x9x32.ShapeCasts S128x9x32
  slices_S128x9x32_o0_0_0_S128x1x32 : S128x9x32.Slices ![0, 0, 0] S128x1x32
  shapeCasts_S128x1x32_S128x32 : S128x1x32.ShapeCasts S128x32
  slices_S128x400_o0_0_S128x392 : S128x400.Slices ![0, 0] S128x392
  shapeCasts_S128x32_S128x32x1 : S128x32.ShapeCasts S128x32x1
  shapeCasts_S128x392_S128x1x392 : S128x392.ShapeCasts S128x1x392
  broadcasts_S128x32x1_S128x32x392 : S128x32x1.Broadcasts S128x32x392
  broadcasts_S128x1x392_S128x32x392 : S128x1x392.Broadcasts S128x32x392
  slices_S128x9x32_o0_1_0_S128x1x32 : S128x9x32.Slices ![0, 1, 0] S128x1x32
  slices_S128x400_o0_1_S128x392 : S128x400.Slices ![0, 1] S128x392
  slices_S128x9x32_o0_2_0_S128x1x32 : S128x9x32.Slices ![0, 2, 0] S128x1x32
  slices_S128x400_o0_2_S128x392 : S128x400.Slices ![0, 2] S128x392
  slices_S128x9x32_o0_3_0_S128x1x32 : S128x9x32.Slices ![0, 3, 0] S128x1x32
  slices_S128x400_o0_3_S128x392 : S128x400.Slices ![0, 3] S128x392
  slices_S128x9x32_o0_4_0_S128x1x32 : S128x9x32.Slices ![0, 4, 0] S128x1x32
  slices_S128x400_o0_4_S128x392 : S128x400.Slices ![0, 4] S128x392
  slices_S128x9x32_o0_5_0_S128x1x32 : S128x9x32.Slices ![0, 5, 0] S128x1x32
  slices_S128x400_o0_5_S128x392 : S128x400.Slices ![0, 5] S128x392
  slices_S128x9x32_o0_6_0_S128x1x32 : S128x9x32.Slices ![0, 6, 0] S128x1x32
  slices_S128x400_o0_6_S128x392 : S128x400.Slices ![0, 6] S128x392
  slices_S128x9x32_o0_7_0_S128x1x32 : S128x9x32.Slices ![0, 7, 0] S128x1x32
  slices_S128x400_o0_7_S128x392 : S128x400.Slices ![0, 7] S128x392
  slices_S128x9x32_o0_8_0_S128x1x32 : S128x9x32.Slices ![0, 8, 0] S128x1x32
  slices_S128x400_o0_8_S128x392 : S128x400.Slices ![0, 8] S128x392
  shapeCasts_S128x32x392_S128x12544 : S128x32x392.ShapeCasts S128x12544
  inb_S12544x400_S12544x400_0_0 : ∀ a, (![0, 0] : Fin 2 → Nat) a + S12544x400.size a ≤ S12544x400.size a
  h_S12544x400 : 0 < S12544x400.numel
  shapeCasts_S12544x400_S12544x400 : S12544x400.ShapeCasts S12544x400
  inb_S400_S400_0 : ∀ a, (![0] : Fin 1 → Nat) a + S400.size a ≤ S400.size a
  h_S400 : 0 < S400.numel
  shapeCasts_S400_S400 : S400.ShapeCasts S400
  shapeCasts_S400_S1x400 : S400.ShapeCasts S1x400
  broadcasts_S1x400_S128x400 : S1x400.Broadcasts S128x400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S100000x200_S4096x1_S4096x200_1_0_n_n_0_1_1200_wf : GatherDims.WF S100000x200 S4096x1 S4096x200 [1] [0] [] [0] [] 1 ![1, 200]
  dot_S500x200_S200x288_S500x288_1_0_0_1_n_n_wf : DotDims.WF S500x200 S200x288 S500x288 [1] [0] [0] [1] [] []
  gather_S500x9x32_S4096x1_S4096x9x32_12_0_n_n_0_1_1932_wf : GatherDims.WF S500x9x32 S4096x1 S4096x9x32 [1, 2] [0] [] [0] [] 1 ![1, 9, 32]
  dot_S128x12544_S12544x400_S128x400_1_0_0_1_n_n_wf : DotDims.WF S128x12544 S12544x400 S128x400 [1] [0] [0] [1] [] []
  dot_S128x400_S400x1_S128x1_1_0_0_1_n_n_wf : DotDims.WF S128x400 S400x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x400.size a ≤ S4096x400.size a
  hwx0_0 : ∀ i : grid0.Coords, EltTy.bits .f32 = 32 ∨ (Rect.block (s := S4096x400) S128x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x9x32.size a ≤ S4096x9x32.size a
  hwx0_1 : ∀ i : grid0.Coords, EltTy.bits .f32 = 32 ∨ (Rect.block (s := S4096x9x32) S128x9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12544x400.size a ≤ S12544x400.size a
  hwx0_4 : ∀ i : grid0.Coords, EltTy.bits .bf16 = 32 ∨ (Rect.block (s := S12544x400) S12544x400.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S400.size a ≤ S400.size a
  hwx0_5 : ∀ i : grid0.Coords, EltTy.bits .f32 = 32 ∨ (Rect.block (s := S400) S400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S400.size a ≤ S400.size a
  hwx0_6 : ∀ i : grid0.Coords, EltTy.bits .f32 = 32 ∨ (Rect.block (s := S400) S400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400.size a ≤ S400.size a
  hwx0_8 : ∀ i : grid0.Coords, EltTy.bits .f32 = 32 ∨ (Rect.block (s := S400) S400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x1.size a ≤ S400x1.size a
  hwx0_9 : ∀ i : grid0.Coords, EltTy.bits .f32 = 32 ∨ (Rect.block (s := S400x1) S400x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S4096x1.size a
  hwx0_12 : ∀ i : grid0.Coords, EltTy.bits .f32 = 32 ∨ (Rect.block (s := S4096x1) S128x1.size (cc0_transform_12 i) (hinb0_12 i)).WholeWords (EltTy.packing .f32)

variable [Facts₀]

def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def dot_S500x200_S200x288_S500x288_1_0_0_1_n_n : DotDims S500x200 S200x288 S500x288 where
  lhsContracting := [1]
  rhsContracting := [0]
  lhsNonContracting := [0]
  rhsNonContracting := [1]
  lhsBatch := []
  rhsBatch := []
  wf := dot_S500x200_S200x288_S500x288_1_0_0_1_n_n_wf
def gather_S500x9x32_S4096x1_S4096x9x32_12_0_n_n_0_1_1932 : GatherDims S500x9x32 S4096x1 S4096x9x32 where
  offsetDims := [1, 2]
  collapsedSliceDims := [0]
  operandBatchingDims := []
  startIndicesBatchingDims := []
  startIndexMap := [0]
  indexVectorDim := 1
  sliceSizes := ![1, 9, 32]
  wf := gather_S500x9x32_S4096x1_S4096x9x32_12_0_n_n_0_1_1932_wf
def dot_S128x12544_S12544x400_S128x400_1_0_0_1_n_n : DotDims S128x12544 S12544x400 S128x400 where
  lhsContracting := [1]
  rhsContracting := [0]
  lhsNonContracting := [0]
  rhsNonContracting := [1]
  lhsBatch := []
  rhsBatch := []
  wf := dot_S128x12544_S12544x400_S128x400_1_0_0_1_n_n_wf
def dot_S128x400_S400x1_S128x1_1_0_0_1_n_n : DotDims S128x400 S400x1 S128x1 where
  lhsContracting := [1]
  rhsContracting := [0]
  lhsNonContracting := [0]
  rhsNonContracting := [1]
  lhsBatch := []
  rhsBatch := []
  wf := dot_S128x400_S400x1_S128x1_1_0_0_1_n_n_wf

abbrev win0_0 : Pipeline.Window sig grid0 :=
  Pipeline.Window.ofSpec (Memref.whole main_v14) S128x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x9x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S12544x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg19) S400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg18) S400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S400x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg22) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg23) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v58) S128x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩
abbrev S4096x1 : Shape := ⟨2, ![4096, 1]⟩
abbrev S4096x200 : Shape := ⟨2, ![4096, 200]⟩
abbrev S4096x400 : Shape := ⟨2, ![4096, 400]⟩
abbrev S200x288 : Shape := ⟨2, ![200, 288]⟩
abbrev S4096x288 : Shape := ⟨2, ![4096, 288]⟩
abbrev S1x288 : Shape := ⟨2, ![1, 288]⟩
abbrev S4096x32x9 : Shape := ⟨3, ![4096, 32, 9]⟩
abbrev S4096x392 : Shape := ⟨2, ![4096, 392]⟩
abbrev S4096x392x1 : Shape := ⟨3, ![4096, 392, 1]⟩
abbrev S4096x392x9 : Shape := ⟨3, ![4096, 392, 9]⟩
abbrev S4096x32x392 : Shape := ⟨3, ![4096, 32, 392]⟩
abbrev S1x32x1 : Shape := ⟨3, ![1, 32, 1]⟩
abbrev S4096x12544 : Shape := ⟨2, ![4096, 12544]⟩
abbrev S12544x400 : Shape := ⟨2, ![12544, 400]⟩
abbrev S400x1 : Shape := ⟨2, ![400, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S100000x200, .f32⟩
  | 4 => ⟨S500x200, .f32⟩
  | 5 => ⟨S1, .f32⟩
  | 6 => ⟨S1, .f32⟩
  | 7 => ⟨S1, .f32⟩
  | 8 => ⟨S1, .f32⟩
  | 9 => ⟨S288x200, .f32⟩
  | 10 => ⟨S288, .f32⟩
  | 11 => ⟨S32, .f32⟩
  | 12 => ⟨S32, .f32⟩
  | 13 => ⟨S32, .f32⟩
  | 14 => ⟨S32, .f32⟩
  | 15 => ⟨S400x12544, .f32⟩
  | 16 => ⟨S400, .f32⟩
  | 17 => ⟨S400, .f32⟩
  | 18 => ⟨S400, .f32⟩
  | 19 => ⟨S400, .f32⟩
  | 20 => ⟨S400, .f32⟩
  | 21 => ⟨S1x400, .f32⟩
  | 22 => ⟨S1, .f32⟩
  | 23 => ⟨S1, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x200, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x200, .f32⟩
  | 42 => ⟨S4096x400, .f32⟩
  | 43 => ⟨S_, .f32⟩
  | 44 => ⟨S4096x400, .f32⟩
  | 45 => ⟨S4096x400, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S4096x400, .f32⟩
  | 53 => ⟨S4096x400, .f32⟩
  | 54 => ⟨S_, .f32⟩
  | 55 => ⟨S4096x400, .f32⟩
  | 56 => ⟨S4096x400, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096x200, .f32⟩
  | 66 => ⟨S200x288, .f32⟩
  | 67 => ⟨S4096x288, .f32⟩
  | 68 => ⟨S1x288, .f32⟩
  | 69 => ⟨S4096x288, .f32⟩
  | 70 => ⟨S4096x288, .f32⟩
  | 71 => ⟨S4096x32x9, .f32⟩
  | 72 => ⟨S4096x392, .f32⟩
  | 73 => ⟨S4096x392, .f32⟩
  | 74 => ⟨S4096x392, .f32⟩
  | 75 => ⟨S4096x392, .f32⟩
  | 76 => ⟨S4096x392, .f32⟩
  | 77 => ⟨S4096x392, .f32⟩
  | 78 => ⟨S4096x392, .f32⟩
  | 79 => ⟨S4096x392, .f32⟩
  | 80 => ⟨S4096x392, .f32⟩
  | 81 => ⟨S4096x392x1, .f32⟩
  | 82 => ⟨S4096x392x1, .f32⟩
  | 83 => ⟨S4096x392x1, .f32⟩
  | 84 => ⟨S4096x392x1, .f32⟩
  | 85 => ⟨S4096x392x1, .f32⟩
  | 86 => ⟨S4096x392x1, .f32⟩
  | 87 => ⟨S4096x392x1, .f32⟩
  | 88 => ⟨S4096x392x1, .f32⟩
  | 89 => ⟨S4096x392x1, .f32⟩
  | 90 => ⟨S4096x392x9, .f32⟩
  | 91 => ⟨S4096x32x392, .f32⟩
  | 92 => ⟨S_, .f32⟩
  | 93 => ⟨S32, .f32⟩
  | 94 => ⟨S32, .f32⟩
  | 95 => ⟨S32, .f32⟩
  | 96 => ⟨S32, .f32⟩
  | 97 => ⟨S1x32x1, .f32⟩
  | 98 => ⟨S4096x32x392, .f32⟩
  | 99 => ⟨S4096x32x392, .f32⟩
  | 100 => ⟨S1x32x1, .f32⟩
  | 101 => ⟨S4096x32x392, .f32⟩
  | 102 => ⟨S4096x32x392, .f32⟩
  | 103 => ⟨S1x32x1, .f32⟩
  | 104 => ⟨S4096x32x392, .f32⟩
  | 105 => ⟨S4096x32x392, .f32⟩
  | 106 => ⟨S4096x12544, .f32⟩
  | 107 => ⟨S12544x400, .f32⟩
  | 108 => ⟨S4096x400, .f32⟩
  | 109 => ⟨S1x400, .f32⟩
  | 110 => ⟨S4096x400, .f32⟩
  | 111 => ⟨S4096x400, .f32⟩
  | 112 => ⟨S1x400, .f32⟩
  | 113 => ⟨S4096x400, .f32⟩
  | 114 => ⟨S4096x400, .f32⟩
  | 115 => ⟨S_, .f32⟩
  | 116 => ⟨S400, .f32⟩
  | 117 => ⟨S400, .f32⟩
  | 118 => ⟨S400, .f32⟩
  | 119 => ⟨S400, .f32⟩
  | 120 => ⟨S1x400, .f32⟩
  | 121 => ⟨S4096x400, .f32⟩
  | 122 => ⟨S4096x400, .f32⟩
  | 123 => ⟨S1x400, .f32⟩
  | 124 => ⟨S4096x400, .f32⟩
  | 125 => ⟨S4096x400, .f32⟩
  | 126 => ⟨S400x1, .f32⟩
  | 127 => ⟨S4096x1, .f32⟩
  | _ => ⟨S4096, .i32⟩

abbrev hbmTy0_1 (i : Nat) : BufTy := match i % 128 with
  | 0 => ⟨S1x1, .f32⟩
  | 1 => ⟨S4096x1, .f32⟩
  | 2 => ⟨S4096x1, .f32⟩
  | 3 => ⟨S4096x1, .f32⟩
  | 4 => ⟨S1x1, .f32⟩
  | 5 => ⟨S4096x1, .f32⟩
  | 6 => ⟨S4096x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_6 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x200_S4096x400_d1 : Shape.Concatenates [S4096x200, S4096x200] S4096x400 1
  shapeCasts_S1_S_ : S1.ShapeCasts S_
  bcast_S_S4096x400 : S_.BroadcastsInDim S4096x400 (![] : Fin 0 → Fin S4096x400.rank)
  transposes_S288x200_S200x288_1_0 : S288x200.Transposes [1, 0] S200x288
  bcast_S288_S1x288_1 : S288.BroadcastsInDim S1x288 (![1] : Fin 1 → Fin S1x288.rank)
  bcast_S1x288_S4096x288_0_1 : S1x288.BroadcastsInDim S4096x288 (![0, 1] : Fin 2 → Fin S4096x288.rank)
  shapeCasts_S4096x288_S4096x32x9 : S4096x288.ShapeCasts S4096x32x9
  slices_S4096x400_S4096x392_0_0 : S4096x400.Slices ![0, 0] S4096x392
  slices_S4096x400_S4096x392_0_1 : S4096x400.Slices ![0, 1] S4096x392
  slices_S4096x400_S4096x392_0_2 : S4096x400.Slices ![0, 2] S4096x392
  slices_S4096x400_S4096x392_0_3 : S4096x400.Slices ![0, 3] S4096x392
  slices_S4096x400_S4096x392_0_4 : S4096x400.Slices ![0, 4] S4096x392
  slices_S4096x400_S4096x392_0_5 : S4096x400.Slices ![0, 5] S4096x392
  slices_S4096x400_S4096x392_0_6 : S4096x400.Slices ![0, 6] S4096x392
  slices_S4096x400_S4096x392_0_7 : S4096x400.Slices ![0, 7] S4096x392
  slices_S4096x400_S4096x392_0_8 : S4096x400.Slices ![0, 8] S4096x392
  bcast_S4096x392_S4096x392x1_0_1 : S4096x392.BroadcastsInDim S4096x392x1 (![0, 1] : Fin 2 → Fin S4096x392x1.rank)
  concatenates_S4096x392x1_S4096x392x1_S4096x392x1_S4096x392x1_S4096x392x1_S4096x392x1_S4096x392x1_S4096x392x1_S4096x392x1_S4096x392x9_d2 : Shape.Concatenates [S4096x392x1, S4096x392x1, S4096x392x1, S4096x392x1, S4096x392x1, S4096x392x1, S4096x392x1, S4096x392x1, S4096x392x1] S4096x392x9 2
  bcast_S_S32 : S_.BroadcastsInDim S32 (![] : Fin 0 → Fin S32.rank)
  bcast_S32_S1x32x1_1 : S32.BroadcastsInDim S1x32x1 (![1] : Fin 1 → Fin S1x32x1.rank)
  bcast_S1x32x1_S4096x32x392_0_1_2 : S1x32x1.BroadcastsInDim S4096x32x392 (![0, 1, 2] : Fin 3 → Fin S4096x32x392.rank)
  shapeCasts_S4096x32x392_S4096x12544 : S4096x32x392.ShapeCasts S4096x12544
  transposes_S400x12544_S12544x400_1_0 : S400x12544.Transposes [1, 0] S12544x400
  bcast_S400_S1x400_1 : S400.BroadcastsInDim S1x400 (![1] : Fin 1 → Fin S1x400.rank)
  bcast_S1x400_S4096x400_0_1 : S1x400.BroadcastsInDim S4096x400 (![0, 1] : Fin 2 → Fin S4096x400.rank)
  bcast_S_S400 : S_.BroadcastsInDim S400 (![] : Fin 0 → Fin S400.rank)
  transposes_S1x400_S400x1_1_0 : S1x400.Transposes [1, 0] S400x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100000x200_S4096x1_S4096x200_1_0_n_n_0_1_1200_wf : GatherDims.WF S100000x200 S4096x1 S4096x200 [1] [0] [] [0] [] 1 ![1, 200]
  gather_S500x200_S4096x1_S4096x200_1_0_n_n_0_1_1200_wf : GatherDims.WF S500x200 S4096x1 S4096x200 [1] [0] [] [0] [] 1 ![1, 200]
  dot_S4096x200_S200x288_S4096x288_1_0_0_1_n_n_wf : DotDims.WF S4096x200 S200x288 S4096x288 [1] [0] [0] [1] [] []
  dot_S4096x32x9_S4096x392x9_S4096x32x392_2_2_1_1_0_0_wf : DotDims.WF S4096x32x9 S4096x392x9 S4096x32x392 [2] [2] [1] [1] [0] [0]
  dot_S4096x12544_S12544x400_S4096x400_1_0_0_1_n_n_wf : DotDims.WF S4096x12544 S12544x400 S4096x400 [1] [0] [0] [1] [] []
  dot_S4096x400_S400x1_S4096x1_1_0_0_1_n_n_wf : DotDims.WF S4096x400 S400x1 S4096x1 [1] [0] [0] [1] [] []

variable [Facts₀]

def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def gather_S500x200_S4096x1_S4096x200_1_0_n_n_0_1_1200 : GatherDims S500x200 S4096x1 S4096x200 where
  offsetDims := [1]
  collapsedSliceDims := [0]
  operandBatchingDims := []
  startIndicesBatchingDims := []
  startIndexMap := [0]
  indexVectorDim := 1
  sliceSizes := ![1, 200]
  wf := gather_S500x200_S4096x1_S4096x200_1_0_n_n_0_1_1200_wf
def dot_S4096x200_S200x288_S4096x288_1_0_0_1_n_n : DotDims S4096x200 S200x288 S4096x288 where
  lhsContracting := [1]
  rhsContracting := [0]
  lhsNonContracting := [0]
  rhsNonContracting := [1]
  lhsBatch := []
  rhsBatch := []
  wf := dot_S4096x200_S200x288_S4096x288_1_0_0_1_n_n_wf
def dot_S4096x32x9_S4096x392x9_S4096x32x392_2_2_1_1_0_0 : DotDims S4096x32x9 S4096x392x9 S4096x32x392 where
  lhsContracting := [2]
  rhsContracting := [2]
  lhsNonContracting := [1]
  rhsNonContracting := [1]
  lhsBatch := [0]
  rhsBatch := [0]
  wf := dot_S4096x32x9_S4096x392x9_S4096x32x392_2_2_1_1_0_0_wf
def dot_S4096x12544_S12544x400_S4096x400_1_0_0_1_n_n : DotDims S4096x12544 S12544x400 S4096x400 where
  lhsContracting := [1]
  rhsContracting := [0]
  lhsNonContracting := [0]
  rhsNonContracting := [1]
  lhsBatch := []
  rhsBatch := []
  wf := dot_S4096x12544_S12544x400_S4096x400_1_0_0_1_n_n_wf
def dot_S4096x400_S400x1_S4096x1_1_0_0_1_n_n : DotDims S4096x400 S400x1 S4096x1 where
  lhsContracting := [1]
  rhsContracting := [0]
  lhsNonContracting := [0]
  rhsNonContracting := [1]
  lhsBatch := []
  rhsBatch := []
  wf := dot_S4096x400_S400x1_S4096x1_1_0_0_1_n_n_wf

class Facts : Prop extends Facts₀ where

variable [Facts]
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«106541_j17248588661540_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.Spec.lean ====
/-
  The hypernetwork scorer as index-level mathematics, on the extended reals.

  For a batch row b: the input row E b (two embedding rows side by side, 400 wide) is normalised by a scalar
  affine map; a relation row R (ρ b) goes through a dense layer to give 32 filters of 9 taps; each filter is
  slid over the normalised row (392 positions); the 32 × 392 responses are normalised per filter, flattened
  (filter-major) and sent through a dense layer to 400 features; these are normalised per feature, sent through
  a dense layer to one score, squashed by tanh and shifted by a bias.

  Two arrangements of the middle part are stated. `hr` normalises the responses and then applies the dense layer.
  `hk` applies the dense layer to the raw responses with the per-filter scale folded into the weights and the
  per-filter shift folded into the bias, and normalises the input row in the distributed form E·s + (β − μ·s).
  The common tail `out` turns either into the score. `bodyOut` is the same score written over the arrays a
  tiled evaluation is handed (already scaled weights, already adjusted bias, filters already laid tap-major).
-/
import Idealize.ShloMosaic.PureOps.Ideal
import Idealize.ShloMosaic.Lib.ValueIdx

noncomputable section

namespace Cert.Hyper

open Idealize.ShloMosaic Idealize.ShloMosaic.ValueIdx

/-- The variance offset both programs add before the square root (the f32 nearest 1e-5). -/
def eps : EReal := Ideal.ofBits .f32 0x3727C5AC#32

/-- A batch-norm scale: γ / √(σ² + ε). -/
def scale (g v : EReal) : EReal := Ideal.div g (Ideal.sqrt (v + eps))

/-- Filter of a flattened response position (filter-major: q = o · 392 + w). -/
def oc (q : Fin 12544) : Fin 32 := ⟨q.val / 392, by have := q.isLt; omega⟩
/-- Window position of a flattened response position. -/
def wc (q : Fin 12544) : Fin 392 := ⟨q.val % 392, Nat.mod_lt _ (by norm_num)⟩
/-- The input column tap j of the window at position w reads. -/
def tap (w : Fin 392) (j : Fin 9) : Fin 400 := ⟨w.val + j.val, by have := w.isLt; have := j.isLt; omega⟩
/-- Row of the hypernetwork's dense layer that produces tap j of filter o (filter-major: o · 9 + j). -/
def fidx (o : Fin 32) (j : Fin 9) : Fin 288 := ⟨o.val * 9 + j.val, by have := o.isLt; have := j.isLt; omega⟩

/-- The arguments, as functions of coordinates. -/
structure Params where
  /-- the two gathered embedding rows side by side -/
  E : Fin 4096 → Fin 400 → EReal
  /-- the relation row each batch row reads -/
  ρ : Fin 4096 → Fin 500
  R : Fin 500 → Fin 200 → EReal
  g0 : EReal
  β0 : EReal
  μ0 : EReal
  v0 : EReal
  W1 : Fin 288 → Fin 200 → EReal
  b1 : Fin 288 → EReal
  g1 : Fin 32 → EReal
  β1 : Fin 32 → EReal
  μ1 : Fin 32 → EReal
  v1 : Fin 32 → EReal
  W : Fin 400 → Fin 12544 → EReal
  fcb : Fin 400 → EReal
  g2 : Fin 400 → EReal
  β2 : Fin 400 → EReal
  μ2 : Fin 400 → EReal
  v2 : Fin 400 → EReal
  f2 : Fin 400 → EReal
  f2b : EReal
  bias : EReal

/-- The arguments read off the arrays the programs are given: `E` the joined gathered embedding rows as a
    [4096, 400] array, `ρ` the relation row of each batch row, and the remaining float arguments in the order
    R_table, bn0 γ β μ σ², fc1 weights and bias, bn1 γ β μ σ², fc weights and bias, bn2 γ β μ σ², fc2 weights
    and bias, the final bias. -/
def mkParams (E : (⟨2, ![4096, 400]⟩ : Shape).Idx → EReal) (ρ : Fin 4096 → Fin 500)
    (a4 : (⟨2, ![500, 200]⟩ : Shape).Idx → EReal)
    (a5 a6 a7 a8 : (⟨1, ![1]⟩ : Shape).Idx → EReal)
    (a9 : (⟨2, ![288, 200]⟩ : Shape).Idx → EReal) (a10 : (⟨1, ![288]⟩ : Shape).Idx → EReal)
    (a11 a12 a13 a14 : (⟨1, ![32]⟩ : Shape).Idx → EReal)
    (a15 : (⟨2, ![400, 12544]⟩ : Shape).Idx → EReal) (a16 : (⟨1, ![400]⟩ : Shape).Idx → EReal)
    (a17 a18 a19 a20 : (⟨1, ![400]⟩ : Shape).Idx → EReal)
    (a21 : (⟨2, ![1, 400]⟩ : Shape).Idx → EReal) (a22 a23 : (⟨1, ![1]⟩ : Shape).Idx → EReal) : Params where
  E := fun b c => E (ix2 b c)
  ρ := ρ
  R := fun i d => a4 (ix2 i d)
  g0 := a5 (ix1 0)
  β0 := a6 (ix1 0)
  μ0 := a7 (ix1 0)
  v0 := a8 (ix1 0)
  W1 := fun i d => a9 (ix2 i d)
  b1 := fun i => a10 (ix1 i)
  g1 := fun o => a11 (ix1 o)
  β1 := fun o => a12 (ix1 o)
  μ1 := fun o => a13 (ix1 o)
  v1 := fun o => a14 (ix1 o)
  W := fun n q => a15 (ix2 n q)
  fcb := fun n => a16 (ix1 n)
  g2 := fun n => a17 (ix1 n)
  β2 := fun n => a18 (ix1 n)
  μ2 := fun n => a19 (ix1 n)
  v2 := fun n => a20 (ix1 n)
  f2 := fun n => a21 (ix2 0 n)
  f2b := a22 (ix1 0)
  bias := a23 (ix1 0)

variable (P : Params)

/-- Tap j of filter o for batch row b: the relation row through the hypernetwork's dense layer. -/
def kf (b : Fin 4096) (o : Fin 32) (j : Fin 9) : EReal :=
  (∑ d : Fin 200, P.R (P.ρ b) d * P.W1 (fidx o j) d) + P.b1 (fidx o j)

/-- The normalised input row, centred first. -/
def xr (b : Fin 4096) (c : Fin 400) : EReal := (P.E b c - P.μ0) * scale P.g0 P.v0 + P.β0
/-- The normalised input row, in distributed form. -/
def xk (b : Fin 4096) (c : Fin 400) : EReal := P.E b c * scale P.g0 P.v0 + (P.β0 - P.μ0 * scale P.g0 P.v0)

/-- Response of filter o at position w, over the centred-first row. -/
def convr (b : Fin 4096) (o : Fin 32) (w : Fin 392) : EReal := ∑ j : Fin 9, kf P b o j * xr P b (tap w j)
/-- Response of filter o at position w, over the distributed-form row. -/
def convk (b : Fin 4096) (o : Fin 32) (w : Fin 392) : EReal := ∑ j : Fin 9, kf P b o j * xk P b (tap w j)

/-- The per-filter scale. -/
def inv1 (o : Fin 32) : EReal := scale (P.g1 o) (P.v1 o)

/-- Pre-activation features: responses normalised per filter, then the dense layer. -/
def hr (b : Fin 4096) (n : Fin 400) : EReal :=
  (∑ q : Fin 12544, ((convr P b (oc q) (wc q) - P.μ1 (oc q)) * inv1 P (oc q) + P.β1 (oc q)) * P.W n q) + P.fcb n

/-- Pre-activation features: the dense layer on raw responses, scale folded into the weights, shift into the bias. -/
def hk (b : Fin 4096) (n : Fin 400) : EReal :=
  (∑ q : Fin 12544, convk P b (oc q) (wc q) * (P.W n q * inv1 P (oc q)))
    + (P.fcb n + ∑ q : Fin 12544, (P.β1 (oc q) - P.μ1 (oc q) * inv1 P (oc q)) * P.W n q)

/-- The tail common to both arrangements: per-feature normalisation, the scoring layer, tanh, bias. -/
def out (h : Fin 4096 → Fin 400 → EReal) (b : Fin 4096) : EReal :=
  Ideal.tanh ((∑ n : Fin 400, ((h b n - P.μ2 n) * scale (P.g2 n) (P.v2 n) + P.β2 n) * P.f2 n) + P.f2b) + P.bias

/-- The score of batch row r over the arrays a tiled evaluation is handed: input rows `E`, filters `Kg` laid
    tap-major, the input scale and shift, the dense weights `Wk` (response position by feature) and bias `fba`,
    the per-feature mean, scale and shift, the scoring weights and bias, and the final bias. -/
def bodyOut (E : Fin 4096 → Fin 400 → EReal) (Kg : Fin 4096 → Fin 9 → Fin 32 → EReal) (sc sh : EReal)
    (Wk : Fin 12544 → Fin 400 → EReal) (fba m2 i2 b2 f2 : Fin 400 → EReal) (f2b bias : EReal) (r : Fin 4096) : EReal :=
  Ideal.tanh ((∑ n : Fin 400,
      ((((∑ q : Fin 12544, (∑ j : Fin 9, Kg r j (oc q) * (E r (tap (wc q) j) * sc + sh)) * Wk q n) + fba n) - m2 n) * i2 n
        + b2 n) * f2 n) + f2b) + bias

/-- With the arrays the host side prepares, the tiled score is the tail over `hk`. -/
theorem bodyOut_eq (r : Fin 4096) :
    bodyOut P.E (fun b j o => kf P b o j) (scale P.g0 P.v0) (P.β0 - P.μ0 * scale P.g0 P.v0)
      (fun q n => P.W n q * inv1 P (oc q))
      (fun n => P.fcb n + ∑ q : Fin 12544, (P.β1 (oc q) - P.μ1 (oc q) * inv1 P (oc q)) * P.W n q)
      P.μ2 (fun n => scale (P.g2 n) (P.v2 n)) P.β2 P.f2 P.f2b P.bias r
    = out P (hk P) r := rfl

end Cert.Hyper

end
-- ==== Proof.Algebra.lean ====
/-
  The two arrangements of the pre-activation features agree on real numbers.

  On the extended reals multiplication does not distribute over addition (an infinity times a difference that
  vanishes is zero, the difference of the two infinite products is not), so the rearrangements below are stated
  for arguments that are real numbers and for batch-norm scales that are real numbers. Two termwise laws carry
  everything: the affine map of the input row, E·s + (β − μ·s) = (E − μ)·s + β, and the normalised response
  against a dense weight, ((C − μ)·s + β)·W = C·(W·s) + (β − μ·s)·W. Summing the second over the response
  positions and moving the bias across uses only commutativity and associativity of addition, which hold on
  all extended reals.
-/
import proofs.«106541_j17248588661540_2_alg».proof.Proof.Spec
import proofs.«106541_j17248588661540_2_alg».proof.Proof.LibFinite

noncomputable section

namespace Cert.Hyper

open Idealize.ShloMosaic Cert.LibFinite

/-- The difference of two real numbers is a real number. -/
theorem IsFin.sub' {x y : EReal} (hx : IsFin x) (hy : IsFin y) : IsFin (x - y) := by
  obtain ⟨a, rfl⟩ := hx; obtain ⟨b, rfl⟩ := hy
  exact ⟨a - b, (EReal.coe_sub a b).symm⟩

/-- The affine map of a real entry in its two forms. -/
theorem affine_forms {e μ s β : EReal} (he : IsFin e) (hμ : IsFin μ) (hs : IsFin s) (hβ : IsFin β) :
    e * s + (β - μ * s) = (e - μ) * s + β := by
  obtain ⟨e, rfl⟩ := he; obtain ⟨μ, rfl⟩ := hμ; obtain ⟨s, rfl⟩ := hs; obtain ⟨β, rfl⟩ := hβ
  rw [← EReal.coe_mul, ← EReal.coe_mul, ← EReal.coe_sub, ← EReal.coe_add, ← EReal.coe_sub, ← EReal.coe_mul,
    ← EReal.coe_add]
  congr 1; ring

/-- A normalised real response against a real weight, with the scale moved onto the weight and the shift split off. -/
theorem folded_term {C μ s β W : EReal} (hC : IsFin C) (hμ : IsFin μ) (hs : IsFin s) (hβ : IsFin β) (hW : IsFin W) :
    ((C - μ) * s + β) * W = C * (W * s) + (β - μ * s) * W := by
  obtain ⟨C, rfl⟩ := hC; obtain ⟨μ, rfl⟩ := hμ; obtain ⟨s, rfl⟩ := hs; obtain ⟨β, rfl⟩ := hβ; obtain ⟨W, rfl⟩ := hW
  rw [← EReal.coe_sub, ← EReal.coe_mul, ← EReal.coe_add, ← EReal.coe_mul, ← EReal.coe_mul, ← EReal.coe_mul,
    ← EReal.coe_mul, ← EReal.coe_sub, ← EReal.coe_mul, ← EReal.coe_add]
  congr 1; ring

/-- What the rearrangement needs of the arguments: every float argument that enters before the dense layer's
    output is a real number, and the two batch-norm scales that are moved across a sum are real numbers. -/
structure Real (P : Params) : Prop where
  E : ∀ b c, IsFin (P.E b c)
  R : ∀ i d, IsFin (P.R i d)
  β0 : IsFin P.β0
  μ0 : IsFin P.μ0
  W1 : ∀ i d, IsFin (P.W1 i d)
  b1 : ∀ i, IsFin (P.b1 i)
  β1 : ∀ o, IsFin (P.β1 o)
  μ1 : ∀ o, IsFin (P.μ1 o)
  W : ∀ n q, IsFin (P.W n q)
  s0 : IsFin (scale P.g0 P.v0)
  s1 : ∀ o, IsFin (inv1 P o)

variable {P : Params}

theorem kf_real (h : Real P) (b : Fin 4096) (o : Fin 32) (j : Fin 9) : IsFin (kf P b o j) :=
  IsFin.add (IsFin.sum _ _ fun d _ => IsFin.mul (h.R _ d) (h.W1 _ d)) (h.b1 _)

theorem xr_real (h : Real P) (b : Fin 4096) (c : Fin 400) : IsFin (xr P b c) :=
  IsFin.add (IsFin.mul (IsFin.sub' (h.E b c) h.μ0) h.s0) h.β0

/-- The input row's two forms agree. -/
theorem xk_eq_xr (h : Real P) (b : Fin 4096) (c : Fin 400) : xk P b c = xr P b c :=
  affine_forms (h.E b c) h.μ0 h.s0 h.β0

/-- So do the responses over them. -/
theorem convk_eq_convr (h : Real P) (b : Fin 4096) (o : Fin 32) (w : Fin 392) : convk P b o w = convr P b o w :=
  Finset.sum_congr rfl fun j _ => by rw [xk_eq_xr h]

theorem convr_real (h : Real P) (b : Fin 4096) (o : Fin 32) (w : Fin 392) : IsFin (convr P b o w) :=
  IsFin.sum _ _ fun j _ => IsFin.mul (kf_real h b o j) (xr_real h b _)

/-- The two arrangements of the pre-activation features agree. -/
theorem hk_eq_hr (h : Real P) (b : Fin 4096) (n : Fin 400) : hk P b n = hr P b n := by
  unfold hk hr
  have hterm : ∀ q : Fin 12544,
      ((convr P b (oc q) (wc q) - P.μ1 (oc q)) * inv1 P (oc q) + P.β1 (oc q)) * P.W n q
        = convk P b (oc q) (wc q) * (P.W n q * inv1 P (oc q))
          + (P.β1 (oc q) - P.μ1 (oc q) * inv1 P (oc q)) * P.W n q := fun q => by
    rw [convk_eq_convr h]
    exact folded_term (convr_real h b _ _) (h.μ1 _) (h.s1 _) (h.β1 _) (h.W n q)
  rw [Finset.sum_congr rfl fun q _ => hterm q, Finset.sum_add_distrib]
  rw [add_assoc, add_comm (∑ q : Fin 12544, (P.β1 (oc q) - P.μ1 (oc q) * inv1 P (oc q)) * P.W n q) (P.fcb n)]

/-- Hence the scores agree. -/
theorem out_hk_eq_out_hr (h : Real P) (r : Fin 4096) : out P (hk P) r = out P (hr P) r := by
  unfold out
  simp only [hk_eq_hr h]

end Cert.Hyper

end
-- ==== Proof.PreDecode.lean ====
/-
  What the precondition says, decoded.

  The precondition is a conjunction of tests, each an "all entries" reduction: for every float argument, that
  every entry is below +∞ in absolute value (so is a real number), and for the first and second batch-norm
  variances, that variance + ε is positive. A batch-norm scale γ / √(σ² + ε) with γ real and σ² + ε positive is a
  real number: the sum is +∞ (then the quotient by +∞ is 0) or a positive real (then its square root is a
  non-zero real).
-/
import proofs.«106541_j17248588661540_2_alg».proof.Pre_finite_inputs
import proofs.«106541_j17248588661540_2_alg».proof.Proof.LibFinDecode
import proofs.«106541_j17248588661540_2_alg».proof.Proof.Algebra
import Idealize.ShloMosaic.Lib.Affine

noncomputable section

namespace Cert.HyperPre

open Idealize.ShloMosaic Idealize.ShloMosaic.ValueIdx Cert.LibFinite Cert.LibFinDecode Cert.Hyper

/-- A scale with a real numerator and a positive variance-plus-ε is a real number. -/
theorem scale_real {g v : EReal} (hg : IsFin g) (hpos : 0 < v + eps) : IsFin (scale g v) := by
  unfold scale
  generalize v + eps = x at hpos
  induction x using EReal.rec with
  | bot => exact absurd hpos (not_lt_bot)
  | top =>
    rw [Ideal.sqrt_top]
    unfold Ideal.div
    rw [if_neg EReal.top_ne_zero, EReal.inv_top, mul_zero]
    exact IsFin.zero
  | coe r =>
    have hr : 0 < r := by exact_mod_cast hpos
    rw [Ideal.sqrt_coe, if_neg (not_lt.mpr hr.le)]
    refine IsFin.div hg ⟨_, rfl⟩ ?_
    have : (0 : ℝ) < Real.sqrt r := Real.sqrt_pos.mpr hr
    exact_mod_cast this.ne'

/-- One variance's conjunct: if "all entries of x + ε are above 0" evaluates to true, every x + ε is positive. -/
theorem all_pos {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi
      (cmpf .ogt (addf x (broadcastInDim s ![] hb (constant (⟨0, ![]⟩ : Shape) .f32 0x3727C5AC#32)))
        (broadcastInDim s ![] hb (constant (⟨0, ![]⟩ : Shape) .f32 0x00000000#32)))
      (constantI (⟨0, ![]⟩ : Shape) 1 1#1) hr hu ix0 = 1#1) (i : s.Idx) : 0 < x i + eps := by
  have h1 := Host.reduce_andi_all _ _ hr hu ix0 e i
  have h2 : broadcastInDim s ![] hb (constant (F := Ideal) (⟨0, ![]⟩ : Shape) .f32 0x3727C5AC#32) i = eps :=
    broadcastInDim_apply _ hb _ i ix0 (fun a => a.elim0)
  have h3 : broadcastInDim s ![] hb (constant (F := Ideal) (⟨0, ![]⟩ : Shape) .f32 0x00000000#32) i = 0 :=
    (broadcastInDim_apply _ hb _ i ix0 (fun a => a.elim0)).trans Ideal.ofBits_zero_f32
  have h4 : Ideal.cmp .ogt (x i + eps) 0 = 1#1 := by
    rw [← h2, ← h3]; exact h1
  have h5 : decide (0 < x i + eps) = true := by
    by_contra hne
    rw [Bool.not_eq_true] at hne
    rw [show Ideal.cmp .ogt (x i + eps) 0 = BitVec.ofBool (decide (0 < x i + eps)) from rfl, hne] at h4
    exact absurd h4 (by decide)
  exact of_decide_eq_true h5

/-- Real arguments and positive variances-plus-ε make the argument bundle meet what the rearrangement asks. -/
theorem real_mkParams (E : (⟨2, ![4096, 400]⟩ : Shape).Idx → EReal) (ρ : Fin 4096 → Fin 500)
    (a4 : (⟨2, ![500, 200]⟩ : Shape).Idx → EReal)
    (a5 a6 a7 a8 : (⟨1, ![1]⟩ : Shape).Idx → EReal)
    (a9 : (⟨2, ![288, 200]⟩ : Shape).Idx → EReal) (a10 : (⟨1, ![288]⟩ : Shape).Idx → EReal)
    (a11 a12 a13 a14 : (⟨1, ![32]⟩ : Shape).Idx → EReal)
    (a15 : (⟨2, ![400, 12544]⟩ : Shape).Idx → EReal) (a16 : (⟨1, ![400]⟩ : Shape).Idx → EReal)
    (a17 a18 a19 a20 : (⟨1, ![400]⟩ : Shape).Idx → EReal)
    (a21 : (⟨2, ![1, 400]⟩ : Shape).Idx → EReal) (a22 a23 : (⟨1, ![1]⟩ : Shape).Idx → EReal)
    (hE : ∀ i, IsFin (E i)) (h4 : ∀ i, IsFin (a4 i)) (h5 : ∀ i, IsFin (a5 i)) (h6 : ∀ i, IsFin (a6 i))
    (h7 : ∀ i, IsFin (a7 i)) (h9 : ∀ i, IsFin (a9 i)) (h10 : ∀ i, IsFin (a10 i)) (h11 : ∀ i, IsFin (a11 i))
    (h12 : ∀ i, IsFin (a12 i)) (h13 : ∀ i, IsFin (a13 i)) (h15 : ∀ i, IsFin (a15 i))
    (p8 : ∀ i, 0 < a8 i + eps) (p14 : ∀ i, 0 < a14 i + eps) :
    Real (mkParams E ρ a4 a5 a6 a7 a8 a9 a10 a11 a12 a13 a14 a15 a16 a17 a18 a19 a20 a21 a22 a23) :=
  ⟨fun _ _ => hE _, fun _ _ => h4 _, h6 _, h7 _, fun _ _ => h9 _, fun _ => h10 _, fun _ => h12 _, fun _ => h13 _,
    fun _ _ => h15 _, scale_real (h5 _) (p8 _), fun _ => scale_real (h11 _) (p14 _)⟩

open Cert.Pre_finite_inputs

variable [Cert.Pre_finite_inputs.Facts]

/-- The precondition's conjuncts, one per float argument in order, then the two variance tests. -/
theorem decode (a0 a1 a2 : IVec S4096 32) (a3 : FVec Ideal S100000x200 .f32) (a4 : FVec Ideal S500x200 .f32)
    (a5 a6 a7 a8 : FVec Ideal S1 .f32) (a9 : FVec Ideal S288x200 .f32) (a10 : FVec Ideal S288 .f32)
    (a11 a12 a13 a14 : FVec Ideal S32 .f32) (a15 : FVec Ideal S400x12544 .f32) (a16 a17 a18 a19 a20 : FVec Ideal S400 .f32)
    (a21 : FVec Ideal S1x400 .f32) (a22 a23 : FVec Ideal S1 .f32)
    (h : fn (F := Ideal) a0 a1 a2 a3 a4 a5 a6 a7 a8 a9 a10 a11 a12 a13 a14 a15 a16 a17 a18 a19 a20 a21 a22 a23 = fun _ => 1#1) :
    (∀ i, IsFin (a3 i)) ∧ (∀ i, IsFin (a4 i)) ∧ (∀ i, IsFin (a5 i)) ∧ (∀ i, IsFin (a6 i)) ∧ (∀ i, IsFin (a7 i))
    ∧ (∀ i, IsFin (a8 i)) ∧ (∀ i, IsFin (a9 i)) ∧ (∀ i, IsFin (a10 i)) ∧ (∀ i, IsFin (a11 i)) ∧ (∀ i, IsFin (a12 i))
    ∧ (∀ i, IsFin (a13 i)) ∧ (∀ i, IsFin (a14 i)) ∧ (∀ i, IsFin (a15 i)) ∧ (∀ i, IsFin (a16 i)) ∧ (∀ i, IsFin (a17 i))
    ∧ (∀ i, IsFin (a18 i)) ∧ (∀ i, IsFin (a19 i)) ∧ (∀ i, IsFin (a20 i)) ∧ (∀ i, IsFin (a21 i)) ∧ (∀ i, IsFin (a22 i))
    ∧ (∀ i, IsFin (a23 i)) ∧ (∀ i, 0 < a8 i + eps) ∧ (∀ i, 0 < a14 i + eps) := by
  have h0 := congrFun h ix0
  dsimp only [fn, fn_part1, fn_part2, fn_part3, fn_part4, fn_part5, fn_part6] at h0
  obtain ⟨h0, p14⟩ := IntOp.andi_eq_one.mp h0
  obtain ⟨h0, p8⟩ := IntOp.andi_eq_one.mp h0
  obtain ⟨h0, c23⟩ := IntOp.andi_eq_one.mp h0
  obtain ⟨h0, c22⟩ := IntOp.andi_eq_one.mp h0
  obtain ⟨h0, c21⟩ := IntOp.andi_eq_one.mp h0
  obtain ⟨h0, c20⟩ := IntOp.andi_eq_one.mp h0
  obtain ⟨h0, c19⟩ := IntOp.andi_eq_one.mp h0
  obtain ⟨h0, c18⟩ := IntOp.andi_eq_one.mp h0
  obtain ⟨h0, c17⟩ := IntOp.andi_eq_one.mp h0
  obtain ⟨h0, c16⟩ := IntOp.andi_eq_one.mp h0
  obtain ⟨h0, c15⟩ := IntOp.andi_eq_one.mp h0
  obtain ⟨h0, c14⟩ := IntOp.andi_eq_one.mp h0
  obtain ⟨h0, c13⟩ := IntOp.andi_eq_one.mp h0
  obtain ⟨h0, c12⟩ := IntOp.andi_eq_one.mp h0
  obtain ⟨h0, c11⟩ := IntOp.andi_eq_one.mp h0
  obtain ⟨h0, c10⟩ := IntOp.andi_eq_one.mp h0
  obtain ⟨h0, c9⟩ := IntOp.andi_eq_one.mp h0
  obtain ⟨h0, c8⟩ := IntOp.andi_eq_one.mp h0
  obtain ⟨h0, c7⟩ := IntOp.andi_eq_one.mp h0
  obtain ⟨h0, c6⟩ := IntOp.andi_eq_one.mp h0
  obtain ⟨h0, c5⟩ := IntOp.andi_eq_one.mp h0
  obtain ⟨c3, c4⟩ := IntOp.andi_eq_one.mp h0
  exact ⟨all_fin a3 _ _ _ c3, all_fin a4 _ _ _ c4, all_fin a5 _ _ _ c5, all_fin a6 _ _ _ c6, all_fin a7 _ _ _ c7,
    all_fin a8 _ _ _ c8, all_fin a9 _ _ _ c9, all_fin a10 _ _ _ c10, all_fin a11 _ _ _ c11, all_fin a12 _ _ _ c12,
    all_fin a13 _ _ _ c13, all_fin a14 _ _ _ c14, all_fin a15 _ _ _ c15, all_fin a16 _ _ _ c16, all_fin a17 _ _ _ c17,
    all_fin a18 _ _ _ c18, all_fin a19 _ _ _ c19, all_fin a20 _ _ _ c20, all_fin a21 _ _ _ c21, all_fin a22 _ _ _ c22,
    all_fin a23 _ _ _ c23, all_pos a8 _ _ _ p8, all_pos a14 _ _ _ p14⟩

end Cert.HyperPre

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.RefLayout.lean ====
/-
  Two layout facts the index-level reading of the scorer needs.

  A one-element vector viewed as a scalar is its only entry. And nine arrays of shape [4096, 392, 1] joined along
  the last axis into [4096, 392, 9] read, at (b, w, j), the j-th array at (b, w, 0): joining unit-extent pieces
  along an axis just numbers the pieces by that axis' coordinate.
-/
import Idealize.ShloMosaic.Lib.Pipeline.Value
import Idealize.ShloMosaic.Lib.ValueIdx

noncomputable section

namespace Cert.Hyper.Ref

open Idealize.ShloMosaic Idealize.ShloMosaic.ValueIdx

variable {α : Type}

/-- A [1] vector reshaped to a scalar is its entry 0. -/
theorem scalar_of_one (x : (⟨1, ![1]⟩ : Shape).Idx → α) (h : (⟨1, ![1]⟩ : Shape).ShapeCasts ⟨0, ![]⟩)
    (i : (⟨0, ![]⟩ : Shape).Idx) : shapeCast ⟨0, ![]⟩ x h i = x (ix1 (0 : Fin 1)) := by
  refine shapeCast_apply x h i (ix1 (0 : Fin 1)) ?_
  rw [Shape.rowMajor_val_one]
  exact (Shape.rowMajorPi_zero _ _).symm

/-- Nine [4096, 392, 1] arrays joined along the last axis, read at (b, w, j): piece j at (b, w, 0). -/
theorem join9_apply (u : Fin 9 → ((⟨3, ![4096, 392, 1]⟩ : Shape).Idx → α))
    (h : Shape.Concatenates (([⟨(⟨3, ![4096, 392, 1]⟩ : Shape), u 0⟩, ⟨(⟨3, ![4096, 392, 1]⟩ : Shape), u 1⟩,
      ⟨(⟨3, ![4096, 392, 1]⟩ : Shape), u 2⟩, ⟨(⟨3, ![4096, 392, 1]⟩ : Shape), u 3⟩, ⟨(⟨3, ![4096, 392, 1]⟩ : Shape), u 4⟩,
      ⟨(⟨3, ![4096, 392, 1]⟩ : Shape), u 5⟩, ⟨(⟨3, ![4096, 392, 1]⟩ : Shape), u 6⟩, ⟨(⟨3, ![4096, 392, 1]⟩ : Shape), u 7⟩,
      ⟨(⟨3, ![4096, 392, 1]⟩ : Shape), u 8⟩] : List ((s : Shape) × (s.Idx → α))).map (·.1))
      (⟨3, ![4096, 392, 9]⟩ : Shape) 2)
    (b : Fin 4096) (w : Fin 392) (j : Fin 9) :
    concatenate (⟨3, ![4096, 392, 9]⟩ : Shape) 2 [⟨(⟨3, ![4096, 392, 1]⟩ : Shape), u 0⟩, ⟨(⟨3, ![4096, 392, 1]⟩ : Shape), u 1⟩,
      ⟨(⟨3, ![4096, 392, 1]⟩ : Shape), u 2⟩, ⟨(⟨3, ![4096, 392, 1]⟩ : Shape), u 3⟩, ⟨(⟨3, ![4096, 392, 1]⟩ : Shape), u 4⟩,
      ⟨(⟨3, ![4096, 392, 1]⟩ : Shape), u 5⟩, ⟨(⟨3, ![4096, 392, 1]⟩ : Shape), u 6⟩, ⟨(⟨3, ![4096, 392, 1]⟩ : Shape), u 7⟩,
      ⟨(⟨3, ![4096, 392, 1]⟩ : Shape), u 8⟩] h (ix3 b w j)
      = u j (ix3 b w (0 : Fin 1)) := by
  have hi : ∀ b' : Fin 3, b'.cast rfl ≠ (2 : Fin 3) →
      ((ix3 b w (0 : Fin 1) : (⟨3, ![4096, 392, 1]⟩ : Shape).Idx) b').val = ((ix3 b w j : (⟨3, ![4096, 392, 9]⟩ : Shape).Idx) (b'.cast rfl)).val := by
    intro b' hb'
    match b' with
    | ⟨0, _⟩ => rfl
    | ⟨1, _⟩ => rfl
    | ⟨2, _⟩ => exact absurd rfl hb'
  match j with
  | ⟨0, _⟩ => exact concatenate_apply_piece 2 _ h _ 0 (by simp) _ (u 0) rfl rfl 0 rfl _ hi rfl
  | ⟨1, _⟩ => exact concatenate_apply_piece 2 _ h _ 1 (by simp) _ (u 1) rfl rfl 1 rfl _ hi rfl
  | ⟨2, _⟩ => exact concatenate_apply_piece 2 _ h _ 2 (by simp) _ (u 2) rfl rfl 2 rfl _ hi rfl
  | ⟨3, _⟩ => exact concatenate_apply_piece 2 _ h _ 3 (by simp) _ (u 3) rfl rfl 3 rfl _ hi rfl
  | ⟨4, _⟩ => exact concatenate_apply_piece 2 _ h _ 4 (by simp) _ (u 4) rfl rfl 4 rfl _ hi rfl
  | ⟨5, _⟩ => exact concatenate_apply_piece 2 _ h _ 5 (by simp) _ (u 5) rfl rfl 5 rfl _ hi rfl
  | ⟨6, _⟩ => exact concatenate_apply_piece 2 _ h _ 6 (by simp) _ (u 6) rfl rfl 6 rfl _ hi rfl
  | ⟨7, _⟩ => exact concatenate_apply_piece 2 _ h _ 7 (by simp) _ (u 7) rfl rfl 7 rfl _ hi rfl
  | ⟨8, _⟩ => exact concatenate_apply_piece 2 _ h _ 8 (by simp) _ (u 8) rfl rfl 8 rfl _ hi rfl

end Cert.Hyper.Ref

end
-- ==== Proof.RefInput.lean ====
/-
  The normalised input row of the reference, entry by entry.

  The reference centres the joined embedding row by the running mean, multiplies by γ / √(σ² + ε) and adds the
  shift, all three scalars being one-element vectors broadcast over the [4096, 400] array. Then it cuts nine
  windows of width 392 at offsets 0 … 8 and stacks them along a new last axis: the stacked array at (b, w, j)
  is the normalised row b at column w + j.
-/
import proofs.«106541_j17248588661540_2_alg».proof.Proof.Gen.ReferenceIdeal.Read
import proofs.«106541_j17248588661540_2_alg».proof.Proof.Spec
import proofs.«106541_j17248588661540_2_alg».proof.Proof.RefLayout

noncomputable section

namespace Cert.Hyper.Ref

open Cert.ReferenceIdeal Cert.ReferenceIdeal.Read Idealize.ShloMosaic Idealize.ShloMosaic.ValueIdx

variable (x0 x2 : (⟨S4096, .i32⟩ : BufTy).Contents (Elt Ideal)) (x3 : (⟨S100000x200, .f32⟩ : BufTy).Contents (Elt Ideal))
  (x5 x6 x7 x8 : (⟨S1, .f32⟩ : BufTy).Contents (Elt Ideal))

/-- The normalised row at (b, c): (E − μ) · γ / √(σ² + ε) + β. -/
theorem input_apply (i : S4096x400.Idx) :
    val_main_v27 (F := Ideal) x0 x2 x3 x5 x6 x7 x8 i
      = (val_main_v14 (F := Ideal) x0 x2 x3 i - x7 (ix1 (0 : Fin 1))) * scale (x5 (ix1 (0 : Fin 1))) (x8 (ix1 (0 : Fin 1)))
        + x6 (ix1 (0 : Fin 1)) := by
  rw [val_main_v27_apply, val_main_v24_apply, val_main_v17_apply, val_main_v16_apply, val_main_v23_apply,
    val_main_v22_apply, val_main_v21_apply, val_main_v20_apply, val_main_cst_apply, val_main_v26_apply]
  unfold val_main_v15 val_main_v18 val_main_v19 val_main_v25
  simp only [scalar_of_one, Ideal.addf_def, Ideal.subf_def, Ideal.mulf_def, Ideal.hostDivf_def, Ideal.hostUnary_sqrt_def,
    Ideal.ofBits_def]
  rfl

/-- The stacked windows at (b, w, j): the normalised row b at column w + j. -/
theorem windows_apply (b : Fin 4096) (w : Fin 392) (j : Fin 9) :
    val_main_v59 (F := Ideal) x0 x2 x3 x5 x6 x7 x8 (ix3 b w j)
      = val_main_v27 (F := Ideal) x0 x2 x3 x5 x6 x7 x8 (ix2 b (tap w j)) := by
  unfold val_main_v59
  refine (join9_apply (fun n : Fin 9 => match n with
    | ⟨0, _⟩ => val_main_v50 (F := Ideal) x0 x2 x3 x5 x6 x7 x8
    | ⟨1, _⟩ => val_main_v51 (F := Ideal) x0 x2 x3 x5 x6 x7 x8
    | ⟨2, _⟩ => val_main_v52 (F := Ideal) x0 x2 x3 x5 x6 x7 x8
    | ⟨3, _⟩ => val_main_v53 (F := Ideal) x0 x2 x3 x5 x6 x7 x8
    | ⟨4, _⟩ => val_main_v54 (F := Ideal) x0 x2 x3 x5 x6 x7 x8
    | ⟨5, _⟩ => val_main_v55 (F := Ideal) x0 x2 x3 x5 x6 x7 x8
    | ⟨6, _⟩ => val_main_v56 (F := Ideal) x0 x2 x3 x5 x6 x7 x8
    | ⟨7, _⟩ => val_main_v57 (F := Ideal) x0 x2 x3 x5 x6 x7 x8
    | ⟨8, _⟩ => val_main_v58 (F := Ideal) x0 x2 x3 x5 x6 x7 x8) _ b w j).trans ?_
  match j with
  | ⟨0, _⟩ =>
    show val_main_v50 (F := Ideal) x0 x2 x3 x5 x6 x7 x8 _ = _
    rw [val_main_v50_apply, val_main_v41_apply]
    refine congrArg _ (funext fun a => Fin.ext ?_)
    match a with
    | ⟨0, _⟩ => rfl
    | ⟨1, _⟩ => exact (Nat.add_zero _).symm
  | ⟨1, _⟩ =>
    show val_main_v51 (F := Ideal) x0 x2 x3 x5 x6 x7 x8 _ = _
    rw [val_main_v51_apply, val_main_v42_apply]
    refine congrArg _ (funext fun a => Fin.ext ?_)
    match a with
    | ⟨0, _⟩ => rfl
    | ⟨1, _⟩ => exact Nat.add_comm _ _
  | ⟨2, _⟩ =>
    show val_main_v52 (F := Ideal) x0 x2 x3 x5 x6 x7 x8 _ = _
    rw [val_main_v52_apply, val_main_v43_apply]
    refine congrArg _ (funext fun a => Fin.ext ?_)
    match a with
    | ⟨0, _⟩ => rfl
    | ⟨1, _⟩ => exact Nat.add_comm _ _
  | ⟨3, _⟩ =>
    show val_main_v53 (F := Ideal) x0 x2 x3 x5 x6 x7 x8 _ = _
    rw [val_main_v53_apply, val_main_v44_apply]
    refine congrArg _ (funext fun a => Fin.ext ?_)
    match a with
    | ⟨0, _⟩ => rfl
    | ⟨1, _⟩ => exact Nat.add_comm _ _
  | ⟨4, _⟩ =>
    show val_main_v54 (F := Ideal) x0 x2 x3 x5 x6 x7 x8 _ = _
    rw [val_main_v54_apply, val_main_v45_apply]
    refine congrArg _ (funext fun a => Fin.ext ?_)
    match a with
    | ⟨0, _⟩ => rfl
    | ⟨1, _⟩ => exact Nat.add_comm _ _
  | ⟨5, _⟩ =>
    show val_main_v55 (F := Ideal) x0 x2 x3 x5 x6 x7 x8 _ = _
    rw [val_main_v55_apply, val_main_v46_apply]
    refine congrArg _ (funext fun a => Fin.ext ?_)
    match a with
    | ⟨0, _⟩ => rfl
    | ⟨1, _⟩ => exact Nat.add_comm _ _
  | ⟨6, _⟩ =>
    show val_main_v56 (F := Ideal) x0 x2 x3 x5 x6 x7 x8 _ = _
    rw [val_main_v56_apply, val_main_v47_apply]
    refine congrArg _ (funext fun a => Fin.ext ?_)
    match a with
    | ⟨0, _⟩ => rfl
    | ⟨1, _⟩ => exact Nat.add_comm _ _
  | ⟨7, _⟩ =>
    show val_main_v57 (F := Ideal) x0 x2 x3 x5 x6 x7 x8 _ = _
    rw [val_main_v57_apply, val_main_v48_apply]
    refine congrArg _ (funext fun a => Fin.ext ?_)
    match a with
    | ⟨0, _⟩ => rfl
    | ⟨1, _⟩ => exact Nat.add_comm _ _
  | ⟨8, _⟩ =>
    show val_main_v58 (F := Ideal) x0 x2 x3 x5 x6 x7 x8 _ = _
    rw [val_main_v58_apply, val_main_v49_apply]
    refine congrArg _ (funext fun a => Fin.ext ?_)
    match a with
    | ⟨0, _⟩ => rfl
    | ⟨1, _⟩ => exact Nat.add_comm _ _

end Cert.Hyper.Ref

end
-- ==== Proof.RefFilter.lean ====
/-
  The reference's filters, entry by entry.

  Each batch row b picks a row of the relation table (the start index, clamped into the table), sends it through
  the hypernetwork's dense layer — a contraction over the 200 relation features against the transposed weights,
  plus the bias — and the 288 outputs are viewed as 32 filters of 9 taps, filter-major: tap j of filter o is
  output o · 9 + j.
-/
import proofs.«106541_j17248588661540_2_alg».proof.Proof.Gen.ReferenceIdeal.Read
import proofs.«106541_j17248588661540_2_alg».proof.Proof.Spec
import proofs.«106541_j17248588661540_2_alg».proof.Proof.LibGatherRows

noncomputable section

namespace Cert.Hyper.Ref

open Cert.ReferenceIdeal Cert.ReferenceIdeal.Read Idealize.ShloMosaic Idealize.ShloMosaic.ValueIdx

variable (x1 : (⟨S4096, .i32⟩ : BufTy).Contents (Elt Ideal)) (x4 : (⟨S500x200, .f32⟩ : BufTy).Contents (Elt Ideal))
  (x9 : (⟨S288x200, .f32⟩ : BufTy).Contents (Elt Ideal)) (x10 : (⟨S288, .f32⟩ : BufTy).Contents (Elt Ideal))

/-- The gathered relation rows at (b, d): the table at the clamped start row of b. -/
theorem relrow_apply (b : Fin 4096) (d : Fin 200) :
    val_main_v34 (F := Ideal) x1 x4 (ix2 b d)
      = x4 (ix2 (GatherRows.rowOf (N := 500) (by norm_num) (val_main_v33 (F := Ideal) x1) b) d) :=
  GatherRows.gather_rows_apply (by norm_num) _ x4 _ b d

/-- The dense layer's output i for batch row b. -/
theorem dense1_apply (b : Fin 4096) (i : Fin 288) :
    val_main_v39 (F := Ideal) x1 x4 x9 x10 (ix2 b i)
      = (∑ d : Fin 200, x4 (ix2 (GatherRows.rowOf (N := 500) (by norm_num) (val_main_v33 (F := Ideal) x1) b) d) * x9 (ix2 i d))
        + x10 (ix1 i) := by
  rw [val_main_v39_apply, val_main_v36_apply, val_main_v38_apply, val_main_v37_apply, Ideal.addf_def]
  congr 1
  · refine Finset.sum_congr rfl fun d _ => ?_
    rw [val_main_v35_apply]
    have el : lidx_main_v36 (ix2 b i) d = ix2 b d := by
      funext a; match a with | ⟨0, _⟩ => rfl | ⟨1, _⟩ => rfl
    have er : idx_main_v35 (ridx_main_v36 (ix2 b i) d) = ix2 i d := by
      funext a; match a with | ⟨0, _⟩ => rfl | ⟨1, _⟩ => rfl
    rw [el, er, relrow_apply]
  · refine congrArg x10 ?_
    funext a; match a with | ⟨0, _⟩ => rfl

/-- Tap j of filter o for batch row b: the dense layer's output o · 9 + j. -/
theorem filter_apply (b : Fin 4096) (o : Fin 32) (j : Fin 9) :
    val_main_v40 (F := Ideal) x1 x4 x9 x10 (ix3 b o j)
      = (∑ d : Fin 200, x4 (ix2 (GatherRows.rowOf (N := 500) (by norm_num) (val_main_v33 (F := Ideal) x1) b) d) * x9 (ix2 (fidx o j) d))
        + x10 (ix1 (fidx o j)) := by
  have e40 : idx_main_v40 (ix3 b o j) = ix2 b (fidx o j) := by
    have hb := b.isLt; have ho := o.isLt; have hj := j.isLt
    funext a; refine Fin.ext ?_
    match a with
    | ⟨0, _⟩ => show ((b.val * 32 + o.val) * 9 + j.val) / 288 = b.val; omega
    | ⟨1, _⟩ => show ((b.val * 32 + o.val) * 9 + j.val) % 288 = o.val * 9 + j.val; omega
  rw [val_main_v40_apply, e40, dense1_apply]

end Cert.Hyper.Ref

end
-- ==== Proof.RefConv.lean ====
/-
  The reference's convolution and its per-filter normalisation, entry by entry.

  The batched contraction pairs, for each batch row, the 9 taps of a filter with the 9 stacked window entries of
  a position: response (b, o, w) is the sum over taps j of filter (b, o, j) times window (b, w, j). The responses
  are then centred, scaled by γ / √(σ² + ε) and shifted, with the four per-filter vectors broadcast over the batch
  and position axes.
-/
import proofs.«106541_j17248588661540_2_alg».proof.Proof.Gen.ReferenceIdeal.Read
import proofs.«106541_j17248588661540_2_alg».proof.Proof.Spec

noncomputable section

namespace Cert.Hyper.Ref

open Cert.ReferenceIdeal Cert.ReferenceIdeal.Read Idealize.ShloMosaic Idealize.ShloMosaic.ValueIdx

variable (x0 : (⟨S4096, .i32⟩ : BufTy).Contents (Elt Ideal))
  (x1 : (⟨S4096, .i32⟩ : BufTy).Contents (Elt Ideal))
  (x2 : (⟨S4096, .i32⟩ : BufTy).Contents (Elt Ideal))
  (x3 : (⟨S100000x200, .f32⟩ : BufTy).Contents (Elt Ideal))
  (x4 : (⟨S500x200, .f32⟩ : BufTy).Contents (Elt Ideal))
  (x5 : (⟨S1, .f32⟩ : BufTy).Contents (Elt Ideal))
  (x6 : (⟨S1, .f32⟩ : BufTy).Contents (Elt Ideal))
  (x7 : (⟨S1, .f32⟩ : BufTy).Contents (Elt Ideal))
  (x8 : (⟨S1, .f32⟩ : BufTy).Contents (Elt Ideal))
  (x9 : (⟨S288x200, .f32⟩ : BufTy).Contents (Elt Ideal))
  (x10 : (⟨S288, .f32⟩ : BufTy).Contents (Elt Ideal))
  (x11 : (⟨S32, .f32⟩ : BufTy).Contents (Elt Ideal))
  (x12 : (⟨S32, .f32⟩ : BufTy).Contents (Elt Ideal))
  (x13 : (⟨S32, .f32⟩ : BufTy).Contents (Elt Ideal))
  (x14 : (⟨S32, .f32⟩ : BufTy).Contents (Elt Ideal))

/-- Response of filter o at position w for batch row b: the sum over the 9 taps. -/
theorem conv_apply (b : Fin 4096) (o : Fin 32) (w : Fin 392) :
    val_main_v60 (F := Ideal) x0 x1 x2 x3 x4 x5 x6 x7 x8 x9 x10 (ix3 b o w)
      = ∑ j : Fin 9, val_main_v40 (F := Ideal) x1 x4 x9 x10 (ix3 b o j)
          * val_main_v59 (F := Ideal) x0 x2 x3 x5 x6 x7 x8 (ix3 b w j) := by
  rw [val_main_v60_apply]
  refine Finset.sum_congr rfl fun j _ => ?_
  have el : lidx_main_v60 (ix3 b o w) j = ix3 b o j := by
    funext a; refine Fin.ext ?_
    match a with | ⟨0, _⟩ => rfl | ⟨1, _⟩ => rfl | ⟨2, _⟩ => rfl
  have er : ridx_main_v60 (ix3 b o w) j = ix3 b w j := by
    funext a; refine Fin.ext ?_
    match a with | ⟨0, _⟩ => rfl | ⟨1, _⟩ => rfl | ⟨2, _⟩ => rfl
  rw [el, er]

/-- The normalised response at (b, o, w): (y − μ) · γ / √(σ² + ε) + β with the statistics of filter o. -/
theorem bn1_apply (b : Fin 4096) (o : Fin 32) (w : Fin 392) :
    val_main_v73 (F := Ideal) x0 x1 x2 x3 x4 x5 x6 x7 x8 x9 x10 x11 x12 x13 x14 (ix3 b o w)
      = (val_main_v60 (F := Ideal) x0 x1 x2 x3 x4 x5 x6 x7 x8 x9 x10 (ix3 b o w) - x13 (ix1 o)) * scale (x11 (ix1 o)) (x14 (ix1 o)) + x12 (ix1 o) := by
  have e1 : idx_main_v65 (idx_main_v66 (ix3 b o w)) = ix1 o := by
    funext a; refine Fin.ext ?_
    match a with | ⟨0, _⟩ => rfl
  have e2 : idx_main_v68 (idx_main_v69 (ix3 b o w)) = ix1 o := by
    funext a; refine Fin.ext ?_
    match a with | ⟨0, _⟩ => rfl
  have e3 : idx_main_v71 (idx_main_v72 (ix3 b o w)) = ix1 o := by
    funext a; refine Fin.ext ?_
    match a with | ⟨0, _⟩ => rfl
  rw [val_main_v73_apply, val_main_v70_apply, val_main_v67_apply, val_main_v66_apply, val_main_v65_apply,
    val_main_v69_apply, val_main_v68_apply, val_main_v64_apply, val_main_v63_apply, val_main_v62_apply,
    val_main_v61_apply, val_main_cst_5_apply, val_main_v72_apply, val_main_v71_apply, e1, e2, e3]
  rfl

end Cert.Hyper.Ref

end
-- ==== Proof.RefDense.lean ====
/-
  The reference's dense layer over the flattened responses, entry by entry.

  The [4096, 32, 392] normalised responses are viewed as [4096, 12544], filter-major: flat position q is filter
  q / 392 at window position q % 392. Feature n of batch row b is the contraction over q against the transposed
  weights, plus the bias.
-/
import proofs.«106541_j17248588661540_2_alg».proof.Proof.Gen.ReferenceIdeal.Read
import proofs.«106541_j17248588661540_2_alg».proof.Proof.Spec

noncomputable section

namespace Cert.Hyper.Ref

open Cert.ReferenceIdeal Cert.ReferenceIdeal.Read Idealize.ShloMosaic Idealize.ShloMosaic.ValueIdx

variable (x0 : (⟨S4096, .i32⟩ : BufTy).Contents (Elt Ideal))
  (x1 : (⟨S4096, .i32⟩ : BufTy).Contents (Elt Ideal))
  (x2 : (⟨S4096, .i32⟩ : BufTy).Contents (Elt Ideal))
  (x3 : (⟨S100000x200, .f32⟩ : BufTy).Contents (Elt Ideal))
  (x4 : (⟨S500x200, .f32⟩ : BufTy).Contents (Elt Ideal))
  (x5 : (⟨S1, .f32⟩ : BufTy).Contents (Elt Ideal))
  (x6 : (⟨S1, .f32⟩ : BufTy).Contents (Elt Ideal))
  (x7 : (⟨S1, .f32⟩ : BufTy).Contents (Elt Ideal))
  (x8 : (⟨S1, .f32⟩ : BufTy).Contents (Elt Ideal))
  (x9 : (⟨S288x200, .f32⟩ : BufTy).Contents (Elt Ideal))
  (x10 : (⟨S288, .f32⟩ : BufTy).Contents (Elt Ideal))
  (x11 : (⟨S32, .f32⟩ : BufTy).Contents (Elt Ideal))
  (x12 : (⟨S32, .f32⟩ : BufTy).Contents (Elt Ideal))
  (x13 : (⟨S32, .f32⟩ : BufTy).Contents (Elt Ideal))
  (x14 : (⟨S32, .f32⟩ : BufTy).Contents (Elt Ideal))
  (x15 : (⟨S400x12544, .f32⟩ : BufTy).Contents (Elt Ideal))
  (x16 : (⟨S400, .f32⟩ : BufTy).Contents (Elt Ideal))

/-- Feature n of batch row b before its normalisation. -/
theorem dense2_apply (b : Fin 4096) (n : Fin 400) :
    val_main_v79 (F := Ideal) x0 x1 x2 x3 x4 x5 x6 x7 x8 x9 x10 x11 x12 x13 x14 x15 x16 (ix2 b n)
      = (∑ q : Fin 12544, val_main_v73 (F := Ideal) x0 x1 x2 x3 x4 x5 x6 x7 x8 x9 x10 x11 x12 x13 x14 (ix3 b (oc q) (wc q)) * x15 (ix2 n q)) + x16 (ix1 n) := by
  have e1 : idx_main_v77 (idx_main_v78 (ix2 b n)) = ix1 n := by
    funext a; refine Fin.ext ?_
    match a with | ⟨0, _⟩ => rfl
  rw [val_main_v79_apply, val_main_v76_apply, val_main_v78_apply, val_main_v77_apply, e1, Ideal.addf_def]
  refine congrArg (· + x16 (ix1 n)) (Finset.sum_congr rfl fun q _ => ?_)
  have el : idx_main_v74 (lidx_main_v76 (ix2 b n) q) = ix3 b (oc q) (wc q) := by
    have hb := b.isLt; have hq := q.isLt
    funext a; refine Fin.ext ?_
    match a with
    | ⟨0, _⟩ => show (b.val * 12544 + q.val) / 12544 = b.val; omega
    | ⟨1, _⟩ => show (b.val * 12544 + q.val) / 392 % 32 = q.val / 392; omega
    | ⟨2, _⟩ => show (b.val * 12544 + q.val) % 392 = q.val % 392; omega
  have er : idx_main_v75 (ridx_main_v76 (ix2 b n) q) = ix2 n q := by
    funext a; refine Fin.ext ?_
    match a with | ⟨0, _⟩ => rfl | ⟨1, _⟩ => rfl
  rw [val_main_v74_apply, val_main_v75_apply, el, er]

end Cert.Hyper.Ref

end
-- ==== Proof.RefTail.lean ====
/-
  The reference's tail, entry by entry.

  The 400 features are centred, scaled by γ / √(σ² + ε) and shifted per feature; the scoring layer contracts them
  against the transposed [1, 400] weights and adds its bias; tanh squashes the score and the final bias is added.
  The result has one column, so row r is read at (r, 0).
-/
import proofs.«106541_j17248588661540_2_alg».proof.Proof.Gen.ReferenceIdeal.Read
import proofs.«106541_j17248588661540_2_alg».proof.Proof.Spec

noncomputable section

namespace Cert.Hyper.Ref

open Cert.ReferenceIdeal Cert.ReferenceIdeal.Read Idealize.ShloMosaic Idealize.ShloMosaic.ValueIdx

variable (x0 : (⟨S4096, .i32⟩ : BufTy).Contents (Elt Ideal))
  (x1 : (⟨S4096, .i32⟩ : BufTy).Contents (Elt Ideal))
  (x2 : (⟨S4096, .i32⟩ : BufTy).Contents (Elt Ideal))
  (x3 : (⟨S100000x200, .f32⟩ : BufTy).Contents (Elt Ideal))
  (x4 : (⟨S500x200, .f32⟩ : BufTy).Contents (Elt Ideal))
  (x5 : (⟨S1, .f32⟩ : BufTy).Contents (Elt Ideal))
  (x6 : (⟨S1, .f32⟩ : BufTy).Contents (Elt Ideal))
  (x7 : (⟨S1, .f32⟩ : BufTy).Contents (Elt Ideal))
  (x8 : (⟨S1, .f32⟩ : BufTy).Contents (Elt Ideal))
  (x9 : (⟨S288x200, .f32⟩ : BufTy).Contents (Elt Ideal))
  (x10 : (⟨S288, .f32⟩ : BufTy).Contents (Elt Ideal))
  (x11 : (⟨S32, .f32⟩ : BufTy).Contents (Elt Ideal))
  (x12 : (⟨S32, .f32⟩ : BufTy).Contents (Elt Ideal))
  (x13 : (⟨S32, .f32⟩ : BufTy).Contents (Elt Ideal))
  (x14 : (⟨S32, .f32⟩ : BufTy).Contents (Elt Ideal))
  (x15 : (⟨S400x12544, .f32⟩ : BufTy).Contents (Elt Ideal))
  (x16 : (⟨S400, .f32⟩ : BufTy).Contents (Elt Ideal))
  (x17 : (⟨S400, .f32⟩ : BufTy).Contents (Elt Ideal))
  (x18 : (⟨S400, .f32⟩ : BufTy).Contents (Elt Ideal))
  (x19 : (⟨S400, .f32⟩ : BufTy).Contents (Elt Ideal))
  (x20 : (⟨S400, .f32⟩ : BufTy).Contents (Elt Ideal))
  (x21 : (⟨S1x400, .f32⟩ : BufTy).Contents (Elt Ideal))
  (x22 : (⟨S1, .f32⟩ : BufTy).Contents (Elt Ideal))
  (x23 : (⟨S1, .f32⟩ : BufTy).Contents (Elt Ideal))

/-- The normalised feature n of batch row b. -/
theorem bn2_apply (b : Fin 4096) (n : Fin 400) :
    val_main_v92 (F := Ideal) x0 x1 x2 x3 x4 x5 x6 x7 x8 x9 x10 x11 x12 x13 x14 x15 x16 x17 x18 x19 x20 (ix2 b n)
      = (val_main_v79 (F := Ideal) x0 x1 x2 x3 x4 x5 x6 x7 x8 x9 x10 x11 x12 x13 x14 x15 x16 (ix2 b n) - x19 (ix1 n)) * scale (x17 (ix1 n)) (x20 (ix1 n)) + x18 (ix1 n) := by
  have e1 : idx_main_v80 (idx_main_v81 (ix2 b n)) = ix1 n := by
    funext a; refine Fin.ext ?_
    match a with | ⟨0, _⟩ => rfl
  have e2 : idx_main_v87 (idx_main_v88 (ix2 b n)) = ix1 n := by
    funext a; refine Fin.ext ?_
    match a with | ⟨0, _⟩ => rfl
  have e3 : idx_main_v90 (idx_main_v91 (ix2 b n)) = ix1 n := by
    funext a; refine Fin.ext ?_
    match a with | ⟨0, _⟩ => rfl
  rw [val_main_v92_apply, val_main_v89_apply, val_main_v82_apply, val_main_v81_apply, val_main_v80_apply,
    val_main_v88_apply, val_main_v87_apply, val_main_v86_apply, val_main_v85_apply, val_main_v84_apply,
    val_main_v83_apply, val_main_cst_6_apply, val_main_v91_apply, val_main_v90_apply, e1, e2, e3]
  rfl

/-- The score of batch row r. -/
theorem score_apply (r : Fin 4096) :
    val_main_v101 (F := Ideal) x0 x1 x2 x3 x4 x5 x6 x7 x8 x9 x10 x11 x12 x13 x14 x15 x16 x17 x18 x19 x20 x21 x22 x23 (ix2 r (0 : Fin 1))
      = Ideal.tanh ((∑ n : Fin 400, val_main_v92 (F := Ideal) x0 x1 x2 x3 x4 x5 x6 x7 x8 x9 x10 x11 x12 x13 x14 x15 x16 x17 x18 x19 x20 (ix2 r n) * x21 (ix2 (0 : Fin 1) n)) + x22 (ix1 (0 : Fin 1)))
        + x23 (ix1 (0 : Fin 1)) := by
  have e1 : idx_main_v95 (idx_main_v96 (ix2 r (0 : Fin 1))) = ix1 (0 : Fin 1) := by
    funext a; refine Fin.ext ?_
    match a with | ⟨0, _⟩ => rfl
  have e2 : idx_main_v99 (idx_main_v100 (ix2 r (0 : Fin 1))) = ix1 (0 : Fin 1) := by
    funext a; refine Fin.ext ?_
    match a with | ⟨0, _⟩ => rfl
  rw [val_main_v101_apply, val_main_v98_apply, val_main_v97_apply, val_main_v94_apply, val_main_v96_apply,
    val_main_v95_apply, val_main_v100_apply, val_main_v99_apply, e1, e2, Ideal.addf_def, Ideal.addf_def,
    Ideal.hostUnary_tanh_def]
  refine congrArg (· + x23 (ix1 (0 : Fin 1))) (congrArg Ideal.tanh (congrArg (· + x22 (ix1 (0 : Fin 1))) (Finset.sum_congr rfl fun n _ => ?_)))
  have el : lidx_main_v94 (ix2 r (0 : Fin 1)) n = ix2 r n := by
    funext a; refine Fin.ext ?_
    match a with | ⟨0, _⟩ => rfl | ⟨1, _⟩ => rfl
  have er : idx_main_v93 (ridx_main_v94 (ix2 r (0 : Fin 1)) n) = ix2 (0 : Fin 1) n := by
    funext a; refine Fin.ext ?_
    match a with | ⟨0, _⟩ => rfl | ⟨1, _⟩ => rfl
  rw [val_main_v93_apply, el, er]

end Cert.Hyper.Ref

end
-- ==== Proof.RefValue.lean ====
/-
  The reference's result, row by row, is the scorer's tail over the normalise-then-dense features.

  The parameters are read off the argument arrays: the joined gathered embedding rows (an array this file never
  opens), the relation row each batch row picks (its start index clamped into the table), and the float arguments
  in order. Stage by stage — input normalisation, filters, convolution, per-filter normalisation, flatten and
  dense layer, per-feature normalisation, scoring layer, tanh, bias — the reference's entry is the spec's term
  at the same coordinates; nothing but re-indexing is used.
-/
import proofs.«106541_j17248588661540_2_alg».proof.Proof.Gen.ReferenceIdeal.Read
import proofs.«106541_j17248588661540_2_alg».proof.Proof.Spec
import proofs.«106541_j17248588661540_2_alg».proof.Proof.LibGatherRows
import proofs.«106541_j17248588661540_2_alg».proof.Proof.RefInput
import proofs.«106541_j17248588661540_2_alg».proof.Proof.RefFilter
import proofs.«106541_j17248588661540_2_alg».proof.Proof.RefConv
import proofs.«106541_j17248588661540_2_alg».proof.Proof.RefDense
import proofs.«106541_j17248588661540_2_alg».proof.Proof.RefTail

noncomputable section

namespace Cert.Hyper.Ref

open Cert.ReferenceIdeal Cert.ReferenceIdeal.Read Idealize.ShloMosaic Idealize.ShloMosaic.ValueIdx

variable (x0 : (⟨S4096, .i32⟩ : BufTy).Contents (Elt Ideal))
  (x1 : (⟨S4096, .i32⟩ : BufTy).Contents (Elt Ideal))
  (x2 : (⟨S4096, .i32⟩ : BufTy).Contents (Elt Ideal))
  (x3 : (⟨S100000x200, .f32⟩ : BufTy).Contents (Elt Ideal))
  (x4 : (⟨S500x200, .f32⟩ : BufTy).Contents (Elt Ideal))
  (x5 : (⟨S1, .f32⟩ : BufTy).Contents (Elt Ideal))
  (x6 : (⟨S1, .f32⟩ : BufTy).Contents (Elt Ideal))
  (x7 : (⟨S1, .f32⟩ : BufTy).Contents (Elt Ideal))
  (x8 : (⟨S1, .f32⟩ : BufTy).Contents (Elt Ideal))
  (x9 : (⟨S288x200, .f32⟩ : BufTy).Contents (Elt Ideal))
  (x10 : (⟨S288, .f32⟩ : BufTy).Contents (Elt Ideal))
  (x11 : (⟨S32, .f32⟩ : BufTy).Contents (Elt Ideal))
  (x12 : (⟨S32, .f32⟩ : BufTy).Contents (Elt Ideal))
  (x13 : (⟨S32, .f32⟩ : BufTy).Contents (Elt Ideal))
  (x14 : (⟨S32, .f32⟩ : BufTy).Contents (Elt Ideal))
  (x15 : (⟨S400x12544, .f32⟩ : BufTy).Contents (Elt Ideal))
  (x16 : (⟨S400, .f32⟩ : BufTy).Contents (Elt Ideal))
  (x17 : (⟨S400, .f32⟩ : BufTy).Contents (Elt Ideal))
  (x18 : (⟨S400, .f32⟩ : BufTy).Contents (Elt Ideal))
  (x19 : (⟨S400, .f32⟩ : BufTy).Contents (Elt Ideal))
  (x20 : (⟨S400, .f32⟩ : BufTy).Contents (Elt Ideal))
  (x21 : (⟨S1x400, .f32⟩ : BufTy).Contents (Elt Ideal))
  (x22 : (⟨S1, .f32⟩ : BufTy).Contents (Elt Ideal))
  (x23 : (⟨S1, .f32⟩ : BufTy).Contents (Elt Ideal))

/-- The parameters read off the argument arrays. -/
def paramsOf : Params :=
  mkParams (val_main_v14 (F := Ideal) x0 x2 x3)
    (GatherRows.rowOf (N := 500) (by norm_num) (val_main_v33 (F := Ideal) x1))
    x4 x5 x6 x7 x8 x9 x10 x11 x12 x13 x14 x15 x16 x17 x18 x19 x20 x21 x22 x23

/-- The reference's normalised input row is the spec's centred-first row. -/
theorem xr_eq (b : Fin 4096) (c : Fin 400) :
    val_main_v27 (F := Ideal) x0 x2 x3 x5 x6 x7 x8 (ix2 b c) = xr (paramsOf x0 x1 x2 x3 x4 x5 x6 x7 x8 x9 x10 x11 x12 x13 x14 x15 x16 x17 x18 x19 x20 x21 x22 x23) b c :=
  input_apply x0 x2 x3 x5 x6 x7 x8 (ix2 b c)

/-- The reference's filters are the spec's. -/
theorem kf_eq (b : Fin 4096) (o : Fin 32) (j : Fin 9) :
    val_main_v40 (F := Ideal) x1 x4 x9 x10 (ix3 b o j) = kf (paramsOf x0 x1 x2 x3 x4 x5 x6 x7 x8 x9 x10 x11 x12 x13 x14 x15 x16 x17 x18 x19 x20 x21 x22 x23) b o j :=
  filter_apply x1 x4 x9 x10 b o j

/-- The reference's responses are the spec's, over the centred-first row. -/
theorem convr_eq (b : Fin 4096) (o : Fin 32) (w : Fin 392) :
    val_main_v60 (F := Ideal) x0 x1 x2 x3 x4 x5 x6 x7 x8 x9 x10 (ix3 b o w) = convr (paramsOf x0 x1 x2 x3 x4 x5 x6 x7 x8 x9 x10 x11 x12 x13 x14 x15 x16 x17 x18 x19 x20 x21 x22 x23) b o w := by
  rw [conv_apply]
  unfold convr
  refine Finset.sum_congr rfl fun j _ => ?_
  rw [kf_eq x0 x1 x2 x3 x4 x5 x6 x7 x8 x9 x10 x11 x12 x13 x14 x15 x16 x17 x18 x19 x20 x21 x22 x23, windows_apply, xr_eq x0 x1 x2 x3 x4 x5 x6 x7 x8 x9 x10 x11 x12 x13 x14 x15 x16 x17 x18 x19 x20 x21 x22 x23]

/-- The reference's features before their normalisation are the spec's normalise-then-dense features. -/
theorem hr_eq (b : Fin 4096) (n : Fin 400) :
    val_main_v79 (F := Ideal) x0 x1 x2 x3 x4 x5 x6 x7 x8 x9 x10 x11 x12 x13 x14 x15 x16 (ix2 b n) = hr (paramsOf x0 x1 x2 x3 x4 x5 x6 x7 x8 x9 x10 x11 x12 x13 x14 x15 x16 x17 x18 x19 x20 x21 x22 x23) b n := by
  rw [dense2_apply]
  unfold hr
  refine congrArg₂ (· + ·) (Finset.sum_congr rfl fun q _ => ?_) rfl
  rw [bn1_apply, convr_eq x0 x1 x2 x3 x4 x5 x6 x7 x8 x9 x10 x11 x12 x13 x14 x15 x16 x17 x18 x19 x20 x21 x22 x23]
  rfl

/-- The reference's value at (r, 0) is the spec's tail over those features. -/
theorem value_eq (r : Fin 4096) :
    val_main_v101 (F := Ideal) x0 x1 x2 x3 x4 x5 x6 x7 x8 x9 x10 x11 x12 x13 x14 x15 x16 x17 x18 x19 x20 x21 x22 x23 (ix2 r (0 : Fin 1))
      = out (paramsOf x0 x1 x2 x3 x4 x5 x6 x7 x8 x9 x10 x11 x12 x13 x14 x15 x16 x17 x18 x19 x20 x21 x22 x23) (hr (paramsOf x0 x1 x2 x3 x4 x5 x6 x7 x8 x9 x10 x11 x12 x13 x14 x15 x16 x17 x18 x19 x20 x21 x22 x23)) r := by
  rw [score_apply]
  unfold out
  refine congrArg₂ (· + ·) (congrArg Ideal.tanh (congrArg₂ (· + ·) (Finset.sum_congr rfl fun n _ => ?_) rfl)) rfl
  rw [bn2_apply, hr_eq x0 x1 x2 x3 x4 x5 x6 x7 x8 x9 x10 x11 x12 x13 x14 x15 x16 x17 x18 x19 x20 x21 x22 x23]
  rfl

/-- The parameters of the reference's run from the launch memory m on device c: the joined gathered embedding
    rows, the clamped relation start rows, and the float arguments in order. -/
def refParams (m : (ℓ : Loc nD τ sig) → Buf (Elt Ideal) ℓ) (c : Dev nD) : Params :=
  mkParams
    (val_main_v14 (F := Ideal) (m ((c.tc : Thread nD τ).loc main_arg0)) (m ((c.tc : Thread nD τ).loc main_arg2)) (m ((c.tc : Thread nD τ).loc main_arg3)))
    (GatherRows.rowOf (N := 500) (by norm_num) (val_main_v33 (F := Ideal) (m ((c.tc : Thread nD τ).loc main_arg1))))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))

/-- The reference run's result read at row r is the spec's tail over the normalise-then-dense features. -/
theorem ref_value (m : (ℓ : Loc Cert.ReferenceIdeal.nD Cert.ReferenceIdeal.τ Cert.ReferenceIdeal.sig) → Buf (Elt Ideal) ℓ)
    (c : Dev Cert.ReferenceIdeal.nD) (r : Fin 4096) :
    (Cert.ReferenceIdeal.Value.res_main_v101 (F := Ideal) m c : _ → EReal) (ValueIdx.ix2 r (0 : Fin 1))
      = Cert.Hyper.out (refParams m c) (Cert.Hyper.hr (refParams m c)) r := by
  rw [val_main_v101_eq]
  exact value_eq _ _ _ _ _ _ _ _ _ _ _ _ _ _ _ _ _ _ _ _ _ _ _ _ r

end Cert.Hyper.Ref

end
-- ==== Proof.KerHostRows.lean ====
/-
  Row numbers as start indices, and the two gathered embedding rows side by side.

  A vector of 4096 row numbers is normalised the way an index expression is (a negative number counts from the
  end of a table of n rows) and laid as a column [4096, 1] of start indices. The input rows are the embedding
  table's rows at the first and at the second entity's numbers, joined along the columns into [4096, 400].
-/
import proofs.«106541_j17248588661540_2_alg».proof.Proof.Gen.KernelIdeal
import proofs.«106541_j17248588661540_2_alg».proof.Proof.Spec
import Idealize.ShloMosaic.Lib.Pipeline.Value
import Idealize.ShloMosaic.Lib.ValueIdx

noncomputable section

namespace Cert.Hyper.KerHost

open Cert.KernelIdeal Cert.KernelIdeal.Gen Idealize.ShloMosaic Idealize.ShloMosaic.ValueIdx

/-- Row numbers, negative ones wrapped by the table's height n, as a column of start indices. -/
def startIdx (n : BitVec 32) (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- The two gathered embedding rows of each batch row, side by side. -/
def embRows (a0 a2 : IVec S4096 32) (a3 : FVec Ideal S100000x200 .f32) : FVec Ideal S4096x400 .f32 :=
  concatenate S4096x400 1
    [⟨S4096x200, Host.gather gather_S100000x200_S4096x1_S4096x200_1_0_n_n_0_1_1200 a3 (startIdx 100000#32 a0)⟩,
     ⟨S4096x200, Host.gather gather_S100000x200_S4096x1_S4096x200_1_0_n_n_0_1_1200 a3 (startIdx 100000#32 a2)⟩]
    concatenates_S4096x200_S4096x200_S4096x400_d1

end Cert.Hyper.KerHost

end
-- ==== Proof.KerHostNorm.lean ====
/-
  The batch-norm scales and the input shift as arrays, read at an entry.

  A scale array is γ / √(σ² + ε) entry by entry, with ε a constant spread over the array's shape. Three shapes
  occur: one entry (the input norm), 32 entries (per filter) and 400 entries (per feature). The input shift is
  β − μ · scale. The scoring weights, given as a row [1, 400], are used as a column [400, 1].
-/
import proofs.«106541_j17248588661540_2_alg».proof.Proof.Gen.KernelIdeal
import proofs.«106541_j17248588661540_2_alg».proof.Proof.Spec
import Idealize.ShloMosaic.Lib.Pipeline.Value
import Idealize.ShloMosaic.Lib.ValueIdx
import Idealize.ShloMosaic.PureOps.Ideal.Laws

noncomputable section

namespace Cert.Hyper.KerHost

open Cert.KernelIdeal Cert.KernelIdeal.Gen Idealize.ShloMosaic Idealize.ShloMosaic.ValueIdx

/-- γ / √(σ² + ε) on one entry. -/
def scale1 (g v : FVec Ideal S1 .f32) : FVec Ideal S1 .f32 :=
  Host.divf (F := Ideal) g (Host.sqrt (F := Ideal) (addf v
    (broadcastInDim S1 ![] bcast_S_S1 (constant (F := Ideal) S_ .f32 0x3727C5AC#32))))

theorem scale1_apply (g v : FVec Ideal S1 .f32) (i : S1.Idx) :
    scale1 g v i = scale (g i) (v i) := rfl

/-- β − μ · scale on one entry. -/
def shift1 (g b mu v : FVec Ideal S1 .f32) : FVec Ideal S1 .f32 :=
  subf (F := Ideal) b (mulf (F := Ideal) mu (scale1 g v))

theorem shift1_apply (g b mu v : FVec Ideal S1 .f32) (i : S1.Idx) :
    shift1 g b mu v i = b i - mu i * scale (g i) (v i) := rfl

/-- γ / √(σ² + ε) on 32 entries. -/
def scale32 (g v : FVec Ideal S32 .f32) : FVec Ideal S32 .f32 :=
  Host.divf (F := Ideal) g (Host.sqrt (F := Ideal) (addf v
    (broadcastInDim S32 ![] bcast_S_S32 (constant (F := Ideal) S_ .f32 0x3727C5AC#32))))

theorem scale32_apply (g v : FVec Ideal S32 .f32) (i : S32.Idx) :
    scale32 g v i = scale (g i) (v i) := rfl

/-- β − μ · scale on 32 entries. -/
def shift32 (g b mu v : FVec Ideal S32 .f32) : FVec Ideal S32 .f32 :=
  subf (F := Ideal) b (mulf (F := Ideal) mu (scale32 g v))

theorem shift32_apply (g b mu v : FVec Ideal S32 .f32) (i : S32.Idx) :
    shift32 g b mu v i = b i - mu i * scale (g i) (v i) := rfl

/-- γ / √(σ² + ε) on 400 entries. -/
def scale400 (g v : FVec Ideal S400 .f32) : FVec Ideal S400 .f32 :=
  Host.divf (F := Ideal) g (Host.sqrt (F := Ideal) (addf v
    (broadcastInDim S400 ![] bcast_S_S400 (constant (F := Ideal) S_ .f32 0x3727C5AC#32))))

theorem scale400_apply (g v : FVec Ideal S400 .f32) (i : S400.Idx) :
    scale400 g v i = scale (g i) (v i) := rfl

/-- The scoring weights as a column. -/
def scoreCol (f : FVec Ideal S1x400 .f32) : FVec Ideal S400x1 .f32 :=
  transpose S400x1 [1, 0] f transposes_S1x400_S400x1_1_0

theorem scoreCol_apply (f : FVec Ideal S1x400 .f32) (n : Fin 400) :
    scoreCol f (ix2 n (0 : Fin 1)) = f (ix2 (0 : Fin 1) n) := by
  unfold scoreCol
  exact transpose_apply [1, 0] f transposes_S1x400_S400x1_1_0 (ix2 n (0 : Fin 1)) (ix2 (0 : Fin 1) n) (fun b => match b with
    | ⟨0, _⟩ => rfl
    | ⟨1, _⟩ => rfl)

end Cert.Hyper.KerHost

end
-- ==== Proof.LibGatherSlabs.lean ====
/-
  A gather of whole slabs read at an entry.

  What x[idx] of an [N, A, B] array x at a vector of R slab numbers lowers to: a gather with offset axes 1 and 2,
  collapsed slice axis 0, start index map [0], the index vector on axis 1 of the start indices [R, 1], and slices
  of size [1, A, B]. Its entry (e, j, o) is x at slab (the start index idx (e, 0), read as a signed integer and
  clamped into [0, N - 1]) and position (j, o) inside the slab. So the result is x with slabs picked by a function
  of the start indices alone. The extents N, R, A, B and the element type are arbitrary.
-/
import Idealize.ShloMosaic.PureOps.Ideal
import Idealize.ShloMosaic.Lib.ValueIdx

noncomputable section

namespace Idealize.ShloMosaic.GatherSlabs

open Idealize.ShloMosaic Idealize.ShloMosaic.ValueIdx

variable {α : Type}

/-- The dimension numbers of a slab gather, for an operand [N, A, B], start indices [R, 1] and a result
    [R, A, B]; their conditions are decided on a program's literal shapes. -/
abbrev slabDims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The operand slab that result slab e reads: the start index, signed, clamped into [0, N - 1]. -/
def slabOf {N R w : Nat} (hN : 0 < N) (idx : IVec ⟨2, ![R, 1]⟩ w) (e : Fin R) : Fin N :=
  ⟨min (idx (ix2 e (0 : Fin 1))).toInt.toNat (N - 1), by omega⟩

/-- The slab gather at (e, j, o): the operand at the clamped start slab and position (j, o). -/
theorem gather_slabs_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (e : Fin R) (j : Fin A) (o : Fin B) :
    Host.gather (slabDims N R A B wf) x idx (ix3 e j o) = x (ix3 (slabOf hN idx e) j o) := by
  unfold Host.gather
  congr 1
  funext a
  refine Fin.ext ?_
  have hk1 : (1 : Fin 3) ∈ (slabDims N R A B wf).sKept :=
    (GatherDims.mem_sKept _ _).mpr ⟨(show (1 : Fin 3) ∉ ([0] : List (Fin 3)) by decide), List.not_mem_nil⟩
  have hk2 : (2 : Fin 3) ∈ (slabDims N R A B wf).sKept :=
    (GatherDims.mem_sKept _ _).mpr ⟨(show (2 : Fin 3) ∉ ([0] : List (Fin 3)) by decide), List.not_mem_nil⟩
  match a with
  | ⟨0, _⟩ =>
    show (slabDims N R A B wf).start (ix3 e j o) idx 0 + (slabDims N R A B wf).batchCoord (ix3 e j o) 0
      + (slabDims N R A B wf).offCoord (ix3 e j o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R A B wf).startIndexMap from List.mem_singleton.mpr rfl)]
    have hsi : (slabDims N R A B wf).siIdx (ix3 e j o) ⟨List.idxOf (0 : Fin 3) (slabDims N R A B wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (slabDims N R A B wf).start (ix3 e j o) idx 1 + (slabDims N R A B wf).batchCoord (ix3 e j o) 1
      + (slabDims N R A B wf).offCoord (ix3 e j o) 1 = j.val
    rw [GatherDims.batchCoord_eq_zero _ _ _ List.not_mem_nil]
    unfold GatherDims.start
    rw [dif_neg (show (1 : Fin 3) ∉ (slabDims N R A B wf).startIndexMap from
      (show (1 : Fin 3) ∉ ([0] : List (Fin 3)) by decide))]
    unfold GatherDims.offCoord
    rw [dif_pos hk1]
    show 0 + 0 + j.val = j.val
    omega
  | ⟨2, _⟩ =>
    show (slabDims N R A B wf).start (ix3 e j o) idx 2 + (slabDims N R A B wf).batchCoord (ix3 e j o) 2
      + (slabDims N R A B wf).offCoord (ix3 e j o) 2 = o.val
    rw [GatherDims.batchCoord_eq_zero _ _ _ List.not_mem_nil]
    unfold GatherDims.start
    rw [dif_neg (show (2 : Fin 3) ∉ (slabDims N R A B wf).startIndexMap from
      (show (2 : Fin 3) ∉ ([0] : List (Fin 3)) by decide))]
    unfold GatherDims.offCoord
    rw [dif_pos hk2]
    show 0 + 0 + o.val = o.val
    omega

end Idealize.ShloMosaic.GatherSlabs

end
-- ==== Proof.KerHostFilt.lean ====
/-
  The filter table and its gather, read at an entry.

  Every one of the 500 relation rows goes through the hypernetwork's dense layer (a product with the transposed
  weights plus the bias row), giving 288 numbers per relation; these are split filter-major into 32 filters of 9
  taps and then laid tap-major, [relation, tap, filter]. Entry (r, j, o) of the table is therefore
  Σ_d R(r, d) · W1(o·9 + j, d) + b1(o·9 + j). Each batch row then takes the whole [9, 32] slab of its relation.
-/
import proofs.«106541_j17248588661540_2_alg».proof.Proof.Gen.KernelIdeal
import proofs.«106541_j17248588661540_2_alg».proof.Proof.Spec
import proofs.«106541_j17248588661540_2_alg».proof.Proof.LibGatherRows
import proofs.«106541_j17248588661540_2_alg».proof.Proof.LibGatherSlabs
import Idealize.ShloMosaic.Lib.Pipeline.Value
import Idealize.ShloMosaic.Lib.ValueIdx
import Idealize.ShloMosaic.PureOps.Ideal.Laws

noncomputable section

namespace Cert.Hyper.KerHost

open Cert.KernelIdeal Cert.KernelIdeal.Gen Idealize.ShloMosaic Idealize.ShloMosaic.ValueIdx

theorem dense_lhs0 (i : S500x288.Idx) (q : dot_S500x200_S200x288_S500x288_1_0_0_1_n_n.contr.Idx) :
    (dot_S500x200_S200x288_S500x288_1_0_0_1_n_n.lhsIdx i q 0).val = (i 0).val := by
  unfold DotDims.lhsIdx
  rw [dif_neg (show ¬(0 : Fin S500x200.rank) ∈ dot_S500x200_S200x288_S500x288_1_0_0_1_n_n.lhsBatch by decide), dif_pos (show (0 : Fin S500x200.rank) ∈ dot_S500x200_S200x288_S500x288_1_0_0_1_n_n.lhsNonContracting by decide)]
  rfl
theorem dense_rhs1 (i : S500x288.Idx) (q : dot_S500x200_S200x288_S500x288_1_0_0_1_n_n.contr.Idx) :
    (dot_S500x200_S200x288_S500x288_1_0_0_1_n_n.rhsIdx i q 1).val = (i 1).val := by
  unfold DotDims.rhsIdx
  rw [dif_neg (show ¬(1 : Fin S200x288.rank) ∈ dot_S500x200_S200x288_S500x288_1_0_0_1_n_n.rhsBatch by decide), dif_pos (show (1 : Fin S200x288.rank) ∈ dot_S500x200_S200x288_S500x288_1_0_0_1_n_n.rhsNonContracting by decide)]
  rfl

/-- The dense layer's product at (r, k): the sum over the 200 input features. -/
theorem dense_apply (a4 : FVec Ideal S500x200 .f32) (a9 : FVec Ideal S288x200 .f32)
    (r : Fin 500) (k : Fin 288) :
    Host.dotGeneral (F := Ideal) dot_S500x200_S200x288_S500x288_1_0_0_1_n_n none a4 (transpose S200x288 [1, 0] a9 transposes_S288x200_S200x288_1_0) (ix2 r k)
      = ∑ d : Fin 200, a4 (ix2 r d) * a9 (ix2 k d) := by
  generalize hy : transpose S200x288 [1, 0] a9 transposes_S288x200_S200x288_1_0 = y
  simp only [Host.dotGeneral]
  rw [Ideal.dotGeneral_apply, ← Equiv.sum_comp (ValueIdx.contrEquiv1 dot_S500x200_S200x288_S500x288_1_0_0_1_n_n 200 rfl rfl).symm]
  refine Finset.sum_congr rfl fun d _ => ?_
  have hk := ValueIdx.contrEquiv1_symm_val dot_S500x200_S200x288_S500x288_1_0_0_1_n_n 200 rfl rfl d
  have el : dot_S500x200_S200x288_S500x288_1_0_0_1_n_n.lhsIdx (ix2 r k) ((ValueIdx.contrEquiv1 dot_S500x200_S200x288_S500x288_1_0_0_1_n_n 200 rfl rfl).symm d) = ix2 r d := funext fun a => Fin.ext (by
    match a with
    | ⟨0, _⟩ => exact dense_lhs0 _ _
    | ⟨1, _⟩ => exact (dot_S500x200_S200x288_S500x288_1_0_0_1_n_n.lhsIdx_val_of_single rfl (ix2 r k) _).trans hk)
  have er : dot_S500x200_S200x288_S500x288_1_0_0_1_n_n.rhsIdx (ix2 r k) ((ValueIdx.contrEquiv1 dot_S500x200_S200x288_S500x288_1_0_0_1_n_n 200 rfl rfl).symm d) = ix2 d k := funext fun a => Fin.ext (by
    match a with
    | ⟨0, _⟩ => exact (dot_S500x200_S200x288_S500x288_1_0_0_1_n_n.rhsIdx_val_of_single rfl (ix2 r k) _).trans hk
    | ⟨1, _⟩ => exact dense_rhs1 _ _)
  rw [el, er, ← hy]
  refine congrArg (a4 (ix2 r d) * ·) ?_
  exact transpose_apply [1, 0] a9 transposes_S288x200_S200x288_1_0 (ix2 d k) (ix2 k d) (fun b => match b with
    | ⟨0, _⟩ => rfl
    | ⟨1, _⟩ => rfl)

/-- The bias row spread over the 500 relations, at (r, k). -/
theorem biasRows_apply (a10 : FVec Ideal S288 .f32) (r : Fin 500) (k : Fin 288) :
    broadcastInDim S500x288 ![0, 1] bcast_S1x288_S500x288_0_1 (broadcastInDim S1x288 ![1] bcast_S288_S1x288_1 a10) (ix2 r k)
      = a10 (ix1 k) := by
  refine (broadcastInDim_apply _ bcast_S1x288_S500x288_0_1 _ (ix2 r k) (ix2 (0 : Fin 1) k) (fun a => match a with
    | ⟨0, _⟩ => by show 0 = if (1 : Nat) = 1 then 0 else r.val; rw [if_pos rfl]
    | ⟨1, _⟩ => by show k.val = if (288 : Nat) = 1 then 0 else k.val; rw [if_neg (by decide)])).trans ?_
  exact broadcastInDim_apply _ bcast_S288_S1x288_1 a10 (ix2 (0 : Fin 1) k) (ix1 k) (fun a => match a with
    | ⟨0, _⟩ => by show k.val = if (288 : Nat) = 1 then 0 else k.val; rw [if_neg (by decide)])

/-- The filter table, laid [relation, tap, filter]. -/
def filtTable (a4 : FVec Ideal S500x200 .f32) (a9 : FVec Ideal S288x200 .f32)
    (a10 : FVec Ideal S288 .f32) : FVec Ideal S500x9x32 .f32 :=
  transpose S500x9x32 [0, 2, 1]
    (shapeCast S500x32x9
      (addf (Host.dotGeneral (F := Ideal) dot_S500x200_S200x288_S500x288_1_0_0_1_n_n none a4 (transpose S200x288 [1, 0] a9 transposes_S288x200_S200x288_1_0))
        (broadcastInDim S500x288 ![0, 1] bcast_S1x288_S500x288_0_1 (broadcastInDim S1x288 ![1] bcast_S288_S1x288_1 a10)))
      shapeCasts_S500x288_S500x32x9)
    transposes_S500x32x9_S500x9x32_0_2_1

/-- Entry (r, j, o) of the filter table. -/
theorem filtTable_apply (a4 : FVec Ideal S500x200 .f32) (a9 : FVec Ideal S288x200 .f32)
    (a10 : FVec Ideal S288 .f32) (r : Fin 500) (j : Fin 9) (o : Fin 32) :
    filtTable a4 a9 a10 (ix3 r j o)
      = (∑ d : Fin 200, a4 (ix2 r d) * a9 (ix2 (fidx o j) d)) + a10 (ix1 (fidx o j)) := by
  unfold filtTable
  refine (transpose_apply [0, 2, 1] _ transposes_S500x32x9_S500x9x32_0_2_1 (ix3 r j o) (ix3 r o j) (fun b => match b with
    | ⟨0, _⟩ => rfl
    | ⟨1, _⟩ => rfl
    | ⟨2, _⟩ => rfl)).trans ?_
  refine (shapeCast_apply _ shapeCasts_S500x288_S500x32x9 (ix3 r o j) (ix2 r (fidx o j)) (by
    rw [Shape.rowMajor_val_two, Shape.rowMajor_val_three]
    show r.val * 288 + (o.val * 9 + j.val) = (r.val * 32 + o.val) * 9 + j.val
    omega)).trans ?_
  refine (addf_apply _ _ _).trans ?_
  rw [dense_apply, biasRows_apply]

/-- Each batch row's slab of the table. -/
theorem slabs_apply (T : FVec Ideal S500x9x32 .f32) (idx : IVec S4096x1 32)
    (b : Fin 4096) (j : Fin 9) (o : Fin 32) :
    Host.gather gather_S500x9x32_S4096x1_S4096x9x32_12_0_n_n_0_1_1932 T idx (ix3 b j o)
      = T (ix3 (GatherRows.rowOf (N := 500) (by norm_num) idx b) j o) :=
  GatherSlabs.gather_slabs_apply (N := 500) (by norm_num) gather_S500x9x32_S4096x1_S4096x9x32_12_0_n_n_0_1_1932_wf T idx b j o

end Cert.Hyper.KerHost

end
-- ==== Proof.KerHostWts.lean ====
/-
  The dense layer's weights with the per-filter scale folded in, read at an entry.

  The weights W [400, 12544] are transposed, split along the flattened response position q = o · 392 + w into
  [filter, position, feature], multiplied by the per-filter scale spread over positions and features, and
  flattened back: entry (q, n) is W(n, q) · scale(filter of q).
-/
import proofs.«106541_j17248588661540_2_alg».proof.Proof.Gen.KernelIdeal
import proofs.«106541_j17248588661540_2_alg».proof.Proof.Spec
import proofs.«106541_j17248588661540_2_alg».proof.Proof.KerHostNorm
import Idealize.ShloMosaic.Lib.Pipeline.Value
import Idealize.ShloMosaic.Lib.ValueIdx
import Idealize.ShloMosaic.PureOps.Ideal.Laws

noncomputable section

namespace Cert.Hyper.KerHost

open Cert.KernelIdeal Cert.KernelIdeal.Gen Idealize.ShloMosaic Idealize.ShloMosaic.ValueIdx

/-- The flattened response position of filter o, window position w. -/
def qOf (o : Fin 32) (w : Fin 392) : Fin 12544 := ⟨o.val * 392 + w.val, by have := o.isLt; have := w.isLt; omega⟩

theorem qOf_oc_wc (q : Fin 12544) : qOf (oc q) (wc q) = q :=
  Fin.ext (by show q.val / 392 * 392 + q.val % 392 = q.val; omega)

/-- Flattened response positions are pairs (filter, window position). -/
def qEquiv : Fin 12544 ≃ Fin 32 × Fin 392 where
  toFun q := (oc q, wc q)
  invFun p := qOf p.1 p.2
  left_inv q := qOf_oc_wc q
  right_inv p := Prod.ext
    (Fin.ext (by show (p.1.val * 392 + p.2.val) / 392 = p.1.val; have := p.2.isLt; omega))
    (Fin.ext (by show (p.1.val * 392 + p.2.val) % 392 = p.2.val; have := p.2.isLt; omega))

/-- The weights transposed and split into [filter, position, feature]. -/
def wSplit (a15 : FVec Ideal S400x12544 .f32) : FVec Ideal S32x392x400 .f32 :=
  shapeCast S32x392x400 (transpose S12544x400 [1, 0] a15 transposes_S400x12544_S12544x400_1_0)
    shapeCasts_S12544x400_S32x392x400

theorem wSplit_apply (a15 : FVec Ideal S400x12544 .f32) (o : Fin 32) (w : Fin 392) (n : Fin 400) :
    wSplit a15 (ix3 o w n) = a15 (ix2 n (qOf o w)) := by
  unfold wSplit
  refine (shapeCast_apply _ shapeCasts_S12544x400_S32x392x400 (ix3 o w n) (ix2 (qOf o w) n) (by
    rw [Shape.rowMajor_val_two, Shape.rowMajor_val_three]
    show (o.val * 392 + w.val) * 400 + n.val = (o.val * 392 + w.val) * 400 + n.val
    rfl)).trans ?_
  exact transpose_apply [1, 0] a15 transposes_S400x12544_S12544x400_1_0 (ix2 (qOf o w) n) (ix2 n (qOf o w)) (fun b => match b with
    | ⟨0, _⟩ => rfl
    | ⟨1, _⟩ => rfl)

/-- A per-filter vector spread over positions and features, at (o, w, n). -/
theorem perFilter_apply (s : FVec Ideal S32 .f32) (o : Fin 32) (w : Fin 392) (n : Fin 400) :
    broadcastInDim S32x392x400 ![0, 1, 2] bcast_S32x1x1_S32x392x400_0_1_2
      (broadcastInDim S32x1x1 ![0] bcast_S32_S32x1x1_0 s) (ix3 o w n) = s (ix1 o) := by
  refine (broadcastInDim_apply _ bcast_S32x1x1_S32x392x400_0_1_2 _ (ix3 o w n) (ix3 o (0 : Fin 1) (0 : Fin 1)) (fun a => match a with
    | ⟨0, _⟩ => by show o.val = if (32 : Nat) = 1 then 0 else o.val; rw [if_neg (by decide)]
    | ⟨1, _⟩ => by show 0 = if (1 : Nat) = 1 then 0 else w.val; rw [if_pos rfl]
    | ⟨2, _⟩ => by show 0 = if (1 : Nat) = 1 then 0 else n.val; rw [if_pos rfl])).trans ?_
  exact broadcastInDim_apply _ bcast_S32_S32x1x1_0 s (ix3 o (0 : Fin 1) (0 : Fin 1)) (ix1 o) (fun a => match a with
    | ⟨0, _⟩ => by show o.val = if (32 : Nat) = 1 then 0 else o.val; rw [if_neg (by decide)])

/-- The scaled weights, [response position, feature], in the narrower float format. -/
def wScaled (a11 a14 : FVec Ideal S32 .f32) (a15 : FVec Ideal S400x12544 .f32) : FVec Ideal S12544x400 .bf16 :=
  truncf .bf16 (shapeCast S12544x400
    (mulf (F := Ideal) (wSplit a15)
      (broadcastInDim S32x392x400 ![0, 1, 2] bcast_S32x1x1_S32x392x400_0_1_2
        (broadcastInDim S32x1x1 ![0] bcast_S32_S32x1x1_0 (scale32 a11 a14))))
    shapeCasts_S32x392x400_S12544x400) bitsLt_bf16_f32

theorem wScaled_apply (a11 a14 : FVec Ideal S32 .f32) (a15 : FVec Ideal S400x12544 .f32) (q : Fin 12544) (n : Fin 400) :
    wScaled a11 a14 a15 (ix2 q n) = a15 (ix2 n q) * scale (a11 (ix1 (oc q))) (a14 (ix1 (oc q))) := by
  unfold wScaled
  refine Eq.trans (truncf_apply (φ := .f32) (ψ := .bf16) _ bitsLt_bf16_f32 (ix2 q n)) ?_
  refine (shapeCast_apply _ shapeCasts_S32x392x400_S12544x400 (ix2 q n) (ix3 (oc q) (wc q) n) (by
    rw [Shape.rowMajor_val_two, Shape.rowMajor_val_three]
    show (q.val / 392 * 392 + q.val % 392) * 400 + n.val = q.val * 400 + n.val
    omega)).trans ?_
  refine (mulf_apply _ _ _).trans ?_
  rw [wSplit_apply, perFilter_apply, scale32_apply, qOf_oc_wc]

end Cert.Hyper.KerHost

end
-- ==== Proof.LibReduceLeading.lean ====
/-
  A sum over the two leading axes of a rank-3 array, read at an entry.

  Reducing an [A, B, C] array over axes 0 and 1 from an initial value leaves a vector of C entries; entry n is the
  initial value plus the sum, over all pairs (a, b), of the array at (a, b, n). The extents are arbitrary.
-/
import Idealize.ShloMosaic.PureOps.Ideal.Laws
import Idealize.ShloMosaic.Lib.ValueIdx

noncomputable section

namespace Idealize.ShloMosaic.ReduceLeading

open Idealize.ShloMosaic Idealize.ShloMosaic.ValueIdx

/-- The kept coordinate of an index that reduces to entry n is n. -/
theorem drop_eq_iff {A B C : Nat} (h : (⟨3, ![A, B, C]⟩ : Shape).ReducesTo [0, 1] ⟨1, ![C]⟩)
    (i : (⟨3, ![A, B, C]⟩ : Shape).Idx) (n : Fin C) : h.drop i = ix1 n ↔ i 2 = n := by
  constructor
  · intro hd
    have h0 := congrArg Fin.val (congrFun hd 0)
    exact Fin.ext h0
  · intro hi
    funext b
    match b with
    | ⟨0, _⟩ => exact Fin.ext (congrArg Fin.val hi)

/-- The sum over axes 0 and 1 at entry n: the initial value plus the sum over all pairs. -/
theorem hostReduceAdd_leading {A B C : Nat} (h : (⟨3, ![A, B, C]⟩ : Shape).ReducesTo [0, 1] ⟨1, ![C]⟩)
    (x : (⟨3, ![A, B, C]⟩ : Shape).Idx → EReal) (init : EReal) (n : Fin C) :
    Ideal.hostReduceAdd h x init (ix1 n) = init + ∑ p : Fin A × Fin B, x (ix3 p.1 p.2 n) := by
  unfold Ideal.hostReduceAdd
  congr 1
  refine Finset.sum_nbij' (fun i => (i 0, i 1)) (fun p => ix3 p.1 p.2 n) ?_ ?_ ?_ ?_ ?_
  · intro i _; exact Finset.mem_univ _
  · intro p _
    rw [Finset.mem_filter]
    exact ⟨Finset.mem_univ _, (drop_eq_iff h _ n).mpr rfl⟩
  · intro i hi
    rw [Finset.mem_filter] at hi
    have h2 : i 2 = n := (drop_eq_iff h i n).mp hi.2
    subst h2
    exact (eq_ix3 i).symm
  · intro p _; rfl
  · intro i hi
    rw [Finset.mem_filter] at hi
    have h2 : i 2 = n := (drop_eq_iff h i n).mp hi.2
    subst h2
    exact congrArg x (eq_ix3 i)

end Idealize.ShloMosaic.ReduceLeading

end
-- ==== Proof.KerHostBias.lean ====
/-
  The dense layer's bias with the per-filter shift folded in, read at an entry.

  The shift β − μ · scale of each filter, spread over positions and features, is multiplied by the split weights
  and summed over filters and positions from zero; the given bias is added. Entry n is
  b(n) + Σ_q shift(filter of q) · W(n, q), the pairs (filter, position) being exactly the flattened positions q.
-/
import proofs.«106541_j17248588661540_2_alg».proof.Proof.Gen.KernelIdeal
import proofs.«106541_j17248588661540_2_alg».proof.Proof.Spec
import proofs.«106541_j17248588661540_2_alg».proof.Proof.KerHostNorm
import proofs.«106541_j17248588661540_2_alg».proof.Proof.KerHostWts
import proofs.«106541_j17248588661540_2_alg».proof.Proof.LibReduceLeading
import Idealize.ShloMosaic.Lib.Pipeline.Value
import Idealize.ShloMosaic.Lib.ValueIdx
import Idealize.ShloMosaic.PureOps.Ideal.Laws

noncomputable section

namespace Cert.Hyper.KerHost

open Cert.KernelIdeal Cert.KernelIdeal.Gen Idealize.ShloMosaic Idealize.ShloMosaic.ValueIdx

/-- The adjusted bias. -/
def bAdj (a11 a12 a13 a14 : FVec Ideal S32 .f32) (a15 : FVec Ideal S400x12544 .f32) (a16 : FVec Ideal S400 .f32) :
    FVec Ideal S400 .f32 :=
  addf (F := Ideal) a16 (Host.reduceAdd (F := Ideal)
    (mulf (F := Ideal)
      (broadcastInDim S32x392x400 ![0, 1, 2] bcast_S32x1x1_S32x392x400_0_1_2
        (broadcastInDim S32x1x1 ![0] bcast_S32_S32x1x1_0 (shift32 a11 a12 a13 a14)))
      (wSplit a15))
    (constant (F := Ideal) S_ .f32 0x00000000#32) reducesTo_S32x392x400_S400_d0_1 h_S_)

theorem bAdj_apply (a11 a12 a13 a14 : FVec Ideal S32 .f32) (a15 : FVec Ideal S400x12544 .f32) (a16 : FVec Ideal S400 .f32)
    (n : Fin 400) :
    bAdj a11 a12 a13 a14 a15 a16 (ix1 n)
      = a16 (ix1 n) + ∑ q : Fin 12544,
          (a12 (ix1 (oc q)) - a13 (ix1 (oc q)) * scale (a11 (ix1 (oc q))) (a14 (ix1 (oc q)))) * a15 (ix2 n q) := by
  unfold bAdj
  refine (addf_apply _ _ _).trans ?_
  congr 1
  generalize hx : mulf (F := Ideal)
      (broadcastInDim S32x392x400 ![0, 1, 2] bcast_S32x1x1_S32x392x400_0_1_2
        (broadcastInDim S32x1x1 ![0] bcast_S32_S32x1x1_0 (shift32 a11 a12 a13 a14)))
      (wSplit a15) = x
  show Ideal.hostReduceAdd reducesTo_S32x392x400_S400_d0_1 x (Ideal.ofBits .f32 0x00000000#32) (ix1 n) = _
  rw [ReduceLeading.hostReduceAdd_leading, Ideal.ofBits_zero_f32, zero_add]
  refine ((Equiv.sum_comp qEquiv _).symm.trans ?_)
  refine Finset.sum_congr rfl fun q _ => ?_
  show x (ix3 (oc q) (wc q) n) = _
  rw [← hx]
  refine (mulf_apply _ _ _).trans ?_
  rw [perFilter_apply, wSplit_apply, shift32_apply, qOf_oc_wc]

end Cert.Hyper.KerHost

end
-- ==== Proof.KerHostEntryA.lean ====
/-
  What the small input arrays hold when the tiled evaluation starts: the joined embedding rows, the input
  norm's scale and shift, the per-feature scale, and the scoring weights as a column — each the host-side
  expression of the arguments.
-/
import proofs.«106541_j17248588661540_2_alg».proof.Proof.Gen.KernelIdeal.Frame
import proofs.«106541_j17248588661540_2_alg».proof.Proof.Spec
import proofs.«106541_j17248588661540_2_alg».proof.Proof.KerHostRows
import proofs.«106541_j17248588661540_2_alg».proof.Proof.KerHostNorm

noncomputable section

namespace Cert.Hyper.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

set_option maxHeartbeats 4000000 in
theorem entry_rows : (V m c main_v14 : FVec Ideal S4096x400 .f32) = embRows (m ((c : Thread nD τ).loc main_arg0)) (m ((c : Thread nD τ).loc main_arg2)) (m ((c : Thread nD τ).loc main_arg3)) := by
  dsimp only [Gen.V, Gen.hostOps0]
  after_results_simp
  try rfl

set_option maxHeartbeats 4000000 in
theorem entry_scale0 : (V m c main_v18 : FVec Ideal S1 .f32) = scale1 (m ((c : Thread nD τ).loc main_arg5)) (m ((c : Thread nD τ).loc main_arg8)) := by
  dsimp only [Gen.V, Gen.hostOps0]
  after_results_simp
  try rfl

set_option maxHeartbeats 4000000 in
theorem entry_shift0 : (V m c main_v20 : FVec Ideal S1 .f32) = shift1 (m ((c : Thread nD τ).loc main_arg5)) (m ((c : Thread nD τ).loc main_arg6)) (m ((c : Thread nD τ).loc main_arg7)) (m ((c : Thread nD τ).loc main_arg8)) := by
  dsimp only [Gen.V, Gen.hostOps0]
  after_results_simp
  try rfl

set_option maxHeartbeats 4000000 in
theorem entry_scale2 : (V m c main_v56 : FVec Ideal S400 .f32) = scale400 (m ((c : Thread nD τ).loc main_arg17)) (m ((c : Thread nD τ).loc main_arg20)) := by
  dsimp only [Gen.V, Gen.hostOps0]
  after_results_simp
  try rfl

set_option maxHeartbeats 4000000 in
theorem entry_score : (V m c main_v57 : FVec Ideal S400x1 .f32) = scoreCol (m ((c : Thread nD τ).loc main_arg21)) := by
  dsimp only [Gen.V, Gen.hostOps0]
  after_results_simp
  try rfl

end Cert.Hyper.KerHost

end
-- ==== Proof.KerHostEntryB.lean ====
/-
  What the filter window holds when the tiled evaluation starts: each batch row's slab of the filter table.
-/
import proofs.«106541_j17248588661540_2_alg».proof.Proof.Gen.KernelIdeal.Frame
import proofs.«106541_j17248588661540_2_alg».proof.Proof.Spec
import proofs.«106541_j17248588661540_2_alg».proof.Proof.KerHostRows
import proofs.«106541_j17248588661540_2_alg».proof.Proof.KerHostFilt

noncomputable section

namespace Cert.Hyper.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

set_option maxHeartbeats 4000000 in
theorem entry_filters : (V m c main_v34 : FVec Ideal S4096x9x32 .f32) = Host.gather gather_S500x9x32_S4096x1_S4096x9x32_12_0_n_n_0_1_1932 (filtTable (m ((c : Thread nD τ).loc main_arg4)) (m ((c : Thread nD τ).loc main_arg9)) (m ((c : Thread nD τ).loc main_arg10))) (startIdx 500#32 (m ((c : Thread nD τ).loc main_arg1))) := by
  dsimp only [Gen.V, Gen.hostOps0]
  after_results_simp
  try rfl

end Cert.Hyper.KerHost

end
-- ==== Proof.KerHostEntryC.lean ====
/-
  What the dense-weights window holds when the tiled evaluation starts: the weights with the per-filter scale folded in.
-/
import proofs.«106541_j17248588661540_2_alg».proof.Proof.Gen.KernelIdeal.Frame
import proofs.«106541_j17248588661540_2_alg».proof.Proof.Spec
import proofs.«106541_j17248588661540_2_alg».proof.Proof.KerHostWts

noncomputable section

namespace Cert.Hyper.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

set_option maxHeartbeats 4000000 in
theorem entry_weights : (V m c main_v52 : FVec Ideal S12544x400 .bf16) = wScaled (m ((c : Thread nD τ).loc main_arg11)) (m ((c : Thread nD τ).loc main_arg14)) (m ((c : Thread nD τ).loc main_arg15)) := by
  dsimp only [Gen.V, Gen.hostOps0]
  after_results_simp
  try rfl

end Cert.Hyper.KerHost

end
-- ==== Proof.KerHostEntryD.lean ====
/-
  What the dense-bias window holds when the tiled evaluation starts: the bias with the per-filter shift folded in.
-/
import proofs.«106541_j17248588661540_2_alg».proof.Proof.Gen.KernelIdeal.Frame
import proofs.«106541_j17248588661540_2_alg».proof.Proof.Spec
import proofs.«106541_j17248588661540_2_alg».proof.Proof.KerHostBias

noncomputable section

namespace Cert.Hyper.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

set_option maxHeartbeats 4000000 in
theorem entry_bias : (V m c main_v51 : FVec Ideal S400 .f32) = bAdj (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  dsimp only [Gen.V, Gen.hostOps0]
  after_results_simp
  try rfl

end Cert.Hyper.KerHost

end
-- ==== Proof.KerHost.lean ====
/-
  What each of the twelve input arrays of the tiled evaluation holds when it starts, in the vocabulary of the
  index-level specification.

  The parameters are read off the launch contents of the argument buffers; the input rows are the two gathered
  embedding rows side by side, and the relation of a batch row is its wrapped relation number clamped into the
  table. Against these: the filter window holds each row's filters tap-major; the input scale and shift windows
  hold the distributed batch-norm pair; the weights window holds W(n, q) · scale(filter of q); the bias window
  holds the bias plus the folded shift summed over all response positions; the per-feature scale window holds
  γ / √(σ² + ε); the scoring weights are a column; and the remaining windows are arguments as launched.
-/
import proofs.«106541_j17248588661540_2_alg».proof.Proof.Gen.KernelIdeal.Frame
import proofs.«106541_j17248588661540_2_alg».proof.Proof.Spec
import proofs.«106541_j17248588661540_2_alg».proof.Proof.LibGatherRows
import proofs.«106541_j17248588661540_2_alg».proof.Proof.KerHostRows
import proofs.«106541_j17248588661540_2_alg».proof.Proof.KerHostNorm
import proofs.«106541_j17248588661540_2_alg».proof.Proof.KerHostFilt
import proofs.«106541_j17248588661540_2_alg».proof.Proof.KerHostWts
import proofs.«106541_j17248588661540_2_alg».proof.Proof.KerHostBias
import proofs.«106541_j17248588661540_2_alg».proof.Proof.KerHostEntryA
import proofs.«106541_j17248588661540_2_alg».proof.Proof.KerHostEntryB
import proofs.«106541_j17248588661540_2_alg».proof.Proof.KerHostEntryC
import proofs.«106541_j17248588661540_2_alg».proof.Proof.KerHostEntryD

noncomputable section

namespace Cert.Hyper.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The two gathered embedding rows of each batch row, side by side, as the host side computes them. -/
def kerE : FVec Ideal S4096x400 .f32 := embRows (m ((c : Thread nD τ).loc main_arg0)) (m ((c : Thread nD τ).loc main_arg2)) (m ((c : Thread nD τ).loc main_arg3))

/-- The wrapped relation numbers as a column of start indices. -/
def kerIdx : IVec S4096x1 32 := startIdx 500#32 (m ((c : Thread nD τ).loc main_arg1))

/-- The relation row each batch row reads. -/
def kerRho : Fin 4096 → Fin 500 := GatherRows.rowOf (N := 500) (by norm_num) (kerIdx m c)

/-- The parameters of the specification, read off the launch contents. -/
def kerParams : Params :=
  mkParams (kerE m c) (kerRho m c) (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))

/-- Window 0: the input rows. -/
theorem win_rows : (V m c main_v14 : FVec Ideal S4096x400 .f32) = kerE m c := entry_rows m c

/-- Window 1: each batch row's filters, tap-major. -/
theorem win_filters (b : Fin 4096) (j : Fin 9) (o : Fin 32) :
    (V m c main_v34 : FVec Ideal S4096x9x32 .f32) (ix3 b j o) = kf (kerParams m c) b o j := by
  refine (congrFun (entry_filters m c) (ix3 b j o)).trans ?_
  rw [slabs_apply, filtTable_apply]
  rfl

/-- Window 2: the input norm's scale. -/
theorem win_scale0 : (V m c main_v18 : FVec Ideal S1 .f32) (ix1 (0 : Fin 1)) = scale (kerParams m c).g0 (kerParams m c).v0 :=
  (congrFun (entry_scale0 m c) (ix1 (0 : Fin 1))).trans (scale1_apply _ _ _)

/-- Window 3: the input norm's shift. -/
theorem win_shift0 : (V m c main_v20 : FVec Ideal S1 .f32) (ix1 (0 : Fin 1))
    = (kerParams m c).β0 - (kerParams m c).μ0 * scale (kerParams m c).g0 (kerParams m c).v0 :=
  (congrFun (entry_shift0 m c) (ix1 (0 : Fin 1))).trans (shift1_apply _ _ _ _ _)

/-- Window 4: the dense weights with the per-filter scale folded in. -/
theorem win_weights (q : Fin 12544) (n : Fin 400) :
    (V m c main_v52 : FVec Ideal S12544x400 .bf16) (ix2 q n) = (kerParams m c).W n q * inv1 (kerParams m c) (oc q) :=
  (congrFun (entry_weights m c) (ix2 q n)).trans (wScaled_apply _ _ _ q n)

/-- Window 5: the dense bias with the per-filter shift folded in. -/
theorem win_bias (n : Fin 400) :
    (V m c main_v51 : FVec Ideal S400 .f32) (ix1 n)
      = (kerParams m c).fcb n + ∑ q : Fin 12544, ((kerParams m c).β1 (oc q) - (kerParams m c).μ1 (oc q) * inv1 (kerParams m c) (oc q)) * (kerParams m c).W n q :=
  (congrFun (entry_bias m c) (ix1 n)).trans (bAdj_apply _ _ _ _ _ _ n)

/-- Window 6: the per-feature mean, as launched. -/
theorem win_mean2 : V m c main_arg19 = m ((c : Thread nD τ).loc main_arg19) := V_main_arg19 m c

/-- Window 7: the per-feature scale. -/
theorem win_scale2 (n : Fin 400) :
    (V m c main_v56 : FVec Ideal S400 .f32) (ix1 n) = scale ((kerParams m c).g2 n) ((kerParams m c).v2 n) :=
  (congrFun (entry_scale2 m c) (ix1 n)).trans (scale400_apply _ _ _)

/-- Window 8: the per-feature shift, as launched. -/
theorem win_shift2 : V m c main_arg18 = m ((c : Thread nD τ).loc main_arg18) := V_main_arg18 m c

/-- Window 9: the scoring weights as a column. -/
theorem win_score (n : Fin 400) :
    (V m c main_v57 : FVec Ideal S400x1 .f32) (ix2 n (0 : Fin 1)) = (kerParams m c).f2 n :=
  (congrFun (entry_score m c) (ix2 n (0 : Fin 1))).trans (scoreCol_apply _ n)

/-- Window 10: the scoring bias, as launched. -/
theorem win_scoreBias : V m c main_arg22 = m ((c : Thread nD τ).loc main_arg22) := V_main_arg22 m c

/-- Window 11: the final bias, as launched. -/
theorem win_bias2 : V m c main_arg23 = m ((c : Thread nD τ).loc main_arg23) := V_main_arg23 m c

end Cert.Hyper.KerHost

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.Embed.lean ====
/-
  Two row gathers of a table of real numbers, joined side by side, hold real numbers: every entry of a row
  gather is an entry of the table, and every entry of the joined array is an entry of one of the two pieces.
-/
import proofs.«106541_j17248588661540_2_alg».proof.Proof.LibGatherRows
import proofs.«106541_j17248588661540_2_alg».proof.Proof.LibConcatCols
import proofs.«106541_j17248588661540_2_alg».proof.Proof.LibFinite

noncomputable section

namespace Cert.HyperEmbed

open Idealize.ShloMosaic Idealize.ShloMosaic.ValueIdx Idealize.ShloMosaic.GatherRows Idealize.ShloMosaic.ConcatCols Cert.LibFinite

/-- The joined gathered rows of a real table are real. -/
theorem joined_rows_real {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → EReal) (hT : ∀ j, IsFin (T j)) (i₁ i₂ : IVec ⟨2, ![R, 1]⟩ w)
    (hc : Shape.Concatenates [(⟨2, ![R, C]⟩ : Shape), (⟨2, ![R, C]⟩ : Shape)] (⟨2, ![R, C + C]⟩ : Shape) 1)
    (i : (⟨2, ![R, C + C]⟩ : Shape).Idx) :
    IsFin (concatenate (⟨2, ![R, C + C]⟩ : Shape) 1
      [⟨(⟨2, ![R, C]⟩ : Shape), Host.gather (rowDims N R C wf) T i₁⟩, ⟨(⟨2, ![R, C]⟩ : Shape), Host.gather (rowDims N R C wf) T i₂⟩] hc i) := by
  obtain ⟨p, q, rfl⟩ : ∃ (p : Fin R) (q : Fin (C + C)), i = ix2 p q := ⟨i 0, i 1, eq_ix2 i⟩
  rw [concat_cols_apply]
  refine Fin.addCases (fun k => ?_) (fun k => ?_) q
  · rw [Fin.addCases_left, gather_rows_apply hN]; exact hT _
  · rw [Fin.addCases_right, gather_rows_apply hN]; exact hT _

end Cert.HyperEmbed

end
-- ==== Proof.KerHostAgree.lean ====
/-
  The two programs are given the same arguments, so they read the same parameters.

  The reference's parameters are read off its launch contents and the tiled program's off its own; when the
  argument buffers hold the same arrays the two records coincide. The joined embedding rows and the column of
  wrapped relation numbers are written with each program's own shape evidence, which does not enter the values.
  The joined rows of a table of real numbers are real numbers.
-/
import proofs.«106541_j17248588661540_2_alg».proof.Proof.RefValue
import proofs.«106541_j17248588661540_2_alg».proof.Proof.KerHost
import proofs.«106541_j17248588661540_2_alg».proof.Proof.Embed
import proofs.«106541_j17248588661540_2_alg».proof.Proof.LibFinite

noncomputable section

namespace Cert.Hyper.KerHost

open Cert.KernelIdeal Cert.KernelIdeal.Gen Idealize.ShloMosaic Idealize.ShloMosaic.TcCoe Idealize.SL.Sem
open Idealize.ShloMosaic.ValueIdx

/-- The reference's joined embedding rows are the same expression of the arguments. -/
theorem refRows_eq (a0 a2 : IVec S4096 32) (a3 : FVec Ideal S100000x200 .f32) :
    Cert.ReferenceIdeal.Read.val_main_v14 (F := Ideal) a0 a2 a3 = embRows a0 a2 a3 := rfl

/-- The reference's column of wrapped relation numbers is the same expression of the argument. -/
theorem refIdx_eq (a1 : IVec S4096 32) :
    Cert.ReferenceIdeal.Read.val_main_v33 (F := Ideal) a1 = startIdx 500#32 a1 := rfl

/-- The two records over equal argument arrays. -/
theorem mk_agree
    (b0 a0 : IVec S4096 32) (e0 : b0 = a0)
    (b1 a1 : IVec S4096 32) (e1 : b1 = a1)
    (b2 a2 : IVec S4096 32) (e2 : b2 = a2)
    (b3 a3 : FVec Ideal S100000x200 .f32) (e3 : b3 = a3)
    (b4 a4 : FVec Ideal S500x200 .f32) (e4 : b4 = a4)
    (b5 a5 : FVec Ideal S1 .f32) (e5 : b5 = a5)
    (b6 a6 : FVec Ideal S1 .f32) (e6 : b6 = a6)
    (b7 a7 : FVec Ideal S1 .f32) (e7 : b7 = a7)
    (b8 a8 : FVec Ideal S1 .f32) (e8 : b8 = a8)
    (b9 a9 : FVec Ideal S288x200 .f32) (e9 : b9 = a9)
    (b10 a10 : FVec Ideal S288 .f32) (e10 : b10 = a10)
    (b11 a11 : FVec Ideal S32 .f32) (e11 : b11 = a11)
    (b12 a12 : FVec Ideal S32 .f32) (e12 : b12 = a12)
    (b13 a13 : FVec Ideal S32 .f32) (e13 : b13 = a13)
    (b14 a14 : FVec Ideal S32 .f32) (e14 : b14 = a14)
    (b15 a15 : FVec Ideal S400x12544 .f32) (e15 : b15 = a15)
    (b16 a16 : FVec Ideal S400 .f32) (e16 : b16 = a16)
    (b17 a17 : FVec Ideal S400 .f32) (e17 : b17 = a17)
    (b18 a18 : FVec Ideal S400 .f32) (e18 : b18 = a18)
    (b19 a19 : FVec Ideal S400 .f32) (e19 : b19 = a19)
    (b20 a20 : FVec Ideal S400 .f32) (e20 : b20 = a20)
    (b21 a21 : FVec Ideal S1x400 .f32) (e21 : b21 = a21)
    (b22 a22 : FVec Ideal S1 .f32) (e22 : b22 = a22)
    (b23 a23 : FVec Ideal S1 .f32) (e23 : b23 = a23) :
    mkParams (Cert.ReferenceIdeal.Read.val_main_v14 (F := Ideal) b0 b2 b3)
        (GatherRows.rowOf (N := 500) (by norm_num) (Cert.ReferenceIdeal.Read.val_main_v33 (F := Ideal) b1))
        b4 b5 b6 b7 b8 b9 b10 b11 b12 b13 b14 b15 b16 b17 b18 b19 b20 b21 b22 b23
      = mkParams (embRows a0 a2 a3) (GatherRows.rowOf (N := 500) (by norm_num) (startIdx 500#32 a1))
        a4 a5 a6 a7 a8 a9 a10 a11 a12 a13 a14 a15 a16 a17 a18 a19 a20 a21 a22 a23 := by
  subst e0 e1 e2 e3 e4 e5 e6 e7 e8 e9 e10 e11 e12 e13 e14 e15 e16 e17 e18 e19 e20 e21 e22 e23
  rfl

set_option maxHeartbeats 1000000 in
/-- With the same argument arrays, the reference's parameters are the tiled program's. -/
theorem params_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.Hyper.Ref.refParams m' c = Cert.Hyper.KerHost.kerParams m c := by
  exact mk_agree _ _ h0 _ _ h1 _ _ h2 _ _ h3 _ _ h4 _ _ h5 _ _ h6 _ _ h7 _ _ h8 _ _ h9 _ _ h10 _ _ h11 _ _ h12 _ _ h13 _ _ h14 _ _ h15 _ _ h16 _ _ h17 _ _ h18 _ _ h19 _ _ h20 _ _ h21 _ _ h22 _ _ h23

/-- The joined embedding rows of a table of real numbers are real numbers. -/
theorem kerE_real (m : (ℓ : Loc nD τ sig) → Buf (Elt Ideal) ℓ) (c : Dev nD)
    (h3 : ∀ j, Cert.LibFinite.IsFin ((m ((c : Thread nD τ).loc main_arg3) : FVec Ideal S100000x200 .f32) j))
    (i : S4096x400.Idx) : Cert.LibFinite.IsFin (kerE m c i) := by
  unfold kerE embRows
  exact Cert.HyperEmbed.joined_rows_real (N := 100000) (R := 4096) (C := 200) (by norm_num)
    gather_S100000x200_S4096x1_S4096x200_1_0_n_n_0_1_1200_wf _ h3 _ _ concatenates_S4096x200_S4096x200_S4096x400_d1 i

end Cert.Hyper.KerHost

end
-- ==== Proof.KerBodyLayout.lean ====
/-
  Layout steps of the tiled evaluation read at an index given by coordinates: the casts that insert or drop a unit
  axis in the middle or at the end of a shape, the broadcasts along such an axis, the cast that flattens the last two
  axes, and the broadcast of a one-entry array. Each is the library's general statement with the row-major arithmetic
  (or the per-axis case split) done once.
-/
import Idealize.ShloMosaic.Lib.ValueLayout

namespace Cert.Hyper.Layout

open Idealize.ShloMosaic Idealize.ShloMosaic.ValueIdx

variable {α : Type}

/-- An [a, b] array cast to [a, b, 1] reads (i, j, u) at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads (i, u, j) at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array cast to [a, b] reads (i, j) at (i, 0, j). -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, b, 1] array broadcast to [a, b, c] reads (i, j, k) at (i, j, 0). -/
theorem bcast_ab1_abc {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads (i, j, k) at (i, 0, k). -/
theorem bcast_a1c_abc {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-entry [1, 1] array broadcast to [a, b] reads its entry everywhere. -/
theorem bcast_11_ab {a b : ℕ} (x : (⟨2, ![1, 1]⟩ : Shape).Idx → α)
    (h : (⟨2, ![1, 1]⟩ : Shape).Broadcasts ⟨2, ![a, b]⟩) (i : Fin a) (j : Fin b) :
    broadcastTo ⟨2, ![a, b]⟩ x h (ix2 i j) = x (ix2 (0 : Fin 1) (0 : Fin 1)) := by
  refine broadcastTo_apply x h (ix2 i j) (ix2 (0 : Fin 1) (0 : Fin 1)) fun ax => ?_
  match ax with
  | ⟨0, _⟩ => rfl
  | ⟨1, _⟩ => rfl

/-- A one-entry array passed through [1] → [1] → [1, 1] and broadcast to [a, b] reads its entry everywhere. -/
theorem scalar_bcast {a b : ℕ} (x : (⟨1, ![1]⟩ : Shape).Idx → α)
    (h1 : (⟨1, ![1]⟩ : Shape).ShapeCasts ⟨2, ![1, 1]⟩)
    (h2 : (⟨2, ![1, 1]⟩ : Shape).Broadcasts ⟨2, ![a, b]⟩) (i : Fin a) (j : Fin b) :
    broadcastTo ⟨2, ![a, b]⟩ (shapeCast ⟨2, ![1, 1]⟩ x h1) h2 (ix2 i j) = x (ix1 (0 : Fin 1)) :=
  (bcast_11_ab _ h2 i j).trans (shapeCast_a_1a_apply x h1 0 0)

/-- A row [b] passed through [b] → [1, b] and broadcast to [a, b] reads, at (i, j), the row at j. -/
theorem row_bcast {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) :=
  (broadcastTo_1b_ab_apply _ h2 i j).trans (shapeCast_a_1a_apply x h1 0 j)

/-- The [128, 32, 392] responses flattened to [128, 12544] read, at (i, q) with q = o · 392 + w, the response (i, o, w). -/
theorem cast_flatten (x : (⟨3, ![128, 32, 392]⟩ : Shape).Idx → α)
    (h : (⟨3, ![128, 32, 392]⟩ : Shape).ShapeCasts ⟨2, ![128, 12544]⟩) (i : Fin 128) (q : Fin 12544)
    (o : Fin 32) (w : Fin 392) (hq : q.val = o.val * 392 + w.val) :
    shapeCast ⟨2, ![128, 12544]⟩ x h (ix2 i q) = x (ix3 i o w) :=
  shapeCast_apply x h _ _ (by
    rw [Shape.rowMajor_val_three, Shape.rowMajor_val_two]
    show (i.val * 32 + o.val) * 392 + w.val = i.val * 12544 + q.val
    omega)

end Cert.Hyper.Layout
-- ==== Proof.KerBodyConv.lean ====
/-
  The sliding-filter part of the tiled evaluation, read at an index. For one block of 128 rows: the input row is
  normalised in the distributed form x = E·s + t; tap j of filter o times the row shifted by j is one product
  K(p, j, o) · x(p, w + j); the responses are built up tap by tap, the first four taps onto zero, the last five onto
  those. A left-nested chain of nine additions from zero is the sum over the nine taps.
-/
import proofs.«106541_j17248588661540_2_alg».proof.Proof.Gen.KernelIdeal.Skeleton
import proofs.«106541_j17248588661540_2_alg».proof.Proof.Spec
import proofs.«106541_j17248588661540_2_alg».proof.Proof.KerBodyLayout
import Idealize.ShloMosaic.PureOps.Ideal.Laws

noncomputable section

namespace Cert.Hyper.Ker

open Cert.KernelIdeal Cert.KernelIdeal.Gen Idealize.ShloMosaic Idealize.ShloMosaic.ValueIdx
open Cert.Hyper

/-- A left-nested chain of nine additions from zero is the sum over the nine taps. -/
theorem sum9 {M : Type*} [AddCommMonoid M] (f : Fin 9 → M) :
    ∑ j, f j = ((((((((0 + f 0) + f 1) + f 2) + f 3) + f 4) + f 5) + f 6) + f 7) + f 8 := by
  simp only [Fin.sum_univ_castSucc, Fin.sum_univ_zero]
  rfl

variable {α : Type}

/-- The filter factor of tap j: the filters block cut at tap j, its unit axis dropped, a trailing unit axis added and
    broadcast along the window positions, reads (p, o, w) at the filters block's (p, j, o). -/
theorem tapK (j : Fin 9) (K : S128x9x32.Idx → α) (h1 : S128x9x32.Slices ![0, j.val, 0] S128x1x32)
    (h2 : S128x1x32.ShapeCasts S128x32) (h3 : S128x32.ShapeCasts S128x32x1) (h4 : S128x32x1.Broadcasts S128x32x392)
    (p : Fin 128) (o : Fin 32) (w : Fin 392) :
    broadcastTo S128x32x392 (shapeCast S128x32x1 (shapeCast S128x32 (extractStridedSlice S128x1x32 ![0, j.val, 0] K h1) h2) h3) h4
        (ix3 p o w) = K (ix3 p j o) :=
  (Layout.bcast_ab1_abc _ h4 p o w).trans <| (Layout.cast_ab_ab1 _ h3 p o 0).trans <| (Layout.cast_a1b_ab _ h2 p o).trans <|
    slice3_axis1_apply j.val K h1 p 0 o j (by simp)

/-- The input factor of tap j: the normalised rows cut from column j, a middle unit axis added and broadcast along the
    filters, reads (p, o, w) at the rows' (p, w + j). -/
theorem tapX (j : Fin 9) (X : S128x400.Idx → α) (h5 : S128x400.Slices ![0, j.val] S128x392)
    (h6 : S128x392.ShapeCasts S128x1x392) (h7 : S128x1x392.Broadcasts S128x32x392)
    (p : Fin 128) (o : Fin 32) (w : Fin 392) :
    broadcastTo S128x32x392 (shapeCast S128x1x392 (extractStridedSlice S128x392 ![0, j.val] X h5) h6) h7
        (ix3 p o w) = X (ix2 p (tap w j)) :=
  (Layout.bcast_a1c_abc _ h7 p o w).trans <| (Layout.cast_ab_a1b _ h6 p 0 w).trans <|
    slice2_axis1_apply j.val X h5 p w (tap w j) (by show w.val + j.val = j.val + w.val; omega)

/-- The normalised input rows at (p, c): the row entry times the scale plus the shift. -/
theorem pay2_apply (v0 : Vec Ideal S128x400 .f32) (v2 v7 : Vec Ideal S1 .f32) (p : Fin 128) (c : Fin 400) :
    k0_pay2 (F := Ideal) v0 v2 v7 (ix2 p c) = v0 (ix2 p c) * v2 (ix1 0) + v7 (ix1 0) := by
  unfold k0_pay2
  simp only [shapeCast_self, addf_apply, mulf_apply]
  exact congrArg₂ (· + ·) (congrArg₂ (· * ·) rfl (Layout.scalar_bcast v2 _ _ p c)) (Layout.scalar_bcast v7 _ _ p c)

/-- The filters block is passed on as it is. -/
theorem pay3_eq (v12 : Vec Ideal S128x9x32 .f32) : k0_pay3 (F := Ideal) v12 = v12 := by
  unfold k0_pay3
  exact shapeCast_self v12 _

/-- One tap's product over a filters block and normalised rows given as whole blocks. -/
def tapT (K : S128x9x32.Idx → EReal) (X : S128x400.Idx → EReal) (p : Fin 128) (o : Fin 32) (w : Fin 392) (j : Fin 9) : EReal :=
  K (ix3 p j o) * X (ix2 p (tap w j))

/-- The first four taps, accumulated onto zero. -/
theorem pay4_apply (v0 : Vec Ideal S128x400 .f32) (v2 v7 : Vec Ideal S1 .f32) (v12 : Vec Ideal S128x9x32 .f32)
    (p : Fin 128) (o : Fin 32) (w : Fin 392) :
    k0_pay4 (F := Ideal) v0 v2 v7 v12 (ix3 p o w)
      = (((0 + tapT (k0_pay3 v12) (k0_pay2 v0 v2 v7) p o w 0) + tapT (k0_pay3 v12) (k0_pay2 v0 v2 v7) p o w 1)
          + tapT (k0_pay3 v12) (k0_pay2 v0 v2 v7) p o w 2) + tapT (k0_pay3 v12) (k0_pay2 v0 v2 v7) p o w 3 := by
  unfold k0_pay4
  simp only [addf_apply, mulf_apply, broadcast_apply]
  refine congrArg₂ (· + ·) (congrArg₂ (· + ·) (congrArg₂ (· + ·) (congrArg₂ (· + ·) Ideal.ofBits_zero_f32 ?_) ?_) ?_) ?_
  · exact congrArg₂ (· * ·) (tapK 0 _ _ _ _ _ p o w) (tapX 0 _ _ _ _ p o w)
  · exact congrArg₂ (· * ·) (tapK 1 _ _ _ _ _ p o w) (tapX 1 _ _ _ _ p o w)
  · exact congrArg₂ (· * ·) (tapK 2 _ _ _ _ _ p o w) (tapX 2 _ _ _ _ p o w)
  · exact congrArg₂ (· * ·) (tapK 3 _ _ _ _ _ p o w) (tapX 3 _ _ _ _ p o w)

end Cert.Hyper.Ker

end
-- ==== Proof.KerBodyDense.lean ====
/-
  The dense part of the tiled evaluation, read at an index. The last five taps are accumulated onto the first four,
  the 32 × 392 responses of a row are flattened filter-major (q = o · 392 + w), multiplied into the
  [12544, 400] weights — a contraction over the flattened position, into a zero accumulator — and the bias row is added.
-/
import proofs.«106541_j17248588661540_2_alg».proof.Proof.KerBodyConv

noncomputable section

namespace Cert.Hyper.Ker

open Cert.KernelIdeal Cert.KernelIdeal.Gen Idealize.ShloMosaic Idealize.ShloMosaic.ValueIdx
open Cert.Hyper

/-- The contraction of the dense layer: [128, 12544] by [12544, 400] over the flattened response position. -/
abbrev D5 : DotDims S128x12544 S12544x400 S128x400 := dot_S128x12544_S12544x400_S128x400_1_0_0_1_n_n

theorem D5_lhs0 (i : S128x400.Idx) (q : D5.contr.Idx) : (D5.lhsIdx i q 0).val = (i 0).val := by
  unfold DotDims.lhsIdx
  rw [dif_neg (show ¬(0 : Fin S128x12544.rank) ∈ D5.lhsBatch by decide), dif_pos (show (0 : Fin S128x12544.rank) ∈ D5.lhsNonContracting by decide)]
  rfl
theorem D5_lhs1 (i : S128x400.Idx) (q : D5.contr.Idx) : (D5.lhsIdx i q 1).val = (q ⟨0, by decide⟩).val :=
  D5.lhsIdx_val_of_single rfl i q
theorem D5_rhs0 (i : S128x400.Idx) (q : D5.contr.Idx) : (D5.rhsIdx i q 0).val = (q ⟨0, by decide⟩).val :=
  D5.rhsIdx_val_of_single rfl i q
theorem D5_rhs1 (i : S128x400.Idx) (q : D5.contr.Idx) : (D5.rhsIdx i q 1).val = (i 1).val := by
  unfold DotDims.rhsIdx
  rw [dif_neg (show ¬(1 : Fin S12544x400.rank) ∈ D5.rhsBatch by decide), dif_pos (show (1 : Fin S12544x400.rank) ∈ D5.rhsNonContracting by decide)]
  rfl

/-- The dense layer's contraction into zero, at (p, n): the sum over the flattened position q of left (p, q) times right (q, n). -/
theorem D5_matmul_apply {φ₁ φ₂ : FTy} (prec : Option ContractPrecision) (L : FVec Ideal S128x12544 φ₁) (R : FVec Ideal S12544x400 φ₂)
    (p : Fin 128) (n : Fin 400) :
    FloatOps.matmul D5 prec L R (constant S128x400 .f32 0x00000000#32) (ix2 p n)
      = ∑ q : Fin 12544, L (ix2 p q) * R (ix2 q n) := by
  rw [Ideal.matmul_constant_zero_apply, ← Equiv.sum_comp (contrEquiv1 D5 12544 rfl rfl).symm]
  refine Finset.sum_congr rfl fun q _ => ?_
  have hq := contrEquiv1_symm_val D5 12544 rfl rfl q
  have el : D5.lhsIdx (ix2 p n) ((contrEquiv1 D5 12544 rfl rfl).symm q) = ix2 p q := funext fun a => Fin.ext (by
    match a with
    | ⟨0, _⟩ => exact D5_lhs0 _ _
    | ⟨1, _⟩ => exact (D5_lhs1 _ _).trans hq)
  have er : D5.rhsIdx (ix2 p n) ((contrEquiv1 D5 12544 rfl rfl).symm q) = ix2 q n := funext fun a => Fin.ext (by
    match a with
    | ⟨0, _⟩ => exact (D5_rhs0 _ _).trans hq
    | ⟨1, _⟩ => exact D5_rhs1 _ _)
  rw [el, er]

/-- The features before normalisation at (p, n): the nine-tap responses (five taps onto the four already there), flattened,
    through the dense weights, plus the bias. -/
theorem pay5_apply (v11 : FVec Ideal S128x400 .f32) (v13 : FVec Ideal S128x9x32 .f32) (v50 : FVec Ideal S128x32x392 .f32)
    (v98 : Vec Ideal S12544x400 .bf16) (v101 : Vec Ideal S400 .f32) (p : Fin 128) (n : Fin 400) :
    k0_pay5 (F := Ideal) v11 v13 v50 v98 v101 (ix2 p n)
      = (∑ q : Fin 12544,
          (((((v50 (ix3 p (oc q) (wc q)) + tapT v13 v11 p (oc q) (wc q) 4) + tapT v13 v11 p (oc q) (wc q) 5)
            + tapT v13 v11 p (oc q) (wc q) 6) + tapT v13 v11 p (oc q) (wc q) 7) + tapT v13 v11 p (oc q) (wc q) 8)
          * v98 (ix2 q n)) + v101 (ix1 n) := by
  unfold k0_pay5
  simp only [shapeCast_self, addf_apply]
  refine congrArg₂ (· + ·) ?_ (Layout.row_bcast v101 _ _ p n)
  refine (D5_matmul_apply none _ _ p n).trans (Finset.sum_congr rfl fun q _ => congrArg₂ (· * ·) ?_ rfl)
  rw [truncf_apply]
  refine (Layout.cast_flatten _ _ p q (oc q) (wc q) (by show q.val = q.val / 392 * 392 + q.val % 392; omega)).trans ?_
  simp only [addf_apply, mulf_apply]
  refine congrArg₂ (· + ·) (congrArg₂ (· + ·) (congrArg₂ (· + ·) (congrArg₂ (· + ·) (congrArg₂ (· + ·) rfl ?_) ?_) ?_) ?_) ?_
  · exact congrArg₂ (· * ·) (tapK 4 _ _ _ _ _ p _ _) (tapX 4 _ _ _ _ p _ _)
  · exact congrArg₂ (· * ·) (tapK 5 _ _ _ _ _ p _ _) (tapX 5 _ _ _ _ p _ _)
  · exact congrArg₂ (· * ·) (tapK 6 _ _ _ _ _ p _ _) (tapX 6 _ _ _ _ p _ _)
  · exact congrArg₂ (· * ·) (tapK 7 _ _ _ _ _ p _ _) (tapX 7 _ _ _ _ p _ _)
  · exact congrArg₂ (· * ·) (tapK 8 _ _ _ _ _ p _ _) (tapX 8 _ _ _ _ p _ _)

end Cert.Hyper.Ker

end
-- ==== Proof.KerBodyTail.lean ====
/-
  The tail of the tiled evaluation and the whole body at a row. The 400 features of a row are normalised per feature,
  contracted with the scoring column into a zero accumulator, shifted by the scoring bias, squashed by tanh and shifted
  by the final bias. Put after the dense part and the nine taps, one row of what the body stores is the score of that
  row written over the row's input entries, the row's filters and the shared arrays.
-/
import proofs.«106541_j17248588661540_2_alg».proof.Proof.Gen.KernelIdeal.Frame
import proofs.«106541_j17248588661540_2_alg».proof.Proof.KerBodyDense
import Idealize.ShloMosaic.Lib.Pipeline.Value

noncomputable section

namespace Cert.Hyper.Ker

open Cert.KernelIdeal Cert.KernelIdeal.Gen Idealize.ShloMosaic Idealize.ShloMosaic.ValueIdx
open Cert.Hyper

/-- The contraction of the scoring layer: [128, 400] by [400, 1] over the features. -/
abbrev D1 : DotDims S128x400 S400x1 S128x1 := dot_S128x400_S400x1_S128x1_1_0_0_1_n_n

theorem D1_lhs0 (i : S128x1.Idx) (q : D1.contr.Idx) : (D1.lhsIdx i q 0).val = (i 0).val := by
  unfold DotDims.lhsIdx
  rw [dif_neg (show ¬(0 : Fin S128x400.rank) ∈ D1.lhsBatch by decide), dif_pos (show (0 : Fin S128x400.rank) ∈ D1.lhsNonContracting by decide)]
  rfl
theorem D1_lhs1 (i : S128x1.Idx) (q : D1.contr.Idx) : (D1.lhsIdx i q 1).val = (q ⟨0, by decide⟩).val :=
  D1.lhsIdx_val_of_single rfl i q
theorem D1_rhs0 (i : S128x1.Idx) (q : D1.contr.Idx) : (D1.rhsIdx i q 0).val = (q ⟨0, by decide⟩).val :=
  D1.rhsIdx_val_of_single rfl i q
theorem D1_rhs1 (i : S128x1.Idx) (q : D1.contr.Idx) : (D1.rhsIdx i q 1).val = (i 1).val := by
  unfold DotDims.rhsIdx
  rw [dif_neg (show ¬(1 : Fin S400x1.rank) ∈ D1.rhsBatch by decide), dif_pos (show (1 : Fin S400x1.rank) ∈ D1.rhsNonContracting by decide)]
  rfl

/-- The scoring layer's contraction into zero, at (p, u): the sum over the features n of left (p, n) times right (n, u). -/
theorem D1_matmul_apply {φ₁ φ₂ : FTy} (prec : Option ContractPrecision) (L : FVec Ideal S128x400 φ₁) (R : FVec Ideal S400x1 φ₂)
    (p : Fin 128) (u : Fin 1) :
    FloatOps.matmul D1 prec L R (constant S128x1 .f32 0x00000000#32) (ix2 p u)
      = ∑ n : Fin 400, L (ix2 p n) * R (ix2 n u) := by
  rw [Ideal.matmul_constant_zero_apply, ← Equiv.sum_comp (contrEquiv1 D1 400 rfl rfl).symm]
  refine Finset.sum_congr rfl fun n _ => ?_
  have hn := contrEquiv1_symm_val D1 400 rfl rfl n
  have el : D1.lhsIdx (ix2 p u) ((contrEquiv1 D1 400 rfl rfl).symm n) = ix2 p n := funext fun a => Fin.ext (by
    match a with
    | ⟨0, _⟩ => exact D1_lhs0 _ _
    | ⟨1, _⟩ => exact (D1_lhs1 _ _).trans hn)
  have er : D1.rhsIdx (ix2 p u) ((contrEquiv1 D1 400 rfl rfl).symm n) = ix2 n u := funext fun a => Fin.ext (by
    match a with
    | ⟨0, _⟩ => exact (D1_rhs0 _ _).trans hn
    | ⟨1, _⟩ => exact D1_rhs1 _ _)
  rw [el, er]

theorem tanh_apply {s : Shape} {φ : FTy} (x : FVec Ideal s φ) (i : s.Idx) : tanh x i = Ideal.tanh (x i) := rfl

/-- The tail at (p, u): per-feature normalisation, the scoring contraction, the scoring bias, tanh, the final bias. -/
theorem pay1_apply (v105 : FVec Ideal S128x400 .f32) (v106 v110 v115 : Vec Ideal S400 .f32) (v119 : Vec Ideal S400x1 .f32)
    (v122 v127 : Vec Ideal S1 .f32) (p : Fin 128) (u : Fin 1) :
    k0_pay1 (F := Ideal) v105 v106 v110 v115 v119 v122 v127 (ix2 p u)
      = Ideal.tanh ((∑ n : Fin 400, ((v105 (ix2 p n) - v106 (ix1 n)) * v110 (ix1 n) + v115 (ix1 n)) * v119 (ix2 n u))
          + v122 (ix1 0)) + v127 (ix1 0) := by
  unfold k0_pay1
  simp only [shapeCast_self, addf_apply, tanh_apply]
  refine congrArg₂ (· + ·) (congrArg Ideal.tanh (congrArg₂ (· + ·) ?_ (Layout.scalar_bcast v122 _ _ p u))) (Layout.scalar_bcast v127 _ _ p u)
  refine (D1_matmul_apply none _ _ p u).trans (Finset.sum_congr rfl fun n _ => congrArg₂ (· * ·) ?_ rfl)
  simp only [addf_apply, mulf_apply, subf_apply]
  exact congrArg₂ (· + ·) (congrArg₂ (· * ·) (congrArg₂ (· - ·) rfl (Layout.row_bcast v106 _ _ p n)) (Layout.row_bcast v110 _ _ p n))
    (Layout.row_bcast v115 _ _ p n)

/-- The score of one row from that row's input entries `e` and filters `k` (tap-major) and the shared arrays. -/
def rowOut (e : Fin 400 → EReal) (k : Fin 9 → Fin 32 → EReal) (sc sh : EReal)
    (Wk : Fin 12544 → Fin 400 → EReal) (fba m2 i2 b2 f2 : Fin 400 → EReal) (f2b bias : EReal) : EReal :=
  Ideal.tanh ((∑ n : Fin 400,
      ((((∑ q : Fin 12544, (∑ j : Fin 9, k j (oc q) * (e (tap (wc q) j) * sc + sh)) * Wk q n) + fba n) - m2 n) * i2 n
        + b2 n) * f2 n) + f2b) + bias

/-- The tiled score of row r depends on the input rows and the filters through row r only. -/
theorem bodyOut_eq_rowOut (E : Fin 4096 → Fin 400 → EReal) (Kg : Fin 4096 → Fin 9 → Fin 32 → EReal) (sc sh : EReal)
    (Wk : Fin 12544 → Fin 400 → EReal) (fba m2 i2 b2 f2 : Fin 400 → EReal) (f2b bias : EReal) (r : Fin 4096) :
    bodyOut E Kg sc sh Wk fba m2 i2 b2 f2 f2b bias r = rowOut (E r) (Kg r) sc sh Wk fba m2 i2 b2 f2 f2b bias := rfl

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at row p: the score of that row over the blocks it was handed. -/
theorem body_apply (x0 : Vec Ideal S128x400 .f32) (x1 : Vec Ideal S128x9x32 .f32) (x2 x3 : Vec Ideal S1 .f32)
    (x4 : Vec Ideal S12544x400 .bf16) (x5 x6 x7 x8 : Vec Ideal S400 .f32) (x9 : Vec Ideal S400x1 .f32)
    (x10 x11 : Vec Ideal S1 .f32) (p : Fin 128) :
    out0_12 (F := Ideal) x0 x1 x2 x3 x4 x5 x6 x7 x8 x9 x10 x11 (ix2 p (0 : Fin 1))
      = rowOut (fun c => x0 (ix2 p c)) (fun j o => x1 (ix3 p j o)) (x2 (ix1 0)) (x3 (ix1 0)) (fun q n => x4 (ix2 q n))
          (fun n => x5 (ix1 n)) (fun n => x6 (ix1 n)) (fun n => x7 (ix1 n)) (fun n => x8 (ix1 n))
          (fun n => x9 (ix2 n (0 : Fin 1))) (x10 (ix1 0)) (x11 (ix1 0)) := by
  unfold out0_12
  rw [View.canon_unit_zero hz2]
  simp only [View.ld_unit_zero (S := S128x400) hz2, View.ld_unit_zero (S := S1) hz1, View.ld_unit_zero (S := S128x9x32) hz3,
    View.ld_unit_zero (S := S12544x400) hz2, View.ld_unit_zero (S := S400) hz1, View.ld_unit_zero (S := S400x1) hz2]
  refine (pay1_apply _ x6 x7 x8 x9 x10 x11 p 0).trans ?_
  unfold rowOut
  refine congrArg₂ (· + ·) (congrArg Ideal.tanh (congrArg₂ (· + ·) (Finset.sum_congr rfl fun n _ => ?_) rfl)) rfl
  refine congrArg (· * _) (congrArg (· + _) (congrArg (· * _) (congrArg (· - _) ?_)))
  refine (pay5_apply _ _ _ x4 x5 p n).trans (congrArg (· + _) (Finset.sum_congr rfl fun q _ => congrArg (· * _) ?_))
  rw [pay4_apply, sum9]
  simp only [tapT, pay3_eq, pay2_apply]

end Cert.Hyper.Ker

end
-- ==== Proof.KerBodyBlocks.lean ====
/-
  One block's result as a block of the scores. The scores are one function of the arrays: entry (i, ·) is the tiled
  score of row i. When the rows handed to a grid point are rows t·128 + p of the input rows and of the gathered
  filters, and the other blocks are the arrays themselves, row p of what the body leaves is the score of row t·128 + p.
-/
import proofs.«106541_j17248588661540_2_alg».proof.Proof.KerBodyTail

noncomputable section

namespace Cert.Hyper.Ker

open Cert.KernelIdeal Cert.KernelIdeal.Gen Idealize.ShloMosaic Idealize.ShloMosaic.ValueIdx
open Cert.Hyper

/-- The scores as one function of the arrays the twelve input windows stage: entry (i, ·) is the tiled score of row i. -/
def scoreArr (A0 : S4096x400.Idx → EReal) (A1 : S4096x9x32.Idx → EReal) (A2 : S1.Idx → EReal) (A3 : S1.Idx → EReal) (A4 : S12544x400.Idx → EReal) (A5 : S400.Idx → EReal) (A6 : S400.Idx → EReal) (A7 : S400.Idx → EReal) (A8 : S400.Idx → EReal) (A9 : S400x1.Idx → EReal) (A10 : S1.Idx → EReal) (A11 : S1.Idx → EReal) : S4096x1.Idx → EReal :=
  fun i => bodyOut (fun b k => A0 (ix2 b k)) (fun b j o => A1 (ix3 b j o)) (A2 (ix1 0)) (A3 (ix1 0)) (fun q n => A4 (ix2 q n))
    (fun n => A5 (ix1 n)) (fun n => A6 (ix1 n)) (fun n => A7 (ix1 n)) (fun n => A8 (ix1 n)) (fun n => A9 (ix2 n (0 : Fin 1)))
    (A10 (ix1 0)) (A11 (ix1 0)) (i 0)

/-- An entry of the scores is the score of its row over that row of the input rows and of the filters. -/
theorem scoreArr_apply (A0 : S4096x400.Idx → EReal) (A1 : S4096x9x32.Idx → EReal) (A2 : S1.Idx → EReal) (A3 : S1.Idx → EReal) (A4 : S12544x400.Idx → EReal) (A5 : S400.Idx → EReal) (A6 : S400.Idx → EReal) (A7 : S400.Idx → EReal) (A8 : S400.Idx → EReal) (A9 : S400x1.Idx → EReal) (A10 : S1.Idx → EReal) (A11 : S1.Idx → EReal) (i : S4096x1.Idx) :
    scoreArr A0 A1 A2 A3 A4 A5 A6 A7 A8 A9 A10 A11 i
      = rowOut (fun k => A0 (ix2 (i 0) k)) (fun j o => A1 (ix3 (i 0) j o)) (A2 (ix1 0)) (A3 (ix1 0)) (fun q n => A4 (ix2 q n))
          (fun n => A5 (ix1 n)) (fun n => A6 (ix1 n)) (fun n => A7 (ix1 n)) (fun n => A8 (ix1 n)) (fun n => A9 (ix2 n (0 : Fin 1)))
          (A10 (ix1 0)) (A11 (ix1 0)) := rfl

/-- One block's result is the matching block of the scores: entry y of what the body leaves is the score entry i,
    for i's row t·128 + (y's row). -/
theorem block_row (x0 : Vec Ideal S128x400 .f32) (x1 : Vec Ideal S128x9x32 .f32)
    (A0 : S4096x400.Idx → EReal) (A1 : S4096x9x32.Idx → EReal) (A2 : S1.Idx → EReal) (A3 : S1.Idx → EReal) (A4 : S12544x400.Idx → EReal) (A5 : S400.Idx → EReal) (A6 : S400.Idx → EReal) (A7 : S400.Idx → EReal) (A8 : S400.Idx → EReal) (A9 : S400x1.Idx → EReal) (A10 : S1.Idx → EReal) (A11 : S1.Idx → EReal)
    (t : ℕ) (y : S128x1.Idx) (i : S4096x1.Idx) (hi : (i 0).val = t * 128 + (y 0).val)
    (h0 : ∀ (p : Fin 128) (k : Fin 400) (b : Fin 4096), b.val = t * 128 + p.val → x0 (ix2 p k) = A0 (ix2 b k))
    (h1 : ∀ (p : Fin 128) (j : Fin 9) (o : Fin 32) (b : Fin 4096), b.val = t * 128 + p.val → x1 (ix3 p j o) = A1 (ix3 b j o)) :
    out0_12 (F := Ideal) x0 x1 A2 A3 A4 A5 A6 A7 A8 A9 A10 A11 y = scoreArr A0 A1 A2 A3 A4 A5 A6 A7 A8 A9 A10 A11 i := by
  obtain ⟨p, u, rfl⟩ : ∃ (p : Fin 128) (u : Fin 1), y = ix2 p u := ⟨y 0, y 1, eq_ix2 y⟩
  obtain rfl : u = 0 := Subsingleton.elim _ _
  refine (body_apply x0 x1 A2 A3 A4 A5 A6 A7 A8 A9 A10 A11 p).trans ?_
  have e0 : (fun k => x0 (ix2 p k)) = fun k => A0 (ix2 (i 0) k) := funext fun k => h0 p k (i 0) hi
  have e1 : (fun j o => x1 (ix3 p j o)) = fun j o => A1 (ix3 (i 0) j o) := funext fun j => funext fun o => h1 p j o (i 0) hi
  rw [scoreArr_apply, e0, e1]

end Cert.Hyper.Ker

end
-- ==== Proof.KerBodyArrays.lean ====
/-
  Names for the arrays the twelve input windows of the tiled evaluation stage, as the region finds them, at their
  literal shapes, and for the two windows that move with the grid point — the input rows and the gathered filters —
  the block a point is handed.
-/
import proofs.«106541_j17248588661540_2_alg».proof.Proof.Gen.KernelIdeal.Frame
import Idealize.ShloMosaic.PureOps.Ideal

noncomputable section

namespace Cert.Hyper.Ker

open Cert.KernelIdeal Cert.KernelIdeal.Gen Idealize.ShloMosaic Idealize.ShloMosaic.TcCoe Idealize.SL.Sem

variable (m : (ℓ : Loc nD τ sig) → Buf (Elt Ideal) ℓ)

/-- The array window 0 stages, as the region finds it. -/
def arr0 (c : Dev nD) : S4096x400.Idx → EReal := V m c (Pipeline.arrRef spec0 0)
/-- The array window 1 stages, as the region finds it. -/
def arr1 (c : Dev nD) : S4096x9x32.Idx → EReal := V m c (Pipeline.arrRef spec0 1)
/-- The array window 2 stages, as the region finds it. -/
def arr2 (c : Dev nD) : S1.Idx → EReal := V m c (Pipeline.arrRef spec0 2)
/-- The array window 3 stages, as the region finds it. -/
def arr3 (c : Dev nD) : S1.Idx → EReal := V m c (Pipeline.arrRef spec0 3)
/-- The array window 4 stages, as the region finds it. -/
def arr4 (c : Dev nD) : S12544x400.Idx → EReal := V m c (Pipeline.arrRef spec0 4)
/-- The array window 5 stages, as the region finds it. -/
def arr5 (c : Dev nD) : S400.Idx → EReal := V m c (Pipeline.arrRef spec0 5)
/-- The array window 6 stages, as the region finds it. -/
def arr6 (c : Dev nD) : S400.Idx → EReal := V m c (Pipeline.arrRef spec0 6)
/-- The array window 7 stages, as the region finds it. -/
def arr7 (c : Dev nD) : S400.Idx → EReal := V m c (Pipeline.arrRef spec0 7)
/-- The array window 8 stages, as the region finds it. -/
def arr8 (c : Dev nD) : S400.Idx → EReal := V m c (Pipeline.arrRef spec0 8)
/-- The array window 9 stages, as the region finds it. -/
def arr9 (c : Dev nD) : S400x1.Idx → EReal := V m c (Pipeline.arrRef spec0 9)
/-- The array window 10 stages, as the region finds it. -/
def arr10 (c : Dev nD) : S1.Idx → EReal := V m c (Pipeline.arrRef spec0 10)
/-- The array window 11 stages, as the region finds it. -/
def arr11 (c : Dev nD) : S1.Idx → EReal := V m c (Pipeline.arrRef spec0 11)

/-- The rows of the input handed to grid point t. -/
def blk0 (c : Dev nD) (t : Fin cfg0.N) : Vec Ideal S128x400 .f32 := iblk m c 0 t
/-- The rows of the gathered filters handed to grid point t. -/
def blk1 (c : Dev nD) (t : Fin cfg0.N) : Vec Ideal S128x9x32 .f32 := iblk m c 1 t

end Cert.Hyper.Ker

end
-- ==== Proof.KerBodyReads.lean ====
/-
  Where each grid point's blocks lie in the arrays. The index maps are decided once over the 32 grid points: the
  input rows, the gathered filters and the output move with the point along the rows (block t is rows 128·t … 128·t + 127)
  and stay at block 0 on the other axes; every other window stays at block 0, so its block is its whole array.
-/
import proofs.«106541_j17248588661540_2_alg».proof.Proof.KerBodyArrays
import Idealize.ShloMosaic.Lib.ValueIdx

noncomputable section

namespace Cert.Hyper.Ker

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The index maps, decided over the 32 grid points. -/
theorem idx_facts : ∀ t : Fin cfg0.N, win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 1) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 2) = t.val
    ∧ win0_12.index t (1 : Fin 2) = 0 :=
  (by decide +kernel : ∀ t : Fin grid0.N, _)

/-- Window 2's block at every point is its whole array. -/
theorem iblk2_eq (c : Dev nD) (t : Fin cfg0.N) : (iblk m c 2 t : Vec Ideal S1 .f32) = arr2 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 2) (((cfg0.win 2).blk t).view.emb x) = V m c (Pipeline.arrRef spec0 2) x
  refine congrArg _ (funext fun a => Fin.ext ?_)
  match a with
  | ⟨0, _⟩ => show win0_2.index t (0 : Fin 1) * 1 + 1 * (x 0).val = (x 0).val; rw [f2a]; omega

/-- Window 3's block at every point is its whole array. -/
theorem iblk3_eq (c : Dev nD) (t : Fin cfg0.N) : (iblk m c 3 t : Vec Ideal S1 .f32) = arr3 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 3) (((cfg0.win 3).blk t).view.emb x) = V m c (Pipeline.arrRef spec0 3) x
  refine congrArg _ (funext fun a => Fin.ext ?_)
  match a with
  | ⟨0, _⟩ => show win0_3.index t (0 : Fin 1) * 1 + 1 * (x 0).val = (x 0).val; rw [f3a]; omega

/-- Window 4's block at every point is its whole array. -/
theorem iblk4_eq (c : Dev nD) (t : Fin cfg0.N) : (iblk m c 4 t : Vec Ideal S12544x400 .bf16) = arr4 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 4) (((cfg0.win 4).blk t).view.emb x) = V m c (Pipeline.arrRef spec0 4) x
  refine congrArg _ (funext fun a => Fin.ext ?_)
  match a with
  | ⟨0, _⟩ => show win0_4.index t (0 : Fin 2) * 12544 + 1 * (x 0).val = (x 0).val; rw [f4a]; omega
  | ⟨1, _⟩ => show win0_4.index t (1 : Fin 2) * 400 + 1 * (x 1).val = (x 1).val; rw [f4b]; omega

/-- Window 5's block at every point is its whole array. -/
theorem iblk5_eq (c : Dev nD) (t : Fin cfg0.N) : (iblk m c 5 t : Vec Ideal S400 .f32) = arr5 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 5) (((cfg0.win 5).blk t).view.emb x) = V m c (Pipeline.arrRef spec0 5) x
  refine congrArg _ (funext fun a => Fin.ext ?_)
  match a with
  | ⟨0, _⟩ => show win0_5.index t (0 : Fin 1) * 400 + 1 * (x 0).val = (x 0).val; rw [f5a]; omega

/-- Window 6's block at every point is its whole array. -/
theorem iblk6_eq (c : Dev nD) (t : Fin cfg0.N) : (iblk m c 6 t : Vec Ideal S400 .f32) = arr6 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 6) (((cfg0.win 6).blk t).view.emb x) = V m c (Pipeline.arrRef spec0 6) x
  refine congrArg _ (funext fun a => Fin.ext ?_)
  match a with
  | ⟨0, _⟩ => show win0_6.index t (0 : Fin 1) * 400 + 1 * (x 0).val = (x 0).val; rw [f6a]; omega

/-- Window 7's block at every point is its whole array. -/
theorem iblk7_eq (c : Dev nD) (t : Fin cfg0.N) : (iblk m c 7 t : Vec Ideal S400 .f32) = arr7 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 7) (((cfg0.win 7).blk t).view.emb x) = V m c (Pipeline.arrRef spec0 7) x
  refine congrArg _ (funext fun a => Fin.ext ?_)
  match a with
  | ⟨0, _⟩ => show win0_7.index t (0 : Fin 1) * 400 + 1 * (x 0).val = (x 0).val; rw [f7a]; omega

/-- Window 8's block at every point is its whole array. -/
theorem iblk8_eq (c : Dev nD) (t : Fin cfg0.N) : (iblk m c 8 t : Vec Ideal S400 .f32) = arr8 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 8) (((cfg0.win 8).blk t).view.emb x) = V m c (Pipeline.arrRef spec0 8) x
  refine congrArg _ (funext fun a => Fin.ext ?_)
  match a with
  | ⟨0, _⟩ => show win0_8.index t (0 : Fin 1) * 400 + 1 * (x 0).val = (x 0).val; rw [f8a]; omega

/-- Window 9's block at every point is its whole array. -/
theorem iblk9_eq (c : Dev nD) (t : Fin cfg0.N) : (iblk m c 9 t : Vec Ideal S400x1 .f32) = arr9 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 9) (((cfg0.win 9).blk t).view.emb x) = V m c (Pipeline.arrRef spec0 9) x
  refine congrArg _ (funext fun a => Fin.ext ?_)
  match a with
  | ⟨0, _⟩ => show win0_9.index t (0 : Fin 2) * 400 + 1 * (x 0).val = (x 0).val; rw [f9a]; omega
  | ⟨1, _⟩ => show win0_9.index t (1 : Fin 2) * 1 + 1 * (x 1).val = (x 1).val; rw [f9b]; omega

/-- Window 10's block at every point is its whole array. -/
theorem iblk10_eq (c : Dev nD) (t : Fin cfg0.N) : (iblk m c 10 t : Vec Ideal S1 .f32) = arr10 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 10) (((cfg0.win 10).blk t).view.emb x) = V m c (Pipeline.arrRef spec0 10) x
  refine congrArg _ (funext fun a => Fin.ext ?_)
  match a with
  | ⟨0, _⟩ => show win0_10.index t (0 : Fin 1) * 1 + 1 * (x 0).val = (x 0).val; rw [f10a]; omega

/-- Window 11's block at every point is its whole array. -/
theorem iblk11_eq (c : Dev nD) (t : Fin cfg0.N) : (iblk m c 11 t : Vec Ideal S1 .f32) = arr11 m c := by
  obtain ⟨f0a, f0b, f1a, f1b, f1c, f2a, f3a, f4a, f4b, f5a, f6a, f7a, f8a, f9a, f9b, f10a, f11a, f12a, f12b⟩ := idx_facts t
  funext x
  show V m c (Pipeline.arrRef spec0 11) (((cfg0.win 11).blk t).view.emb x) = V m c (Pipeline.arrRef spec0 11) x
  refine congrArg _ (funext fun a => Fin.ext ?_)
  match a with
  | ⟨0, _⟩ => show win0_11.index t (0 : Fin 1) * 1 + 1 * (x 0).val = (x 0).val; rw [f11a]; omega

/-- Entry (p, k) of the input rows handed to point t is entry (128·t + p, k) of the input rows. -/
theorem blk0_apply (c : Dev nD) (t : Fin cfg0.N) (p : Fin 128) (k : Fin 400) (b : Fin 4096) (hb : b.val = t.val * 128 + p.val) :
    blk0 m c t (ix2 p k) = arr0 m c (ix2 b k) := by
  obtain ⟨f0a, f0b, f1a, f1b, f1c, f2a, f3a, f4a, f4b, f5a, f6a, f7a, f8a, f9a, f9b, f10a, f11a, f12a, f12b⟩ := idx_facts t
  show V m c (Pipeline.arrRef spec0 0) (((cfg0.win 0).blk t).view.emb (ix2 p k)) = V m c (Pipeline.arrRef spec0 0) (ix2 b k)
  refine congrArg _ (funext fun a => Fin.ext ?_)
  match a with
  | ⟨0, _⟩ => show win0_0.index t (0 : Fin 2) * 128 + 1 * p.val = b.val; rw [f0a, hb]; omega
  | ⟨1, _⟩ => show win0_0.index t (1 : Fin 2) * 400 + 1 * k.val = k.val; rw [f0b]; omega

/-- Entry (p, j, o) of the filters handed to point t is entry (128·t + p, j, o) of the gathered filters. -/
theorem blk1_apply (c : Dev nD) (t : Fin cfg0.N) (p : Fin 128) (j : Fin 9) (o : Fin 32) (b : Fin 4096) (hb : b.val = t.val * 128 + p.val) :
    blk1 m c t (ix3 p j o) = arr1 m c (ix3 b j o) := by
  obtain ⟨f0a, f0b, f1a, f1b, f1c, f2a, f3a, f4a, f4b, f5a, f6a, f7a, f8a, f9a, f9b, f10a, f11a, f12a, f12b⟩ := idx_facts t
  show V m c (Pipeline.arrRef spec0 1) (((cfg0.win 1).blk t).view.emb (ix3 p j o)) = V m c (Pipeline.arrRef spec0 1) (ix3 b j o)
  refine congrArg _ (funext fun a => Fin.ext ?_)
  match a with
  | ⟨0, _⟩ => show win0_1.index t (0 : Fin 3) * 128 + 1 * p.val = b.val; rw [f1a, hb]; omega
  | ⟨1, _⟩ => show win0_1.index t (1 : Fin 3) * 9 + 1 * j.val = j.val; rw [f1b]; omega
  | ⟨2, _⟩ => show win0_1.index t (2 : Fin 3) * 32 + 1 * o.val = o.val; rw [f1c]; omega

end Cert.Hyper.Ker

end
-- ==== Proof.KerBodyFlush.lean ====
/-
  What a grid point writes back, as a block of the scores. The write-back of point t is the body's result over the
  point's input blocks, read through the output block; the output block's entry y is row t·128 + y of the array.
-/
import proofs.«106541_j17248588661540_2_alg».proof.Proof.Gen.KernelIdeal.Value
import proofs.«106541_j17248588661540_2_alg».proof.Proof.KerBodyBlocks
import proofs.«106541_j17248588661540_2_alg».proof.Proof.KerBodyReads

noncomputable section

namespace Cert.Hyper.Ker

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Hyper

variable (m : (ℓ : Loc nD τ sig) → Buf (Elt Ideal) ℓ)

/-- The output window's blocks are whole: what is written back of a staging buffer's contents is those contents. -/
theorem cut12_apply (t : Fin cfg0.N) (X : S128x1.Idx → EReal) (y : S128x1.Idx) :
    (cfg0.win 12).cut (grid0.coords t) X y = X y := rfl

/-- The output array read through point t's block, at the block's entry y, is the array at the entry's place in it. -/
theorem read12_apply (t : Fin cfg0.N) (G : S4096x1.Idx → EReal) (y : S128x1.Idx) :
    ((cfg0.win 12).blk t).view.read (Elt Ideal) G y = G (((cfg0.win 12).blk t).view.emb y) := rfl

/-- The row of the output array that entry y of point t's output block lies in. -/
theorem emb12_row (t : Fin cfg0.N) (y : S128x1.Idx) :
    ((((cfg0.win 12).blk t).view.emb y : S4096x1.Idx) 0).val = t.val * 128 + (y 0).val := by
  obtain ⟨f0a, f0b, f1a, f1b, f1c, f2a, f3a, f4a, f4b, f5a, f6a, f7a, f8a, f9a, f9b, f10a, f11a, f12a, f12b⟩ := idx_facts t
  show win0_12.index t (0 : Fin 2) * 128 + 1 * (y 0).val = t.val * 128 + (y 0).val
  rw [f12a]; omega

/-- The scores over the arrays as the region finds them. -/
def scores (c : Dev nD) : S4096x1.Idx → EReal := scoreArr (arr0 m c) (arr1 m c) (arr2 m c) (arr3 m c) (arr4 m c) (arr5 m c) (arr6 m c) (arr7 m c) (arr8 m c) (arr9 m c) (arr10 m c) (arr11 m c)

/-- WHAT POINT t WRITES BACK is block t of the scores. -/
theorem flushed_eq (c : Dev nD) (t : Fin cfg0.N) :
    (dats m 0 c).flushed 12 t = ((cfg0.win 12).blk t).view.read (Elt Ideal) (scores m c) := by
  rw [Value.flushed12, iblk2_eq m c t, iblk3_eq m c t, iblk4_eq m c t, iblk5_eq m c t, iblk6_eq m c t, iblk7_eq m c t,
    iblk8_eq m c t, iblk9_eq m c t, iblk10_eq m c t, iblk11_eq m c t]
  funext y
  refine (cut12_apply t _ y).trans ?_
  refine Eq.trans ?_ (read12_apply t _ y).symm
  exact block_row (blk0 m c t) (blk1 m c t) (arr0 m c) (arr1 m c) (arr2 m c) (arr3 m c) (arr4 m c) (arr5 m c) (arr6 m c) (arr7 m c) (arr8 m c) (arr9 m c) (arr10 m c) (arr11 m c)
    t.val y (((cfg0.win 12).blk t).view.emb y) (emb12_row t y)
    (fun p k b hb => blk0_apply m c t p k b hb) (fun p j o b hb => blk1_apply m c t p j o b hb)

end Cert.Hyper.Ker

end
-- ==== Proof.KerBody.lean ====
/-
  The output array of the tiled evaluation. Every row of the [4096, 1] output lies in exactly the block of the grid
  point r / 128, every point writes its block back, and what it writes is that block of the scores; so after the
  run the array holds, at row r, the tiled score of row r over the arrays the windows stage.
-/
import proofs.«106541_j17248588661540_2_alg».proof.Proof.KerBodyFlush

noncomputable section

namespace Cert.Hyper.Ker

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Hyper

variable (m : (ℓ : Loc nD τ sig) → Buf (Elt Ideal) ℓ)

/-- An index of the output array is in point t's block iff each coordinate is in the block's range on its axis. -/
theorem mem_blk (t : Fin cfg0.N) (i : S4096x1.Idx) :
    i ∈ ((cfg0.win 12).blk t).view.set ↔ ∀ a : Fin 2, win0_12.index t a * S128x1.size a ≤ (i a).val ∧ (i a).val < win0_12.index t a * S128x1.size a + S128x1.size a := by
  show i ∈ ((View.whole main_v58).slice (win0_12.rect t)).set ↔ _
  rw [View.set_slice_whole, Rect.mem_set_unit]
  exact Iff.rfl

/-- Every index of the output array is in the block of a point that writes back: row r is in the block of point r / 128. -/
theorem cover (i : S4096x1.Idx) : ∃ t : Fin cfg0.N, (cfg0.win 12).flush t = true ∧ i ∈ ((cfg0.win 12).blk t).view.set := by
  have hi0 : (i 0).val < 4096 := (i 0).isLt
  have hi1 : (i 1).val < 1 := (i 1).isLt
  have hN : grid0.N = 32 := N_0
  have ht : (i 0).val / 128 < cfg0.N := by show (i 0).val / 128 < grid0.N; rw [hN]; omega
  obtain ⟨f0a, f0b, f1a, f1b, f1c, f2a, f3a, f4a, f4b, f5a, f6a, f7a, f8a, f9a, f9b, f10a, f11a, f12a, f12b⟩ := idx_facts ⟨(i 0).val / 128, ht⟩
  refine ⟨⟨(i 0).val / 128, ht⟩, flush0_12 _, ?_⟩
  rw [mem_blk]
  intro a
  match a with
  | ⟨0, _⟩ =>
    show win0_12.index ⟨(i 0).val / 128, ht⟩ (0 : Fin 2) * 128 ≤ (i 0).val ∧ (i 0).val < win0_12.index ⟨(i 0).val / 128, ht⟩ (0 : Fin 2) * 128 + 128
    rw [f12a]; show (i 0).val / 128 * 128 ≤ (i 0).val ∧ (i 0).val < (i 0).val / 128 * 128 + 128; omega
  | ⟨1, _⟩ =>
    show win0_12.index ⟨(i 0).val / 128, ht⟩ (1 : Fin 2) * 1 ≤ (i 1).val ∧ (i 1).val < win0_12.index ⟨(i 0).val / 128, ht⟩ (1 : Fin 2) * 1 + 1
    rw [f12b]; omega

/-- THE OUTPUT ARRAY after the run is the scores over the arrays as the region finds them. -/
theorem final (c : Dev nD) : (dats m 0 c).arrAt 12 cfg0.N = scores m c :=
  (dats m 0 c).arrAt_eq_of_cover 12 (scores m c) (fun t _ => flushed_eq m c t) cover

/-- The output array at row r is the tiled score of row r over the arrays the twelve input windows stage. -/
theorem ker_value (c : Dev nD) (r : Fin 4096) :
    ((dats (F := Ideal) m 0 c).arrAt 12 cfg0.N : S4096x1.Idx → EReal) (ix2 r (0 : Fin 1))
      = bodyOut (fun b k => (V m c (Pipeline.arrRef spec0 0) : S4096x400.Idx → EReal) (ix2 b k))
          (fun b j o => (V m c (Pipeline.arrRef spec0 1) : S4096x9x32.Idx → EReal) (ix3 b j o))
          ((V m c (Pipeline.arrRef spec0 2) : S1.Idx → EReal) (ix1 0))
          ((V m c (Pipeline.arrRef spec0 3) : S1.Idx → EReal) (ix1 0))
          (fun q n => (V m c (Pipeline.arrRef spec0 4) : S12544x400.Idx → EReal) (ix2 q n))
          (fun n => (V m c (Pipeline.arrRef spec0 5) : S400.Idx → EReal) (ix1 n))
          (fun n => (V m c (Pipeline.arrRef spec0 6) : S400.Idx → EReal) (ix1 n))
          (fun n => (V m c (Pipeline.arrRef spec0 7) : S400.Idx → EReal) (ix1 n))
          (fun n => (V m c (Pipeline.arrRef spec0 8) : S400.Idx → EReal) (ix1 n))
          (fun n => (V m c (Pipeline.arrRef spec0 9) : S400x1.Idx → EReal) (ix2 n (0 : Fin 1)))
          ((V m c (Pipeline.arrRef spec0 10) : S1.Idx → EReal) (ix1 0))
          ((V m c (Pipeline.arrRef spec0 11) : S1.Idx → EReal) (ix1 0)) r :=
  (congrFun (final m c) (ix2 r (0 : Fin 1))).trans (by
    unfold scores scoreArr arr0 arr1 arr2 arr3 arr4 arr5 arr6 arr7 arr8 arr9 arr10 arr11
    rfl)

end Cert.Hyper.Ker

end
-- ==== Proof.Join.lean ====
/-
  The kernel's output row in the specification's terms.

  The tiled evaluation's score of row r over the twelve arrays the region is handed, with each array replaced by
  what the host side put there — the joined embedding rows, the gathered filters, the input scale and shift, the
  scaled dense weights, the adjusted dense bias, the per-feature mean, scale and shift, the scoring column and
  bias, the final bias — is the common tail over the folded-arrangement features.
-/
import proofs.«106541_j17248588661540_2_alg».proof.Proof.KerHost
import proofs.«106541_j17248588661540_2_alg».proof.Proof.KerBody

noncomputable section

namespace Cert.Hyper.Join

open Cert.KernelIdeal Cert.KernelIdeal.Gen Idealize.ShloMosaic Idealize.ShloMosaic.TcCoe Idealize.SL.Sem
open Idealize.ShloMosaic.ValueIdx Cert.Hyper Cert.Hyper.KerHost

variable (m : (ℓ : Loc nD τ sig) → Buf (Elt Ideal) ℓ) (c : Dev nD)

set_option maxHeartbeats 4000000 in
/-- Row r of the kernel's output array is the tail over the folded-arrangement features of the arguments. -/
theorem ker_out (r : Fin 4096) :
    ((dats (F := Ideal) m 0 c).arrAt 12 cfg0.N : S4096x1.Idx → EReal) (ix2 r (0 : Fin 1))
      = out (kerParams m c) (hk (kerParams m c)) r := by
  rw [Cert.Hyper.Ker.ker_value m c r, ← bodyOut_eq (kerParams m c) r]
  have e0 : (fun (b : Fin 4096) (k : Fin 400) => (V m c (Pipeline.arrRef spec0 0) : S4096x400.Idx → EReal) (ix2 b k))
      = (kerParams m c).E := by
    funext b k
    show (V m c main_v14 : S4096x400.Idx → EReal) (ix2 b k) = _
    rw [win_rows m c]; rfl
  have e1 : (fun (b : Fin 4096) (j : Fin 9) (o : Fin 32) => (V m c (Pipeline.arrRef spec0 1) : S4096x9x32.Idx → EReal) (ix3 b j o))
      = fun b j o => kf (kerParams m c) b o j := by
    funext b j o; exact win_filters m c b j o
  have e2 : (V m c (Pipeline.arrRef spec0 2) : S1.Idx → EReal) (ix1 0) = scale (kerParams m c).g0 (kerParams m c).v0 :=
    win_scale0 m c
  have e3 : (V m c (Pipeline.arrRef spec0 3) : S1.Idx → EReal) (ix1 0)
      = (kerParams m c).β0 - (kerParams m c).μ0 * scale (kerParams m c).g0 (kerParams m c).v0 := win_shift0 m c
  have e4 : (fun (q : Fin 12544) (n : Fin 400) => (V m c (Pipeline.arrRef spec0 4) : S12544x400.Idx → EReal) (ix2 q n))
      = fun q n => (kerParams m c).W n q * inv1 (kerParams m c) (oc q) := by
    funext q n; exact win_weights m c q n
  have e5 : (fun (n : Fin 400) => (V m c (Pipeline.arrRef spec0 5) : S400.Idx → EReal) (ix1 n))
      = fun n => (kerParams m c).fcb n + ∑ q : Fin 12544,
          ((kerParams m c).β1 (oc q) - (kerParams m c).μ1 (oc q) * inv1 (kerParams m c) (oc q)) * (kerParams m c).W n q := by
    funext n; exact win_bias m c n
  have e6 : (fun (n : Fin 400) => (V m c (Pipeline.arrRef spec0 6) : S400.Idx → EReal) (ix1 n)) = (kerParams m c).μ2 := by
    funext n
    show (V m c main_arg19 : S400.Idx → EReal) (ix1 n) = _
    rw [win_mean2 m c]; rfl
  have e7 : (fun (n : Fin 400) => (V m c (Pipeline.arrRef spec0 7) : S400.Idx → EReal) (ix1 n))
      = fun n => scale ((kerParams m c).g2 n) ((kerParams m c).v2 n) := by
    funext n; exact win_scale2 m c n
  have e8 : (fun (n : Fin 400) => (V m c (Pipeline.arrRef spec0 8) : S400.Idx → EReal) (ix1 n)) = (kerParams m c).β2 := by
    funext n
    show (V m c main_arg18 : S400.Idx → EReal) (ix1 n) = _
    rw [win_shift2 m c]; rfl
  have e9 : (fun (n : Fin 400) => (V m c (Pipeline.arrRef spec0 9) : S400x1.Idx → EReal) (ix2 n (0 : Fin 1))) = (kerParams m c).f2 := by
    funext n; exact win_score m c n
  have e10 : (V m c (Pipeline.arrRef spec0 10) : S1.Idx → EReal) (ix1 0) = (kerParams m c).f2b := by
    show (V m c main_arg22 : S1.Idx → EReal) (ix1 0) = _
    rw [win_scoreBias m c]; rfl
  have e11 : (V m c (Pipeline.arrRef spec0 11) : S1.Idx → EReal) (ix1 0) = (kerParams m c).bias := by
    show (V m c main_arg23 : S1.Idx → EReal) (ix1 0) = _
    rw [win_bias2 m c]; rfl
  rw [e0, e1, e2, e3, e4, e5, e6, e7, e8, e9, e10, e11]

end Cert.Hyper.Join

end
-- ==== Proof.lean ====
/-
  A hypernetwork scorer in one tiled kernel against its plain reference, on the extended reals.

  Both programs score a batch row from two gathered embedding rows and a gathered relation row: a scalar
  batch-norm of the joined embedding row, 32 filters of 9 taps produced from the relation row by a dense layer,
  a valid sliding product of each filter over the row, a per-filter batch-norm, a dense layer to 400 features,
  a per-feature batch-norm, a dense layer to one score, tanh, and a bias. The reference does these in that
  order. The kernel computes the filters for every relation first and gathers them (a gather commutes with an
  operation that acts row by row), writes the first batch-norm in distributed form, folds the per-filter
  batch-norm into the dense layer's weights and bias on the host, and evaluates the rest tile by tile.

  The two rearrangements that are not mere re-indexings — the distributed form of the first batch-norm and the
  folding of the second — use distributivity, which holds on real numbers and not on all extended reals. The
  precondition supplies it: every float argument is real, and the two variances whose scales are moved have
  variance + ε positive, so those scales are real. The third batch-norm is written the same way in both programs
  and needs nothing.

  The kernel's output array comes from its generated blockwise value leg, read block by block; the reference's
  result from its generated run, read operation by operation; both are stated against one index-level
  specification, and the algebra joins them.
-/
import proofs.«106541_j17248588661540_2_alg».proof.Defs
import proofs.«106541_j17248588661540_2_alg».proof.Proof.Gen.Kernel
import proofs.«106541_j17248588661540_2_alg».proof.Proof.Gen.Kernel.Skeleton
import proofs.«106541_j17248588661540_2_alg».proof.Proof.Gen.Kernel.Launch
import proofs.«106541_j17248588661540_2_alg».proof.Proof.Gen.Kernel.Points
import proofs.«106541_j17248588661540_2_alg».proof.Proof.Gen.Kernel.Frame
import proofs.«106541_j17248588661540_2_alg».proof.Proof.Gen.KernelIdeal
import proofs.«106541_j17248588661540_2_alg».proof.Proof.Gen.KernelIdeal.Skeleton
import proofs.«106541_j17248588661540_2_alg».proof.Proof.Gen.KernelIdeal.Launch
import proofs.«106541_j17248588661540_2_alg».proof.Proof.Gen.KernelIdeal.Points
import proofs.«106541_j17248588661540_2_alg».proof.Proof.Gen.KernelIdeal.Frame
import proofs.«106541_j17248588661540_2_alg».proof.Proof.Gen.ReferenceIdeal
import proofs.«106541_j17248588661540_2_alg».proof.Proof.Gen.KernelIdeal.Value
import proofs.«106541_j17248588661540_2_alg».proof.Proof.Gen.ReferenceIdeal.Run
import proofs.«106541_j17248588661540_2_alg».proof.Proof.Gen.ReferenceIdeal.Read
import proofs.«106541_j17248588661540_2_alg».proof.Proof.Gen.Pre_finite_inputs
import proofs.«106541_j17248588661540_2_alg».proof.Proof.PreDecode
import proofs.«106541_j17248588661540_2_alg».proof.Proof.RefValue
import proofs.«106541_j17248588661540_2_alg».proof.Proof.KerHostAgree
import proofs.«106541_j17248588661540_2_alg».proof.Proof.Join
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, under the precondition, both programs end with the same
    scores: row r of the kernel's output is the common tail over the folded-arrangement features, row r of the
    reference's result the tail over the normalise-then-dense features of the same arguments, and on real
    arguments with real scales the two arrangements agree. -/
theorem algebraic : Cert.algebraic_KernelIdeal_ReferenceIdeal := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have hp := hpre c
  obtain ⟨h0, h1, h2, h3, h4, h5, h6, h7, h8, h9, h10, h11, h12, h13, h14, h15, h16, h17, h18, h19, h20, h21, h22, h23⟩ :=
    hagree c
  obtain ⟨f3, f4, f5, f6, f7, _, f9, f10, f11, f12, f13, _, f15, _, _, _, _, _, _, _, _, p8, p14⟩ :=
    Cert.HyperPre.decode _ _ _ _ _ _ _ _ _ _ _ _ _ _ _ _ _ _ _ _ _ _ _ _ hp
  have hreal : Cert.Hyper.Real (Cert.Hyper.KerHost.kerParams m c) :=
    Cert.HyperPre.real_mkParams _ _ _ _ _ _ _ _ _ _ _ _ _ _ _ _ _ _ _ _ _ _
      (Cert.Hyper.KerHost.kerE_real m c f3) f4 f5 f6 f7 f9 f10 f11 f12 f13 f15 p8 p14
  funext i
  obtain ⟨r, z, rfl⟩ : ∃ (r : Fin 4096) (z : Fin 1), i = ix2 r z := ⟨i 0, i 1, eq_ix2 i⟩
  obtain rfl : z = 0 := Subsingleton.elim _ _
  refine (Cert.Hyper.Ref.ref_value m' c r).trans ?_
  rw [Cert.Hyper.KerHost.params_agree m m' c h0 h1 h2 h3 h4 h5 h6 h7 h8 h9 h10 h11 h12 h13 h14 h15 h16 h17 h18 h19 h20
    h21 h22 h23]
  exact ((Cert.Hyper.Join.ker_out m c r).trans (Cert.Hyper.out_hk_eq_out_hr hreal r)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
